-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20x512x512 : Shape := ⟨4, ![8, 20, 512, 512]⟩
abbrev S_ : Shape := ⟨0, ![]⟩

class Facts : Prop where
  bcast_S_S8x20x512x512 : S_.BroadcastsInDim S8x20x512x512 (![] : Fin 0 → Fin S8x20x512x512.rank)
  reducesTo_S8x20x512x512_S_d0_1_2_3 : S8x20x512x512.ReducesTo [0, 1, 2, 3] S_
  h_S_ : 0 < S_.numel

variable [Facts]

def fn {F : FTy → Type} [FloatOps F] (main_arg0 : FVec F S8x20x512x512 .f32) : IVec S_ 1 :=
  let main_v0 : FVec F S8x20x512x512 .f32 := Host.absf main_arg0
  let main_cst : FVec F S_ .f32 := constant S_ .f32 0x7F800000#32
  let main_v1 : FVec F S8x20x512x512 .f32 := broadcastInDim S8x20x512x512 ![] bcast_S_S8x20x512x512 main_cst
  let main_v2 : IVec S8x20x512x512 1 := cmpf .olt main_v0 main_v1
  let main_c : IVec S_ 1 := constantI S_ 1 1#1
  let main_v3 : IVec S_ 1 := (fun x v => Host.reduce IntOp.andi x v reducesTo_S8x20x512x512_S_d0_1_2_3 h_S_) main_v2 main_c
  main_v3
-- ==== Kernel.lean ====
abbrev S8x20x512x512 : Shape := ⟨4, ![8, 20, 512, 512]⟩
abbrev S160x262144 : Shape := ⟨2, ![160, 262144]⟩
abbrev S160x1 : Shape := ⟨2, ![160, 1]⟩
abbrev S40x65536 : Shape := ⟨2, ![40, 65536]⟩
abbrev S40x1 : Shape := ⟨2, ![40, 1]⟩
abbrev S40x8192 : Shape := ⟨2, ![40, 8192]⟩
abbrev S40 : Shape := ⟨1, ![40]⟩
abbrev S8x20 : Shape := ⟨2, ![8, 20]⟩
abbrev S_ : Shape := ⟨0, ![]⟩
abbrev S8 : Shape := ⟨1, ![8]⟩

abbrev nBuf : Space → Nat
  | .hbm => 27
  | .vmem => 12
  | .smem => 0
  | _ => 0

abbrev bufTy : (tb : Table) → Fin (tcTables nBuf tb) → BufTy
  | .hbm, ⟨0, _⟩ => ⟨S8x20x512x512, .f32⟩
  | .hbm, ⟨1, _⟩ => ⟨S160x262144, .f32⟩
  | .hbm, ⟨2, _⟩ => ⟨S160x1, .f32⟩
  | .hbm, ⟨3, _⟩ => ⟨S160x1, .f32⟩
  | .hbm, ⟨4, _⟩ => ⟨S160x1, .f32⟩
  | .hbm, ⟨5, _⟩ => ⟨S8x20, .f32⟩
  | .hbm, ⟨6, _⟩ => ⟨S8x20, .f32⟩
  | .hbm, ⟨7, _⟩ => ⟨S8x20, .f32⟩
  | .hbm, ⟨8, _⟩ => ⟨S_, .f32⟩
  | .hbm, ⟨9, _⟩ => ⟨S8x20, .f32⟩
  | .hbm, ⟨10, _⟩ => ⟨S8x20, .i1⟩
  | .hbm, ⟨11, _⟩ => ⟨S_, .f32⟩
  | .hbm, ⟨12, _⟩ => ⟨S_, .f32⟩
  | .hbm, ⟨13, _⟩ => ⟨S8x20, .f32⟩
  | .hbm, ⟨14, _⟩ => ⟨S8x20, .f32⟩
  | .hbm, ⟨15, _⟩ => ⟨S8x20, .f32⟩
  | .hbm, ⟨16, _⟩ => ⟨S8x20, .f32⟩
  | .hbm, ⟨17, _⟩ => ⟨S8x20, .f32⟩
  | .hbm, ⟨18, _⟩ => ⟨S_, .f32⟩
  | .hbm, ⟨19, _⟩ => ⟨S8x20, .f32⟩
  | .hbm, ⟨20, _⟩ => ⟨S8x20, .f32⟩
  | .hbm, ⟨21, _⟩ => ⟨S8x20, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .local _ .vmem, ⟨0, _⟩ => ⟨S40x65536, .f32⟩
  | .local _ .vmem, ⟨1, _⟩ => ⟨S40x65536, .f32⟩
  | .local _ .vmem, ⟨2, _⟩ => ⟨S40x1, .f32⟩
  | .local _ .vmem, ⟨3, _⟩ => ⟨S40x1, .f32⟩
  | .local _ .vmem, ⟨4, _⟩ => ⟨S40x1, .f32⟩
  | .local _ .vmem, ⟨5, _⟩ => ⟨S40x1, .f32⟩
  | .local _ .vmem, ⟨6, _⟩ => ⟨S40x1, .f32⟩
  | .local _ .vmem, ⟨7, _⟩ => ⟨S40x1, .f32⟩
  | .local _ .vmem, ⟨8, _⟩ => ⟨S40x1, .f32⟩
  | .local _ .vmem, ⟨9, _⟩ => ⟨S40x1, .f32⟩
  | .local _ .vmem, ⟨10, _⟩ => ⟨S40x1, .f32⟩
  | .local _ .vmem, ⟨11, _⟩ => ⟨S40x1, .f32⟩
  | _, _ => ⟨S8x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_8 : BitVec 32 := 0#32
  let c8_i32 : BitVec 32 := 8#32
  let v7 : BitVec 32 := Scalar.addi c0_i32_8 c8_i32
  let c1_i32 : BitVec 32 := 1#32
  ⟨c0_i32_8, v7, c1_i32⟩
def k0_mult1 (k0_t1 : Fin k0_t1_loop.trips) : BitVec 32 :=
  let c0_i32_8 : BitVec 32 := 0#32
  let c1_i32 : BitVec 32 := 1#32
  let arg10 : BitVec 32 := Scf.iv c0_i32_8 c1_i32 k0_t1
  let c8192_i32 : BitVec 32 := 8192#32
  let v24 : BitVec 32 := Scalar.muli arg10 c8192_i32
  v24
def k0_off1 (k0_t1 : Fin k0_t1_loop.trips) : Fin 2 → Nat :=
  let c0_19 : Index := 0#32
  let c0_i32_8 : BitVec 32 := 0#32
  let c1_i32 : BitVec 32 := 1#32
  let arg10 : BitVec 32 := Scf.iv c0_i32_8 c1_i32 k0_t1
  let c8192_i32 : BitVec 32 := 8192#32
  let v24 : BitVec 32 := Scalar.muli arg10 c8192_i32
  let v25 : BitVec 32 := v24
  let v26 : Index := Scalar.indexCast v25
  ![0, v26.toNat]
def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S40x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S40x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S40x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x20x512x512_S160x262144 : S8x20x512x512.ShapeCasts S160x262144
  inb_S40x1_S40x1_0_0 : ∀ a, (![0, 0] : Fin 2 → Nat) a + S40x1.size a ≤ S40x1.size a
  h_S40x1 : 0 < S40x1.numel
  shapeCasts_S40x1_S40x1 : S40x1.ShapeCasts S40x1
  h_S40x8192 : 0 < S40x8192.numel
  shapeCasts_S40x8192_S40x8192 : S40x8192.ShapeCasts S40x8192
  reduces_S40x8192_S40 : S40x8192.Reduces [1] S40
  shapeCasts_S40_S40x1 : S40.ShapeCasts S40x1
  broadcasts_S40x1_S40x8192 : S40x1.Broadcasts S40x8192
  natLt_1_32 : 1 < 32
  shapeCasts_S160x1_S8x20 : S160x1.ShapeCasts S8x20
  bcast_S_S8x20 : S_.BroadcastsInDim S8x20 (![] : Fin 0 → Fin S8x20.rank)
  reducesTo_S8x20_S8_d1 : S8x20.ReducesTo [1] S8
  h_S_ : 0 < S_.numel
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S40x8192.size a ≤ S40x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x65536.size a ≤ S160x262144.size a
  hwx0_0 : ∀ i : grid0.Coords, EltTy.bits .f32 = 32 ∨ (Rect.block (s := S160x262144) S40x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x1.size a ≤ S160x1.size a
  hwx0_1 : ∀ i : grid0.Coords, EltTy.bits .f32 = 32 ∨ (Rect.block (s := S160x1) S40x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x1.size a ≤ S160x1.size a
  hwx0_2 : ∀ i : grid0.Coords, EltTy.bits .f32 = 32 ∨ (Rect.block (s := S160x1) S40x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x1.size a ≤ S160x1.size a
  hwx0_3 : ∀ i : grid0.Coords, EltTy.bits .f32 = 32 ∨ (Rect.block (s := S160x1) S40x1.size (cc0_transform_3 i) (hinb0_3 i)).WholeWords (EltTy.packing .f32)

variable [Facts₀]

abbrev win0_0 : Pipeline.Window sig grid0 :=
  Pipeline.Window.ofSpec (Memref.whole main_v0) S40x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S40x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S40x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S40x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x20x512x512 : Shape := ⟨4, ![8, 20, 512, 512]⟩
abbrev S8x20x262144 : Shape := ⟨3, ![8, 20, 262144]⟩
abbrev S_ : Shape := ⟨0, ![]⟩
abbrev S8x20 : Shape := ⟨2, ![8, 20]⟩
abbrev S8x20x1 : Shape := ⟨3, ![8, 20, 1]⟩
abbrev S8 : Shape := ⟨1, ![8]⟩

abbrev nBuf : Space → Nat
  | .hbm => 62
  | .vmem => 0
  | .smem => 0
  | _ => 0

abbrev bufTy : (tb : Table) → Fin (tcTables nBuf tb) → BufTy
  | .hbm, ⟨0, _⟩ => ⟨S8x20x512x512, .f32⟩
  | .hbm, ⟨1, _⟩ => ⟨S8x20x262144, .f32⟩
  | .hbm, ⟨2, _⟩ => ⟨S_, .f32⟩
  | .hbm, ⟨3, _⟩ => ⟨S8x20x262144, .f32⟩
  | .hbm, ⟨4, _⟩ => ⟨S8x20x262144, .i1⟩
  | .hbm, ⟨5, _⟩ => ⟨S_, .f32⟩
  | .hbm, ⟨6, _⟩ => ⟨S8x20x262144, .f32⟩
  | .hbm, ⟨7, _⟩ => ⟨S8x20x262144, .f32⟩
  | .hbm, ⟨8, _⟩ => ⟨S_, .f32⟩
  | .hbm, ⟨9, _⟩ => ⟨S8x20, .f32⟩
  | .hbm, ⟨10, _⟩ => ⟨S8x20x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x20x1, .f32⟩
  | .hbm, ⟨15, _⟩ => ⟨S8x20x1, .i1⟩
  | .hbm, ⟨16, _⟩ => ⟨S_, .f32⟩
  | .hbm, ⟨17, _⟩ => ⟨S_, .f32⟩
  | .hbm, ⟨18, _⟩ => ⟨S8x20x1, .f32⟩
  | .hbm, ⟨19, _⟩ => ⟨S8x20x1, .f32⟩
  | .hbm, ⟨20, _⟩ => ⟨S8x20x262144, .f32⟩
  | .hbm, ⟨21, _⟩ => ⟨S8x20x262144, .f32⟩
  | .hbm, ⟨22, _⟩ => ⟨S8x20x262144, .f32⟩
  | .hbm, ⟨23, _⟩ => ⟨S_, .f32⟩
  | .hbm, ⟨24, _⟩ => ⟨S_, .f32⟩
  | .hbm, ⟨25, _⟩ => ⟨S8x20x262144, .f32⟩
  | .hbm, ⟨26, _⟩ => ⟨S8x20x262144, .f32⟩
  | .hbm, ⟨27, _⟩ => ⟨S_, .f32⟩
  | .hbm, ⟨28, _⟩ => ⟨S8x20, .f32⟩
  | .hbm, ⟨29, _⟩ => ⟨S8x20x1, .f32⟩
  | .hbm, ⟨30, _⟩ => ⟨S_, .f32⟩
  | .hbm, ⟨31, _⟩ => ⟨S8x20x1, .f32⟩
  | .hbm, ⟨32, _⟩ => ⟨S8x20x1, .i1⟩
  | .hbm, ⟨33, _⟩ => ⟨S_, .f32⟩
  | .hbm, ⟨34, _⟩ => ⟨S_, .f32⟩
  | .hbm, ⟨35, _⟩ => ⟨S8x20x1, .f32⟩
  | .hbm, ⟨36, _⟩ => ⟨S8x20x1, .f32⟩
  | .hbm, ⟨37, _⟩ => ⟨S8x20x262144, .f32⟩
  | .hbm, ⟨38, _⟩ => ⟨S8x20x262144, .f32⟩
  | .hbm, ⟨39, _⟩ => ⟨S8x20x1, .f32⟩
  | .hbm, ⟨40, _⟩ => ⟨S8x20x262144, .f32⟩
  | .hbm, ⟨41, _⟩ => ⟨S8x20x262144, .f32⟩
  | .hbm, ⟨42, _⟩ => ⟨S8x20x262144, .f32⟩
  | .hbm, ⟨43, _⟩ => ⟨S8x20x262144, .f32⟩
  | .hbm, ⟨44, _⟩ => ⟨S8x20x262144, .f32⟩
  | .hbm, ⟨45, _⟩ => ⟨S_, .f32⟩
  | .hbm, ⟨46, _⟩ => ⟨S_, .f32⟩
  | .hbm, ⟨47, _⟩ => ⟨S8x20x262144, .f32⟩
  | .hbm, ⟨48, _⟩ => ⟨S8x20x262144, .f32⟩
  | .hbm, ⟨49, _⟩ => ⟨S_, .f32⟩
  | .hbm, ⟨50, _⟩ => ⟨S8x20, .f32⟩
  | .hbm, ⟨51, _⟩ => ⟨S8x20, .f32⟩
  | .hbm, ⟨52, _⟩ => ⟨S_, .f32⟩
  | .hbm, ⟨53, _⟩ => ⟨S8x20, .f32⟩
  | .hbm, ⟨54, _⟩ => ⟨S8x20, .f32⟩
  | .hbm, ⟨55, _⟩ => ⟨S8x20x262144, .i32⟩
  | .hbm, ⟨56, _⟩ => ⟨S_, .i32⟩
  | .hbm, ⟨57, _⟩ => ⟨S8, .i32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | _, _ => ⟨S8x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_call0_v0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_call2_v0 : Ref sig .tc := ⟨.hbm, 24, rfl⟩
abbrev main_call2_v1 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_cst_7 : Ref sig .tc := ⟨.hbm, 30, rfl⟩
abbrev main_v16 : Ref sig .tc := ⟨.hbm, 31, rfl⟩
abbrev main_v17 : Ref sig .tc := ⟨.hbm, 32, rfl⟩
abbrev main_cst_8 : Ref sig .tc := ⟨.hbm, 33, rfl⟩
abbrev main_call3_v0 : Ref sig .tc := ⟨.hbm, 34, rfl⟩
abbrev main_call3_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_call4_v0 : Ref sig .tc := ⟨.hbm, 46, rfl⟩
abbrev main_call4_v1 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_cst_12 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  shapeCasts_S8x20x512x512_S8x20x262144 : S8x20x512x512.ShapeCasts S8x20x262144
  bcast_S_S8x20x262144 : S_.BroadcastsInDim S8x20x262144 (![] : Fin 0 → Fin S8x20x262144.rank)
  reducesTo_S8x20x262144_S8x20_d2 : S8x20x262144.ReducesTo [2] S8x20
  h_S_ : 0 < S_.numel
  bcast_S8x20_S8x20x1_0_1 : S8x20.BroadcastsInDim S8x20x1 (![0, 1] : Fin 2 → Fin S8x20x1.rank)
  bcast_S_S8x20x1 : S_.BroadcastsInDim S8x20x1 (![] : Fin 0 → Fin S8x20x1.rank)
  bcast_S8x20x1_S8x20x262144_0_1_2 : S8x20x1.BroadcastsInDim S8x20x262144 (![0, 1, 2] : Fin 3 → Fin S8x20x262144.rank)
  bcast_S_S8x20 : S_.BroadcastsInDim S8x20 (![] : Fin 0 → Fin S8x20.rank)
  natLt_1_32 : 1 < 32
  reducesTo_S8x20x262144_S8_d1_2 : S8x20x262144.ReducesTo [1, 2] S8
  reducesTo_S8x20_S8_d1 : S8x20.ReducesTo [1] S8

variable [Facts₀]

class Facts : Prop extends Facts₀ where

variable [Facts]
-- ==== Proof.KernelTrips.lean ====
/-
  The kernel body's loop, as a function.

  At one grid point the body loads four carried columns (the running maximum, the sum of exponentials, the sum of
  exponentials times their exponents, the count of positive entries — one entry per row of the block), then walks the
  block's 65536 columns in eight chunks of 8192: each trip loads its chunk and replaces the four columns by a pure
  function of the old four and the chunk (`step`). What the loop yields is therefore the eight-fold iteration of
  `step` over the chunks in order (`iter`), whatever the float operations mean.
-/
import proofs.«121076_j35948876267666_2_alg».proof.Proof.Gen.KernelIdeal.Loops

noncomputable section

namespace Cert.KernelIdeal.Trips

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The four carried columns. -/
abbrev Acc (F : FTy → Type) [FloatOps F] : Type :=
  Vec F S40x1 .f32 × Vec F S40x1 .f32 × Vec F S40x1 .f32 × Vec F S40x1 .f32

/-- One chunk's update of the four carried columns. -/
def step (v : Vec F S40x8192 .f32) (acc : Acc F) : Acc F :=
  (k0_pay7 acc.1 v, k0_pay11 acc.1 acc.2.1 v, k0_pay12 acc.1 acc.2.1 acc.2.2.1 v, k0_pay13 acc.2.2.2 v)

/-- The chunk trip `k` loads from the block's staging buffer at contents `X`: forty rows, columns `8192 k …`. -/
def chunk (arg2 : Memref sig .tc .vmem S40x65536 .f32) (X : BufTy.Contents (Elt F) arg2.view.ty)
    (k : Fin k0_t1_loop.trips) : Vec F S40x8192 .f32 :=
  View.readAt (Elt F) arg2.view (Rect.unit (s := S40x65536) (k0_off1 k) S40x8192.size (k0_off1_inb k)).toLoadRect X

/-- What one trip yields: the update by the chunk it loads. -/
theorem trip_eq (𝒱 : Variants) (bd : Option 𝒱.V) (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole)
    (X : BufTy.Contents (Elt F) arg2.view.ty) (k : Fin k0_t1_loop.trips) (acc : Acc F) :
    tripR_k0_t1 (F := F) 𝒱 c bd i arg2 harg2 arg3 harg3 arg4 harg4 arg5 harg5 arg6 harg6 arg7 harg7 arg8 harg8 arg9 harg9 X k acc
      = step (chunk arg2 X k) acc := by
  unfold tripR_k0_t1 trip_k0_t1
  rfl

/-- The carried columns before trip `n`: the updates by chunks `0 … n − 1` in order. -/
def iter (ch : Fin k0_t1_loop.trips → Vec F S40x8192 .f32) (init : Acc F) : ℕ → Acc F
  | 0 => init
  | n + 1 => if h : n < k0_t1_loop.trips then step (ch ⟨n, h⟩) (iter ch init n) else iter ch init n

/-- The loop's carried value is that iteration over the chunks it loads. -/
theorem st_eq_iter (𝒱 : Variants) (bd : Option 𝒱.V) (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole)
    (X : BufTy.Contents (Elt F) arg2.view.ty) (init : Acc F) (n : ℕ) :
    st_k0_t1 (F := F) 𝒱 c bd i arg2 harg2 arg3 harg3 arg4 harg4 arg5 harg5 arg6 harg6 arg7 harg7 arg8 harg8 arg9 harg9 X init n
      = iter (chunk arg2 X) init n := by
  induction n with
  | zero => rfl
  | succ n ih =>
    rw [st_k0_t1.eq_2]
    unfold st_k0_t1Step
    show _ = (if h : n < k0_t1_loop.trips then step (chunk arg2 X ⟨n, h⟩) (iter (chunk arg2 X) init n) else iter (chunk arg2 X) init n)
    by_cases h : n < k0_t1_loop.trips
    · rw [dif_pos h, dif_pos h, trip_eq, ih]
    · rw [dif_neg h, dif_neg h, ih]

/-- The loop makes eight trips. -/
theorem trips_eq : k0_t1_loop.trips = 8 := by decide

end Cert.KernelIdeal.Trips

end
-- ==== Proof.KernelPieces.lean ====
/-
  What one grid point leaves in the carried columns and in the outputs.

  Every case of the body ends by storing the loop's four results whole into the four carried columns. At the first
  point of a row block (reduction index 0) the columns were just initialised — the running maximum to the sentinel,
  the three sums to zero — so the loop starts from those; at every other point it starts from what the point before
  left. At the last point (reduction index 3) the body also copies the three sums, whole, into the three outputs.
  Each lemma reads one buffer's final contents off the stores that the body's run found: the last whole store wins.
-/
import proofs.«121076_j35948876267666_2_alg».proof.Proof.Gen.KernelIdeal.Frame
import proofs.«121076_j35948876267666_2_alg».proof.Proof.KernelTrips
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Trips

variable {F : FTy → Type} [FloatOps F]

/-- The zero offsets of a whole-column rectangle. -/
theorem hz : (![0, 0] : Fin S40x1.rank → ℕ) = fun _ => 0 := by
  funext a; match a with | ⟨0, _⟩ => rfl | ⟨1, _⟩ => rfl

/-- The loop's result over a block `x0` from carried columns `init`. -/
abbrev loopOf (arg2 : Memref sig .tc .vmem S40x65536 .f32) (harg2 : arg2.IsWhole) (x0 : Vec F S40x65536 .f32) (init : Acc F) : Acc F :=
  iter (chunk arg2 (harg2.unread x0)) init k0_t1_loop.trips

/-! ## The first point of a row block: the carried columns start from the sentinel and zeros -/

theorem sout_A_0 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x65536 .f32) :
    sout0_A_0 c i arg2 harg2 arg3 harg3 arg4 harg4 arg5 harg5 arg6 harg6 arg7 harg7 arg8 harg8 arg9 harg9 hc0 hc1 x0 = (loopOf arg2 harg2 x0 (k0_pay1, k0_pay2, k0_pay3, k0_pay4)).1 := by
  unfold sout0_A_0
  rw [View.read_writes_eq_canon _ _ _ (scover0_A_0 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero hz]
  simp only [View.readAt_eq_ld, Memref.IsWhole.read_unread, View.ld_unit_zero (S := S40x1) hz, View.readCov_unit_zero (S := S40x1) _ hz, st_eq_iter]
  unfold k0_pay14
  exact shapeCast_self _ _

theorem sout_A_1 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x65536 .f32) :
    sout0_A_1 c i arg2 harg2 arg3 harg3 arg4 harg4 arg5 harg5 arg6 harg6 arg7 harg7 arg8 harg8 arg9 harg9 hc0 hc1 x0 = (loopOf arg2 harg2 x0 (k0_pay1, k0_pay2, k0_pay3, k0_pay4)).2.1 := by
  unfold sout0_A_1
  rw [View.read_writes_eq_canon _ _ _ (scover0_A_1 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero hz]
  simp only [View.readAt_eq_ld, Memref.IsWhole.read_unread, View.ld_unit_zero (S := S40x1) hz, View.readCov_unit_zero (S := S40x1) _ hz, st_eq_iter]
  unfold k0_pay15
  exact shapeCast_self _ _

theorem sout_A_2 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x65536 .f32) :
    sout0_A_2 c i arg2 harg2 arg3 harg3 arg4 harg4 arg5 harg5 arg6 harg6 arg7 harg7 arg8 harg8 arg9 harg9 hc0 hc1 x0 = (loopOf arg2 harg2 x0 (k0_pay1, k0_pay2, k0_pay3, k0_pay4)).2.2.1 := by
  unfold sout0_A_2
  rw [View.read_writes_eq_canon _ _ _ (scover0_A_2 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero hz]
  simp only [View.readAt_eq_ld, Memref.IsWhole.read_unread, View.ld_unit_zero (S := S40x1) hz, View.readCov_unit_zero (S := S40x1) _ hz, st_eq_iter]
  unfold k0_pay16
  exact shapeCast_self _ _

theorem sout_A_3 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x65536 .f32) :
    sout0_A_3 c i arg2 harg2 arg3 harg3 arg4 harg4 arg5 harg5 arg6 harg6 arg7 harg7 arg8 harg8 arg9 harg9 hc0 hc1 x0 = (loopOf arg2 harg2 x0 (k0_pay1, k0_pay2, k0_pay3, k0_pay4)).2.2.2 := by
  unfold sout0_A_3
  rw [View.read_writes_eq_canon _ _ _ (scover0_A_3 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero hz]
  simp only [View.readAt_eq_ld, Memref.IsWhole.read_unread, View.ld_unit_zero (S := S40x1) hz, View.readCov_unit_zero (S := S40x1) _ hz, st_eq_iter]
  unfold k0_pay17
  exact shapeCast_self _ _

/-! ## A middle point: the carried columns continue from what the point before left -/

theorem sout_B_0 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x65536 .f32) (xs0 xs1 xs2 xs3 : Vec F S40x1 .f32) :
    sout0_B_0 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay14
  exact shapeCast_self _ _

theorem sout_B_1 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x65536 .f32) (xs0 xs1 xs2 xs3 : Vec F S40x1 .f32) :
    sout0_B_1 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay15
  exact shapeCast_self _ _

theorem sout_B_2 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x65536 .f32) (xs0 xs1 xs2 xs3 : Vec F S40x1 .f32) :
    sout0_B_2 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.2.1 := by
  unfold sout0_B_2
  rw [View.read_writes_eq_canon _ _ _ (scover0_B_2 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay16
  exact shapeCast_self _ _

theorem sout_B_3 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x65536 .f32) (xs0 xs1 xs2 xs3 : Vec F S40x1 .f32) :
    sout0_B_3 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.2.2 := by
  unfold sout0_B_3
  rw [View.read_writes_eq_canon _ _ _ (scover0_B_3 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay17
  exact shapeCast_self _ _

/-! ## The last point: the same update, and the three sums copied to the outputs -/

theorem sout_C_0 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    sout0_C_0 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay14
  exact shapeCast_self _ _

theorem sout_C_1 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    sout0_C_1 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay15
  exact shapeCast_self _ _

theorem sout_C_2 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    sout0_C_2 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.2.1 := by
  unfold sout0_C_2
  rw [View.read_writes_eq_canon _ _ _ (scover0_C_2 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay16
  exact shapeCast_self _ _

theorem sout_C_3 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    sout0_C_3 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.2.2 := by
  unfold sout0_C_3
  rw [View.read_writes_eq_canon _ _ _ (scover0_C_3 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay17
  exact shapeCast_self _ _

theorem out_C_1 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    out0_C_1 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.1 := by
  unfold out0_C_1
  rw [View.read_writes_eq_canon _ _ _ (cover0_C_1 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay15
  exact shapeCast_self _ _

theorem out_C_2 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    out0_C_2 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.2.1 := by
  unfold out0_C_2
  rw [View.read_writes_eq_canon _ _ _ (cover0_C_2 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay16
  exact shapeCast_self _ _

theorem out_C_3 (c : Dev nD) (i : grid0.Coords) (arg2 : Memref sig .tc .vmem S40x65536 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x65536 .f32) (xs0 xs1 xs2 xs3 : Vec F S40x1 .f32) :
    out0_C_3 c i arg2 harg2 arg3 harg3 arg4 harg4 arg5 harg5 arg6 harg6 arg7 harg7 arg8 harg8 arg9 harg9 hc0 hc1 x0 xs0 xs1 xs2 xs3 = (loopOf arg2 harg2 x0 (xs0, xs1, xs2, xs3)).2.2.2 := by
  unfold out0_C_3
  rw [View.read_writes_eq_canon _ _ _ (cover0_C_3 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, Memref.IsWhole.read_unread, View.ld_unit_zero (S := S40x1) hz, View.readCov_unit_zero (S := S40x1) _ hz, st_eq_iter]
  unfold k0_pay17
  exact shapeCast_self _ _

end Cert.KernelIdeal.Pieces

end
-- ==== Proof.KernelPoints.lean ====
/-
  The carried columns, point by point.
-/
import proofs.«121076_j35948876267666_2_alg».proof.Proof.Gen.KernelIdeal.Frame
import proofs.«121076_j35948876267666_2_alg».proof.Proof.KernelPieces
import Idealize.ShloMosaic.Lib.ValueIdx

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Trips Cert.KernelIdeal.Pieces

variable {F : FTy → Type} [FloatOps F]

/-- Where trip `k` loads: row 0, column `8192 k`. -/
theorem off_facts : ∀ k : Fin k0_t1_loop.trips, k0_off1 k = ![0, 8192 * k.val] := by decide

/-- Entry `(p, q)` of the chunk trip `k` loads is entry `(p, 8192 k + q)` of the block. -/
theorem chunk_apply (arg2 : Memref sig .tc .vmem S40x65536 .f32) (harg2 : arg2.IsWhole) (x0 : Vec F S40x65536 .f32)
    (k : Fin k0_t1_loop.trips) (p : Fin 40) (q : Fin 8192) :
    chunk arg2 (harg2.unread x0) k (ix2 p q)
      = x0 (ix2 p (⟨8192 * k.val + q.val, by have hk := k.isLt; have e8 : k0_t1_loop.trips = 8 := trips_eq; omega⟩ : Fin 65536)) := by
  unfold chunk
  rw [View.readAt_eq_ld, harg2.read_unread]
  show x0 _ = x0 _
  refine congrArg x0 ?_
  funext a
  apply Fin.ext
  match a with
  | ⟨0, _⟩ => show (k0_off1 k) 0 + 1 * p.val = p.val; rw [off_facts k]; simp
  | ⟨1, _⟩ => show (k0_off1 k) 1 + 1 * q.val = 8192 * k.val + q.val; rw [off_facts k]; simp

variable (m : (ℓ : Loc nD τ sig) → Buf (Elt F) ℓ) (c : Dev nD)

/-- Point `t` is row block `t / 4`, column block `t % 4`. -/
theorem idx_facts : ∀ t : Fin cfg0.N, win0_0.index t (0 : Fin 2) = t.val / 4 ∧ win0_0.index t (1 : Fin 2) = t.val % 4 := by
  decide +kernel

/-- The row of the array that row `p` of point `t`'s block is. -/
def rowIdx (t : Fin cfg0.N) (p : Fin 40) : Fin 160 :=
  ⟨40 * (t.val / 4) + p.val, by have := t.isLt; have hN : cfg0.N = 16 := N_0; omega⟩

/-- Entry `(p, j)` of point `t`'s block is entry `(40 (t / 4) + p, 65536 (t % 4) + j)` of the array. -/
theorem iblk_apply (t : Fin cfg0.N) (p : Fin 40) (j : Fin 65536) :
    iblk m c 0 t (ix2 p j)
      = V m c main_v0 (ix2 (rowIdx t p) (⟨65536 * (t.val % 4) + j.val, by omega⟩ : Fin 262144)) := by
  unfold iblk
  show V m c main_v0 _ = V m c main_v0 _
  refine congrArg (V m c main_v0) ?_
  funext a
  apply Fin.ext
  match a with
  | ⟨0, _⟩ => show win0_0.index t 0 * 40 + 1 * p.val = 40 * (t.val / 4) + p.val; rw [(idx_facts t).1]; omega
  | ⟨1, _⟩ => show win0_0.index t 1 * 65536 + 1 * j.val = 65536 * (t.val % 4) + j.val; rw [(idx_facts t).2]; omega

/-- The four carried columns among what a point leaves. -/
abbrev carried (o : Vec F S40x1 .f32 × Vec F S40x1 .f32 × Vec F S40x1 .f32 × Vec F S40x1 .f32 × Vec F S40x1 .f32 × Vec F S40x1 .f32 × Vec F S40x1 .f32) : Acc F :=
  (o.2.2.2.1, o.2.2.2.2.1, o.2.2.2.2.2.1, o.2.2.2.2.2.2)

/-- After the first point of a row block: the loop from the sentinel and zeros over that point's block. -/
theorem carried_A (t : Fin cfg0.N) (h0 : t.val % 4 = 0) (h1 : ¬t.val % 4 = 3) :
    carried (outsAt0 m c t.val t.isLt)
      = loopOf (ms0_0 t) (hs0_0 t) (iblk m c 0 t) (k0_pay1, k0_pay2, k0_pay3, k0_pay4) := by
  rw [outsAt0_A m c t h0 h1]
  exact Prod.ext (sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t))
    (Prod.ext (sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t))
      (Prod.ext (sout_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t))
        (sout_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t))))

/-- After a middle point: the loop from what the point before left. -/
theorem carried_B (t : Fin cfg0.N) (h0 : ¬t.val % 4 = 0) (h1 : ¬t.val % 4 = 3) :
    carried (outsAt0 m c t.val t.isLt)
      = loopOf (ms0_0 t) (hs0_0 t) (iblk m c 0 t) (carried (outsAt0 m c (t.val - 1) (Nat.lt_of_le_of_lt (Nat.sub_le _ _) t.isLt))) := by
  rw [outsAt0_B m c t h0 h1]
  exact Prod.ext (sout_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (Prod.ext (sout_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
      (Prod.ext (sout_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
        (sout_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)))

/-- After the last point: the same. -/
theorem carried_C (t : Fin cfg0.N) (h0 : ¬t.val % 4 = 0) (h1 : t.val % 4 = 3) :
    carried (outsAt0 m c t.val t.isLt)
      = loopOf (ms0_0 t) (hs0_0 t) (iblk m c 0 t) (carried (outsAt0 m c (t.val - 1) (Nat.lt_of_le_of_lt (Nat.sub_le _ _) t.isLt))) := by
  rw [outsAt0_C m c t h0 h1]
  exact Prod.ext (sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (Prod.ext (sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
      (Prod.ext (sout_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
        (sout_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)))

/-- At the last point the three outputs are the three sums just carried. -/
theorem outs_C (t : Fin cfg0.N) (h0 : ¬t.val % 4 = 0) (h1 : t.val % 4 = 3) :
    (outsAt0 m c t.val t.isLt).1 = (carried (outsAt0 m c t.val t.isLt)).2.1
    ∧ (outsAt0 m c t.val t.isLt).2.1 = (carried (outsAt0 m c t.val t.isLt)).2.2.1
    ∧ (outsAt0 m c t.val t.isLt).2.2.1 = (carried (outsAt0 m c t.val t.isLt)).2.2.2 := by
  rw [outsAt0_C m c t h0 h1]
  refine ⟨?_, ?_, ?_⟩
  · exact (out_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).trans (sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).symm
  · exact (out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).trans (sout_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).symm
  · exact (out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).trans (sout_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).symm

end Cert.KernelIdeal.Accum

end
-- ==== Proof.EntropySpec.lean ====
/-
  The mathematics this certificate is about, stated once, with no program in sight.

  One ROW is a finite family of real numbers `x j`. Only its positive entries count: with `P = {j | 0 < x j}`,
    s = ∑_{j ∈ P} exp (x j − M),   A = ∑_{j ∈ P} exp (x j − M) · (x j − M),   n = |P|,
  where `M` is any number that is the largest positive entry when there is one (the sums are empty otherwise, so
  `M` does not matter then). The row's entropy in bits is `(log s · s − A) / (s · ln 2)` (with `s` replaced by `1`
  in the logarithm and the quotient when `s = 0`), which is `−∑_{j ∈ P} p_j log₂ p_j` for `p_j = exp (x j − M) / s`.

  One program accumulates `(M, s, A, n)` over the row's columns a chunk at a time, starting the running maximum
  from a large negative sentinel and taking it over ALL entries seen (a positive entry dominates every other,
  so the final running maximum is the largest positive entry whenever there is one); each chunk rescales the sums
  by `exp (M_old − M_new)`. The other masks the row first. This module states the quantities both compute:
  the real closed forms over a SET of columns seen so far (`runMax`, `sumExp`, `sumExpT`, `cntPos`), the row's
  entropy (`entRow`), and — as functions of extended reals, in the shape the programs' operations have —
  one chunk's update (`eMax`, `eL`, `eA`, `eC`), the entropy from the accumulated sums (`eEnt`) and the masked
  row formula (`rMax` … `rEnt`). That the extended-real forms, at finite arguments, are the real closed forms is
  proved in the modules that import this one.
-/
import Idealize.ShloMosaic.PureOps.Ideal

noncomputable section

namespace Cert.Entropy

open Idealize.ShloMosaic

/-! ## The three float literals the programs share, as extended reals and as the reals they denote -/

/-- The large negative sentinel (about −10³⁰) the running maximum starts from and the masked row is filled with. -/
def negBigE : EReal := Ideal.ofBits .f32 0xF149F2CA#32
/-- The single-precision value nearest the natural logarithm of 2. -/
def ln2E : EReal := Ideal.ofBits .f32 0x3F317218#32
/-- One half. -/
def halfE : EReal := Ideal.ofBits .f32 0x3F000000#32

def negBig : ℝ := negBigE.toReal
def ln2 : ℝ := ln2E.toReal

/-! ## Real closed forms over the set `T` of columns seen so far -/

section Row

variable {ι : Type*} [DecidableEq ι] (x : ι → ℝ)

/-- The running maximum: the sentinel and every entry seen, positive or not. -/
def runMax (T : Finset ι) : ℝ := T.fold max negBig x

/-- The positive entries seen. -/
def pos (T : Finset ι) : Finset ι := T.filter fun j => 0 < x j

/-- `∑ exp (x j − runMax)` over the positive entries seen. -/
def sumExp (T : Finset ι) : ℝ := ∑ j ∈ pos x T, Real.exp (x j - runMax x T)

/-- `∑ exp (x j − runMax) · (x j − runMax)` over the positive entries seen. -/
def sumExpT (T : Finset ι) : ℝ := ∑ j ∈ pos x T, Real.exp (x j - runMax x T) * (x j - runMax x T)

/-- How many positive entries were seen, as a real number. -/
def cntPos (T : Finset ι) : ℝ := ((pos x T).card : ℝ)

variable [Fintype ι]

/-- The row's entropy in bits from its two sums over the whole row. -/
def entRow : ℝ :=
  (Real.log (if 0 < sumExp x Finset.univ then sumExp x Finset.univ else 1) * sumExp x Finset.univ - sumExpT x Finset.univ)
    / ((if 0 < sumExp x Finset.univ then sumExp x Finset.univ else 1) * ln2)

end Row

/-! ## One chunk's update on extended reals: `m l a c` carried, `v` the chunk's entries -/

section Chunk

variable {κ : Type*} [Fintype κ]

/-- New running maximum: the old one against the chunk's maximum (a fold of `max` from `−∞`). -/
def eMax (m : EReal) (v : κ → EReal) : EReal := max m (Finset.univ.fold max ⊥ v)

/-- New `∑ exp`: the old sum rescaled, plus the chunk's positive entries. -/
def eL (m l : EReal) (v : κ → EReal) : EReal :=
  Ideal.exp (m - eMax m v) * l + ∑ q, (if 0 < v q then Ideal.exp (v q - eMax m v) else 0)

/-- New `∑ exp · t`: the old sum shifted and rescaled, plus the chunk's positive entries. -/
def eA (m l a : EReal) (v : κ → EReal) : EReal :=
  Ideal.exp (m - eMax m v) * (a + (m - eMax m v) * l)
    + ∑ q, (if 0 < v q then Ideal.exp (v q - eMax m v) else 0) * (v q - eMax m v)

/-- New count: the old one plus one per positive entry of the chunk. -/
def eC (c : EReal) (v : κ → EReal) : EReal := c + ∑ q, (if 0 < v q then (1 : EReal) else 0)

end Chunk

/-! ## The entropy from the accumulated sums, on extended reals -/

/-- `(log s' · s − a) / (s' · ln 2)` with `s' = s` if `0 < s`, else `1`. -/
def eEnt (s a : EReal) : EReal :=
  Ideal.div (Ideal.log (if 0 < s then s else 1) * s - a) ((if 0 < s then s else 1) * ln2E)

/-! ## The masked row formula on extended reals: `X` a whole row -/

section Masked

variable {ι : Type*} [Fintype ι] (X : ι → EReal)

/-- The maximum of the row with its non-positive entries replaced by the sentinel; `0` when that is at most
    half the sentinel (no positive entry). -/
def rMax : EReal :=
  if (Finset.univ.fold max ⊥ fun j => if 0 < X j then X j else negBigE) ≤ negBigE * halfE then 0
  else Finset.univ.fold max ⊥ fun j => if 0 < X j then X j else negBigE

/-- `exp (X j − rMax)` at the positive entries, `0` elsewhere. -/
def rExp (j : ι) : EReal := if 0 < X j then Ideal.exp (X j - rMax X) else 0

/-- Their sum (from the initial value `0`). -/
def rSum : EReal := 0 + ∑ j, rExp X j

/-- The sum, or `1` when it is not positive. -/
def rSafe : EReal := if 0 < rSum X then rSum X else 1

/-- `p_j · log p_j` at the positive entries, `0` elsewhere. -/
def rTerm (j : ι) : EReal :=
  if 0 < X j then Ideal.div (rExp X j) (rSafe X) * ((X j - rMax X) - Ideal.log (rSafe X)) else 0

/-- The row's entropy in bits: `−(∑ p_j log p_j) / ln 2`. -/
def rEnt : EReal := Ideal.div (-(0 + ∑ j, rTerm X j)) ln2E

/-- The number of positive entries. -/
def rCnt : EReal := (((Finset.univ.filter fun j => 0 < X j).card : ℝ) : EReal)

end Masked

/-! ## The result: per batch entry, the channels' entropies summed over the channels' counts summed -/

/-- Row `20 n + c` of the 160 rows is channel `c` of batch entry `n`. -/
def rowOf (n : Fin 8) (c : Fin 20) : Fin 160 := ⟨20 * n.val + c.val, by omega⟩

/-- The entropy of batch entry `n`: both sums start from `0`, as the programs' reductions do. -/
def result (x : Fin 160 → Fin 262144 → ℝ) (n : Fin 8) : EReal :=
  Ideal.div (0 + ∑ c : Fin 20, ((entRow (x (rowOf n c)) : ℝ) : EReal))
    (0 + ∑ c : Fin 20, ((cntPos (x (rowOf n c)) Finset.univ : ℝ) : EReal))

end Cert.Entropy

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.KernelRow.lean ====
/-
  The kernel body's pure vector terms, read at one row, at the exact-real instance.

  Each of the 40 rows of a chunk is handled alike, so every term below is read at the one entry `(p, 0)` of a
  column `[40, 1]` vector. With `m l a c` the four carried columns (running maximum, sum of exponentials, sum of
  exponentials times their exponents, count) and `v` the `[40, 8192]` chunk:
    * the initial values are the large negative sentinel for the maximum and zero for the three sums;
    * the new running maximum is the old one against the maximum of the row's 8192 entries, a fold of `max` from `-∞`;
    * the new sum of exponentials is the old one rescaled by `exp (m - M)`, `M` the new maximum, plus `exp (x - M)`
      over the row's positive entries `x` (the others contribute zero);
    * the new weighted sum is the old one shifted by `(m - M) · l` and rescaled likewise, plus
      `exp (x - M) · (x - M)` over the positive entries;
    * the new count is the old one plus one for every positive entry.
  A shape cast between equal shapes is the identity, a column cast of a row statistic reads the statistic at the
  row, a column broadcast along the row reads the column at the row, and a reduction along the row is a sum, or a
  fold of `max`, over the row's 8192 coordinates.
-/
import proofs.«121076_j35948876267666_2_alg».proof.Proof.Gen.KernelIdeal.Skeleton
import proofs.«121076_j35948876267666_2_alg».proof.Proof.EntropySpec
import proofs.«121076_j35948876267666_2_alg».proof.Proof.LibLayout
import Idealize.ShloMosaic.Lib.ValueIdx
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen Cert.Entropy

variable [Cert.KernelIdeal.Facts]

/-! ## Pointwise operations read at an index

Each vector operation is the scalar one at every index; stated over arbitrary operands so that a term is rewritten
by name, operand by operand. -/

section Pointwise

variable {s : Shape}

private theorem maximumf_at (x y : FVec Ideal s .f32) (i : s.Idx) : maximumf x y i = max (x i) (y i) := rfl
private theorem addf_at (x y : FVec Ideal s .f32) (i : s.Idx) : addf x y i = x i + y i := rfl
private theorem subf_at (x y : FVec Ideal s .f32) (i : s.Idx) : subf x y i = x i - y i := rfl
private theorem mulf_at (x y : FVec Ideal s .f32) (i : s.Idx) : mulf x y i = x i * y i := rfl
private theorem exp_at (x : FVec Ideal s .f32) (i : s.Idx) : exp x i = Ideal.exp (x i) := rfl
private theorem cmpf_ogt_at (x y : FVec Ideal s .f32) (i : s.Idx) :
    cmpf .ogt x y i = BitVec.ofBool (decide (y i < x i)) := rfl
private theorem broadcast_at {α : Type} (c : α) (i : s.Idx) : broadcast s c i = c := rfl
private theorem select_at (c : IVec s 1) (a b : FVec Ideal s .f32) (i : s.Idx) :
    select c a b i = if c i = 1 then a i else b i := rfl
private theorem sitofp_extui_at (c : IVec s 1) (h : 1 < 32) (i : s.Idx) :
    sitofp (F := Ideal) .f32 (extui 32 c h) i = ((((c i).setWidth 32).toInt : ℝ) : EReal) := rfl

end Pointwise

/-! ## Layout and literals -/

/-- The index a row reduction reads at coordinate `q` of row `p` is `(p, q)`. -/
private theorem lift_row (h : S40x8192.Reduces [1] S40) (p : Fin 40) (q : Fin 8192) :
    h.lift (ix1 p) q = ix2 p q := by
  funext c
  match c with
  | ⟨0, _⟩ => rfl
  | ⟨1, _⟩ => rfl

/-- The pattern of single precision's `-∞` denotes `⊥`. -/
private theorem ofBits_negInf : Ideal.ofBits .f32 0xFF800000#32 = ⊥ := by simp [Ideal.ofBits, Ideal.ieee]

/-- The pattern of single precision's `+0` denotes `0`. -/
private theorem ofBits_zero : Ideal.ofBits .f32 0x00000000#32 = 0 := by simp [Ideal.ofBits, Ideal.ieee]

/-- A sum along the row, cast to a column, read at row `p`: the sum over the row's 8192 coordinates. -/
private theorem rowSum (src : FVec Ideal S40x8192 .f32) (h : S40x8192.Reduces [1] S40) (hφ : FKind.Formats .f32)
    (hacc : (0x00000000#32 : BitVec 32) = FKind.add.neutral .f32 hφ) (hc : S40.ShapeCasts S40x1) (p : Fin 40) :
    shapeCast S40x1 (multiReduction (F := Ideal) .add [1] S40 src 0x00000000#32 h hφ hacc) hc (ix2 p (0 : Fin 1))
      = ∑ q : Fin 8192, src (ix2 p q) := by
  rw [Cert.LibLayout.shapeCast_a_a1_apply]
  refine (Ideal.multiReduction_add_single _ _ _ _ _ _).trans ?_
  exact Finset.sum_congr rfl fun q _ => congrArg src (lift_row h p q)

/-- A maximum along the row, cast to a column, read at row `p`: the fold of `max` from `-∞` over the row. -/
private theorem rowMax (src : FVec Ideal S40x8192 .f32) (h : S40x8192.Reduces [1] S40) (hφ : FKind.Formats .f32)
    (hacc : (0xFF800000#32 : BitVec 32) = FKind.maximumf.neutral .f32 hφ) (hc : S40.ShapeCasts S40x1) (p : Fin 40) :
    shapeCast S40x1 (multiReduction (F := Ideal) .maximumf [1] S40 src 0xFF800000#32 h hφ hacc) hc (ix2 p (0 : Fin 1))
      = Finset.univ.fold max ⊥ (fun q : Fin 8192 => src (ix2 p q)) := by
  rw [Cert.LibLayout.shapeCast_a_a1_apply]
  refine (Ideal.multiReduction_maximumf_single _ _ _ _ _ _).trans ?_
  rw [Ideal.ofBits_def, ofBits_negInf]
  exact congrArg (fun f : Fin 8192 → EReal => Finset.univ.fold max ⊥ f) (funext fun q => congrArg src (lift_row h p q))

/-- The chunk cast to its own shape is the chunk. -/
private theorem pay5_eq (v : Vec Ideal S40x8192 .f32) : k0_pay5 (F := Ideal) v = v := by
  unfold k0_pay5
  exact shapeCast_self _ _

/-! ## The initial values -/

theorem pay1_row (p : Fin 40) : k0_pay1 (F := Ideal) (ix2 p (0 : Fin 1)) = negBigE := by
  unfold k0_pay1
  rw [shapeCast_self]
  rfl

theorem pay2_row (p : Fin 40) : k0_pay2 (F := Ideal) (ix2 p (0 : Fin 1)) = 0 := by
  unfold k0_pay2
  rw [shapeCast_self]
  exact ofBits_zero

theorem pay3_row (p : Fin 40) : k0_pay3 (F := Ideal) (ix2 p (0 : Fin 1)) = 0 := by
  unfold k0_pay3
  rw [shapeCast_self]
  exact ofBits_zero

theorem pay4_row (p : Fin 40) : k0_pay4 (F := Ideal) (ix2 p (0 : Fin 1)) = 0 := by
  unfold k0_pay4
  rw [shapeCast_self]
  exact ofBits_zero

/-! ## The running maximum -/

theorem pay7_row (m : Vec Ideal S40x1 .f32) (v : Vec Ideal S40x8192 .f32) (p : Fin 40) :
    k0_pay7 (F := Ideal) m v (ix2 p (0 : Fin 1)) = eMax (m (ix2 p (0 : Fin 1))) (fun q : Fin 8192 => v (ix2 p q)) := by
  unfold k0_pay7 eMax
  show maximumf (F := Ideal) (φ := .f32) m (shapeCast S40x1 _ _) (ix2 p (0 : Fin 1)) = _
  rw [maximumf_at]
  refine (congrArg (max _) (rowMax _ _ _ _ _ p)).trans ?_
  rw [pay5_eq]

/-! ## The mask, the shifted entries and their exponentials, at an entry `(p, q)` -/

/-- The mask of the positive entries, as a bit. -/
private theorem pay6_at (v : Vec Ideal S40x8192 .f32) (i : S40x8192.Idx) :
    k0_pay6 (F := Ideal) v i = BitVec.ofBool (decide (0 < v i)) := by
  unfold k0_pay6
  rw [pay5_eq]
  show cmpf (F := Ideal) (φ := .f32) .ogt v (broadcast S40x8192 _) i = _
  rw [cmpf_ogt_at, broadcast_at, Ideal.ofBits_def, ofBits_zero]

/-- A bit that records a test equals one exactly when the test holds. -/
private theorem ofBool_decide_eq_one (P : Prop) [Decidable P] : BitVec.ofBool (decide P) = 1 ↔ P := by
  by_cases h : P <;> simp [h]

/-- The bit of a test, widened to 32 bits and read as a signed integer, is one or zero. -/
private theorem mask_toReal (P : Prop) [Decidable P] :
    (((((BitVec.ofBool (decide P)).setWidth 32).toInt : ℝ)) : EReal) = if P then 1 else 0 := by
  by_cases h : P <;> simp [h]

/-- The old maximum less the new one, exponentiated: the factor that rescales the carried sums. -/
private theorem pay8_row (m : Vec Ideal S40x1 .f32) (v : Vec Ideal S40x8192 .f32) (p : Fin 40) :
    k0_pay8 (F := Ideal) m v (ix2 p (0 : Fin 1))
      = Ideal.exp (m (ix2 p (0 : Fin 1)) - eMax (m (ix2 p (0 : Fin 1))) (fun q : Fin 8192 => v (ix2 p q))) := by
  unfold k0_pay8
  show exp (F := Ideal) (φ := .f32) (subf (F := Ideal) (φ := .f32) m (k0_pay7 m v)) (ix2 p (0 : Fin 1)) = _
  rw [exp_at, subf_at, pay7_row]

/-- An entry less the new maximum of its row. -/
private theorem pay9_at (m : Vec Ideal S40x1 .f32) (v : Vec Ideal S40x8192 .f32) (p : Fin 40) (q : Fin 8192) :
    k0_pay9 (F := Ideal) m v (ix2 p q)
      = v (ix2 p q) - eMax (m (ix2 p (0 : Fin 1))) (fun q : Fin 8192 => v (ix2 p q)) := by
  unfold k0_pay9
  show subf (F := Ideal) (φ := .f32) (k0_pay5 v) (broadcastTo S40x8192 (k0_pay7 m v) _) (ix2 p q) = _
  rw [subf_at, Cert.LibLayout.broadcastTo_a1_ab_apply, pay7_row, pay5_eq]

/-- The exponential of the shifted entry where the entry is positive, zero elsewhere. -/
private theorem pay10_at (m : Vec Ideal S40x1 .f32) (v : Vec Ideal S40x8192 .f32) (p : Fin 40) (q : Fin 8192) :
    k0_pay10 (F := Ideal) m v (ix2 p q)
      = if 0 < v (ix2 p q) then
          Ideal.exp (v (ix2 p q) - eMax (m (ix2 p (0 : Fin 1))) (fun q : Fin 8192 => v (ix2 p q)))
        else 0 := by
  unfold k0_pay10
  show select (k0_pay6 v) (exp (F := Ideal) (φ := .f32) (k0_pay9 m v)) (broadcast S40x8192 _) (ix2 p q) = _
  rw [select_at, pay6_at, exp_at, pay9_at, broadcast_at, Ideal.ofBits_def, ofBits_zero]
  exact if_congr (ofBool_decide_eq_one _) rfl rfl

/-! ## The three sums -/

theorem pay11_row (m l : Vec Ideal S40x1 .f32) (v : Vec Ideal S40x8192 .f32) (p : Fin 40) :
    k0_pay11 (F := Ideal) m l v (ix2 p (0 : Fin 1))
      = eL (m (ix2 p (0 : Fin 1))) (l (ix2 p (0 : Fin 1))) (fun q : Fin 8192 => v (ix2 p q)) := by
  unfold k0_pay11 eL
  show addf (F := Ideal) (φ := .f32) (mulf (F := Ideal) (φ := .f32) (k0_pay8 m v) l) (shapeCast S40x1 _ _) (ix2 p (0 : Fin 1)) = _
  rw [addf_at, mulf_at, pay8_row]
  refine (congrArg (_ + ·) (rowSum _ _ _ _ _ p)).trans ?_
  exact congrArg (_ + ·) (Finset.sum_congr rfl fun q _ => pay10_at m v p q)

theorem pay12_row (m l a : Vec Ideal S40x1 .f32) (v : Vec Ideal S40x8192 .f32) (p : Fin 40) :
    k0_pay12 (F := Ideal) m l a v (ix2 p (0 : Fin 1))
      = eA (m (ix2 p (0 : Fin 1))) (l (ix2 p (0 : Fin 1))) (a (ix2 p (0 : Fin 1))) (fun q : Fin 8192 => v (ix2 p q)) := by
  unfold k0_pay12 eA
  show addf (F := Ideal) (φ := .f32) (mulf (F := Ideal) (φ := .f32) (k0_pay8 m v) (addf (F := Ideal) (φ := .f32) a (mulf (F := Ideal) (φ := .f32) (subf (F := Ideal) (φ := .f32) m (k0_pay7 m v)) l))) (shapeCast S40x1 _ _) (ix2 p (0 : Fin 1)) = _
  rw [addf_at, mulf_at, addf_at, mulf_at, subf_at, pay8_row, pay7_row]
  refine (congrArg (_ + ·) (rowSum _ _ _ _ _ p)).trans ?_
  refine congrArg (_ + ·) (Finset.sum_congr rfl fun q _ => ?_)
  rw [mulf_at, pay10_at, pay9_at]

theorem pay13_row (c : Vec Ideal S40x1 .f32) (v : Vec Ideal S40x8192 .f32) (p : Fin 40) :
    k0_pay13 (F := Ideal) c v (ix2 p (0 : Fin 1))
      = eC (c (ix2 p (0 : Fin 1))) (fun q : Fin 8192 => v (ix2 p q)) := by
  unfold k0_pay13 eC
  show addf (F := Ideal) (φ := .f32) c (shapeCast S40x1 _ _) (ix2 p (0 : Fin 1)) = _
  rw [addf_at]
  refine (congrArg (_ + ·) (rowSum _ _ _ _ _ p)).trans ?_
  refine congrArg (_ + ·) (Finset.sum_congr rfl fun q _ => ?_)
  rw [sitofp_extui_at, pay6_at]
  exact mask_toReal _
/-! ## The stored results -/

theorem pay14_eq (v : Vec Ideal S40x1 .f32) : k0_pay14 (F := Ideal) v = v := by
  unfold k0_pay14
  exact shapeCast_self _ _

theorem pay15_eq (v : Vec Ideal S40x1 .f32) : k0_pay15 (F := Ideal) v = v := by
  unfold k0_pay15
  exact shapeCast_self _ _

theorem pay16_eq (v : Vec Ideal S40x1 .f32) : k0_pay16 (F := Ideal) v = v := by
  unfold k0_pay16
  exact shapeCast_self _ _

theorem pay17_eq (v : Vec Ideal S40x1 .f32) : k0_pay17 (F := Ideal) v = v := by
  unfold k0_pay17
  exact shapeCast_self _ _

end Cert.KernelIdeal.RowValue

end
-- ==== Proof.Literals.lean ====
/-
  The three single-precision literals the programs share, read as the real numbers their bit patterns denote.

  A normal single-precision word with sign bit `σ`, exponent field `e` and fraction field `f` denotes
  `(−1)^σ · (2^23 + f) · 2^(e − 127 − 23)`. For the three words here:
    * `0xF149F2CA`: `σ = 1`, `e = 226`, `2^23 + f = 13234890`, so the value is `−13234890 · 2^76` (about `−10^30`);
    * `0x3F317218`: `σ = 0`, `e = 126`, `2^23 + f = 11629080`, so the value is `11629080 · 2^(−24)` (about `0.6931472`);
    * `0x3F000000`: `σ = 0`, `e = 126`, `f = 0`, so the value is `2^23 · 2^(−24) = 1/2`.
  All three are finite, so each extended-real literal is the coercion of its real part; the first is negative and
  the second is positive.
-/
import proofs.«121076_j35948876267666_2_alg».proof.Proof.EntropySpec

noncomputable section

namespace Cert.Entropy

open Idealize.ShloMosaic

/-- The sentinel word denotes the real `−13234890 · 2^76`. -/
private theorem negBigE_val : negBigE = (((-13234890 * 2 ^ 76 : ℝ)) : EReal) := by
  simp [negBigE, Ideal.ofBits, Ideal.ieee, -EReal.coe_mul]

/-- The logarithm word denotes the real `11629080 / 2^24`. -/
private theorem ln2E_val : ln2E = (((11629080 / 2 ^ 24 : ℝ)) : EReal) := by
  simp [ln2E, Ideal.ofBits, Ideal.ieee, -EReal.coe_mul]; norm_num

/-- The sentinel is finite: it is the coercion of its real part. -/
theorem coe_negBig : ((negBig : ℝ) : EReal) = negBigE := by
  rw [negBig, negBigE_val, EReal.toReal_coe]

/-- The sentinel is negative. -/
theorem negBig_neg : negBig < 0 := by
  rw [negBig, negBigE_val, EReal.toReal_coe]; norm_num

/-- The logarithm literal is finite: it is the coercion of its real part. -/
theorem coe_ln2 : ((ln2 : ℝ) : EReal) = ln2E := by
  rw [ln2, ln2E_val, EReal.toReal_coe]

/-- The logarithm literal is positive. -/
theorem ln2_pos : 0 < ln2 := by
  rw [ln2, ln2E_val, EReal.toReal_coe]; norm_num

/-- The third literal is one half. -/
theorem halfE_eq : halfE = (((1 / 2 : ℝ)) : EReal) := by
  simp [halfE, Ideal.ofBits, Ideal.ieee, -EReal.coe_mul]; norm_num

end Cert.Entropy

end
-- ==== Proof.OnlineSoftmax.lean ====
/-
  The chunked accumulation of a row's softmax sums, at finite arguments, is the closed form.

  Notation: for a set `T` of columns, `M_T` is the maximum of the sentinel and every `x j`, `j ∈ T`;
  `P_T = {j ∈ T | 0 < x j}`; `S_T = ∑_{j ∈ P_T} exp (x j − M_T)`; `A_T = ∑_{j ∈ P_T} exp (x j − M_T) · (x j − M_T)`;
  `n_T = |P_T|`.

  Let `U` be a nonempty chunk of new columns (disjoint from `T`, listed without repetition by `f`), and write
  `M = M_T`, `M' = M_{T ∪ U}`.
    * `M' = max M (max_{j ∈ U} x j)`: a number bounds the left side iff it bounds the sentinel and every entry of
      `T` and of `U`, iff it bounds the right side.
    * `P_{T ∪ U}` is the disjoint union of `P_T` and `P_U`, so every sum over it splits in two, and the part over
      `P_U` is the sum over the chunk's positions `q` of the term at `f q` when `0 < x (f q)` and of `0` otherwise.
    * Old terms rescale: `exp (M − M') · exp (x j − M) = exp (x j − M')`, hence
      `exp (M − M') · S_T = ∑_{j ∈ P_T} exp (x j − M')`, and since
      `exp (x j − M)(x j − M) + (M − M') exp (x j − M) = exp (x j − M)(x j − M')`,
      `exp (M − M') · (A_T + (M − M') · S_T) = ∑_{j ∈ P_T} exp (x j − M')(x j − M')`.
  All quantities are finite reals, so the extended-real operations are the coercions of the real ones.

  The entropy from the sums: with `s' = s` if `0 < s` and `1` otherwise, `s'` is a positive real, so its logarithm is
  the real logarithm, and `s' · ln 2` is a nonzero real, so the quotient is the real quotient.
-/
import proofs.«121076_j35948876267666_2_alg».proof.Proof.Literals

noncomputable section

namespace Cert.Entropy

open Idealize.ShloMosaic

/-! ## Coercions pushed outward -/

/-- The coercion commutes with finite sums. -/
private theorem coe_sum {α : Type*} (s : Finset α) (g : α → ℝ) :
    ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- The coercion commutes with `max`. -/
private theorem coe_max (a b : ℝ) : ((max a b : ℝ) : EReal) = max (a : EReal) (b : EReal) :=
  Monotone.map_max (fun _ _ h => EReal.coe_le_coe_iff.2 h)

/-- A choice on a positive real, between a real value and zero. -/
private theorem ite_pos_coe (r a : ℝ) :
    (if (0 : EReal) < (r : EReal) then (a : EReal) else 0) = ((if 0 < r then a else 0 : ℝ) : EReal) := by
  by_cases h : 0 < r
  · rw [if_pos h, if_pos (EReal.coe_pos.2 h)]
  · rw [if_neg h, if_neg (fun h' => h (EReal.coe_pos.1 h')), EReal.coe_zero]

/-- A choice on a positive real, between one and zero. -/
private theorem ite_pos_one (r : ℝ) :
    (if (0 : EReal) < (r : EReal) then (1 : EReal) else 0) = ((if 0 < r then 1 else 0 : ℝ) : EReal) := by
  rw [← EReal.coe_one, ite_pos_coe]

/-! ## The running maximum -/

section Max

variable {κ : Type*}

/-- Folding `max` from `−∞` and then taking the maximum with `m` is folding `max` from `m`. -/
private theorem max_fold_bot (m : EReal) (v : κ → EReal) (S : Finset κ) :
    max m (S.fold max ⊥ v) = S.fold max m v := by
  classical
  induction S using Finset.induction_on with
  | empty => simp
  | insert a S ha ih => rw [Finset.fold_insert ha, Finset.fold_insert ha, max_left_comm, ih]

/-- Folding `max` over coerced reals from a coerced real is the coercion of the real fold. -/
private theorem fold_max_coe (b : ℝ) (g : κ → ℝ) (S : Finset κ) :
    S.fold max (b : EReal) (fun q => (g q : EReal)) = ((S.fold max b g : ℝ) : EReal) := by
  classical
  induction S using Finset.induction_on with
  | empty => simp
  | insert a S ha ih => rw [Finset.fold_insert ha, Finset.fold_insert ha, ih, coe_max]

/-- The chunk's update of the maximum at finite arguments. -/
private theorem eMax_coe [Fintype κ] (M : ℝ) (g : κ → ℝ) :
    eMax (M : EReal) (fun q => (g q : EReal)) = ((Finset.univ.fold max M g : ℝ) : EReal) := by
  rw [eMax, max_fold_bot, fold_max_coe]

end Max

section Row

variable {ι κ : Type*} [DecidableEq ι] (x : ι → ℝ)

/-- The running maximum over `T` and a chunk is the chunk's maximum folded from the running maximum over `T`. -/
private theorem runMax_union [Fintype κ] (T : Finset ι) (f : κ → ι) :
    Finset.univ.fold max (runMax x T) (fun q => x (f q)) = runMax x (T ∪ Finset.univ.image f) := by
  refine eq_of_forall_ge_iff fun c => ?_
  simp only [runMax, Finset.fold_max_le, Finset.mem_union, Finset.mem_image, Finset.mem_univ, true_and, forall_true_left]
  constructor
  · rintro ⟨⟨h0, h1⟩, h2⟩
    refine ⟨h0, ?_⟩
    rintro j (hj | ⟨q, rfl⟩)
    · exact h1 j hj
    · exact h2 q
  · rintro ⟨h0, h1⟩
    exact ⟨⟨h0, fun j hj => h1 j (Or.inl hj)⟩, fun q => h1 _ (Or.inr ⟨q, rfl⟩)⟩

/-! ## Splitting a sum over the positive entries of `T ∪ U` -/

/-- A sum over the positive entries of `T` and a disjoint chunk listed injectively by `f`: the part over `T`,
    plus the gated sum over the chunk's positions. -/
private theorem sum_pos_union [Fintype κ] (T : Finset ι) (f : κ → ι) (hf : Function.Injective f)
    (hT : ∀ q, f q ∉ T) (h : ι → ℝ) :
    ∑ j ∈ pos x (T ∪ Finset.univ.image f), h j
      = ∑ j ∈ pos x T, h j + ∑ q, (if 0 < x (f q) then h (f q) else 0) := by
  have hd : Disjoint T (Finset.univ.image f) := by
    rw [Finset.disjoint_left]
    intro j hj hj'
    obtain ⟨q, -, rfl⟩ := Finset.mem_image.1 hj'
    exact hT q hj
  have hU : ∑ j ∈ (Finset.univ.image f).filter (fun j => 0 < x j), h j
      = ∑ q, (if 0 < x (f q) then h (f q) else 0) := by
    rw [Finset.sum_filter, Finset.sum_image (fun a _ b _ hab => hf hab)]
  simp only [pos]
  rw [Finset.filter_union, Finset.sum_union (Finset.disjoint_filter_filter hd), hU]

/-! ## The real identities of one chunk -/

/-- Old terms of the first sum rescale. -/
private theorem rescale_sumExp (T : Finset ι) (M' : ℝ) :
    Real.exp (runMax x T - M') * sumExp x T = ∑ j ∈ pos x T, Real.exp (x j - M') := by
  rw [sumExp, Finset.mul_sum]
  refine Finset.sum_congr rfl fun j _ => ?_
  rw [← Real.exp_add]
  congr 1
  ring

/-- Old terms of the second sum shift and rescale. -/
private theorem rescale_sumExpT (T : Finset ι) (M' : ℝ) :
    Real.exp (runMax x T - M') * (sumExpT x T + (runMax x T - M') * sumExp x T)
      = ∑ j ∈ pos x T, Real.exp (x j - M') * (x j - M') := by
  rw [sumExpT, sumExp, Finset.mul_sum, ← Finset.sum_add_distrib, Finset.mul_sum]
  refine Finset.sum_congr rfl fun j _ => ?_
  have e : Real.exp (x j - M') = Real.exp (runMax x T - M') * Real.exp (x j - runMax x T) := by
    rw [← Real.exp_add]
    congr 1
    ring
  rw [e]
  ring

variable [Fintype κ]

private theorem real_sumExp (T : Finset ι) (f : κ → ι) (hf : Function.Injective f) (hT : ∀ q, f q ∉ T) :
    Real.exp (runMax x T - runMax x (T ∪ Finset.univ.image f)) * sumExp x T
        + ∑ q, (if 0 < x (f q) then Real.exp (x (f q) - runMax x (T ∪ Finset.univ.image f)) else 0)
      = sumExp x (T ∪ Finset.univ.image f) := by
  rw [rescale_sumExp, sumExp, sum_pos_union x T f hf hT]

private theorem real_sumExpT (T : Finset ι) (f : κ → ι) (hf : Function.Injective f) (hT : ∀ q, f q ∉ T) :
    Real.exp (runMax x T - runMax x (T ∪ Finset.univ.image f))
          * (sumExpT x T + (runMax x T - runMax x (T ∪ Finset.univ.image f)) * sumExp x T)
        + ∑ q, (if 0 < x (f q) then Real.exp (x (f q) - runMax x (T ∪ Finset.univ.image f)) else 0)
            * (x (f q) - runMax x (T ∪ Finset.univ.image f))
      = sumExpT x (T ∪ Finset.univ.image f) := by
  rw [rescale_sumExpT, sumExpT, sum_pos_union x T f hf hT]
  congr 1
  refine Finset.sum_congr rfl fun q _ => ?_
  rw [ite_mul, zero_mul]

private theorem cntPos_eq_sum (S : Finset ι) : cntPos x S = ∑ _j ∈ pos x S, (1 : ℝ) := by
  rw [cntPos, Finset.sum_const, nsmul_eq_mul, mul_one]

private theorem real_cntPos (T : Finset ι) (f : κ → ι) (hf : Function.Injective f) (hT : ∀ q, f q ∉ T) :
    cntPos x T + ∑ q, (if 0 < x (f q) then (1 : ℝ) else 0) = cntPos x (T ∪ Finset.univ.image f) := by
  rw [cntPos_eq_sum, cntPos_eq_sum, sum_pos_union x T f hf hT]

end Row

/-! ## The chunk's update of the sums at finite arguments -/

section Coe

variable {κ : Type*} [Fintype κ]

private theorem eL_coe (M M' S : ℝ) (g : κ → ℝ)
    (hM : eMax (M : EReal) (fun q => (g q : EReal)) = (M' : EReal)) :
    eL (M : EReal) (S : EReal) (fun q => (g q : EReal))
      = ((Real.exp (M - M') * S + ∑ q, (if 0 < g q then Real.exp (g q - M') else 0) : ℝ) : EReal) := by
  rw [eL, hM]
  simp only [← EReal.coe_sub, Ideal.exp_coe, ite_pos_coe, ← coe_sum, ← EReal.coe_mul, ← EReal.coe_add]

private theorem eA_coe (M M' S A : ℝ) (g : κ → ℝ)
    (hM : eMax (M : EReal) (fun q => (g q : EReal)) = (M' : EReal)) :
    eA (M : EReal) (S : EReal) (A : EReal) (fun q => (g q : EReal))
      = ((Real.exp (M - M') * (A + (M - M') * S)
          + ∑ q, (if 0 < g q then Real.exp (g q - M') else 0) * (g q - M') : ℝ) : EReal) := by
  rw [eA, hM]
  simp only [← EReal.coe_sub, Ideal.exp_coe, ite_pos_coe, ← EReal.coe_mul, ← coe_sum, ← EReal.coe_add]

private theorem eC_coe (C : ℝ) (g : κ → ℝ) :
    eC (C : EReal) (fun q => (g q : EReal)) = ((C + ∑ q, (if 0 < g q then (1 : ℝ) else 0) : ℝ) : EReal) := by
  rw [eC]
  simp only [ite_pos_one, ← coe_sum, ← EReal.coe_add]

end Coe

/-! ## The statements -/

theorem runMax_empty {ι : Type*} [DecidableEq ι] (x : ι → ℝ) : runMax x ∅ = negBig := by
  simp [runMax]

theorem sumExp_empty {ι : Type*} [DecidableEq ι] (x : ι → ℝ) : sumExp x ∅ = 0 := by
  simp [sumExp, pos]

theorem sumExpT_empty {ι : Type*} [DecidableEq ι] (x : ι → ℝ) : sumExpT x ∅ = 0 := by
  simp [sumExpT, pos]

theorem cntPos_empty {ι : Type*} [DecidableEq ι] (x : ι → ℝ) : cntPos x ∅ = 0 := by
  simp [cntPos, pos]

/-- One chunk: the columns `f q` (`q : κ`) are new (not in `T`, pairwise distinct); the extended-real update at the
    real closed forms over `T` is the real closed forms over `T` with the chunk added. -/
theorem chunk_step {ι κ : Type*} [DecidableEq ι] [Fintype κ] [Nonempty κ] (x : ι → ℝ) (T : Finset ι) (f : κ → ι)
    (hf : Function.Injective f) (hT : ∀ q, f q ∉ T) :
    eMax ((runMax x T : ℝ) : EReal) (fun q => ((x (f q) : ℝ) : EReal)) = ((runMax x (T ∪ Finset.univ.image f) : ℝ) : EReal)
    ∧ eL ((runMax x T : ℝ) : EReal) ((sumExp x T : ℝ) : EReal) (fun q => ((x (f q) : ℝ) : EReal)) = ((sumExp x (T ∪ Finset.univ.image f) : ℝ) : EReal)
    ∧ eA ((runMax x T : ℝ) : EReal) ((sumExp x T : ℝ) : EReal) ((sumExpT x T : ℝ) : EReal) (fun q => ((x (f q) : ℝ) : EReal)) = ((sumExpT x (T ∪ Finset.univ.image f) : ℝ) : EReal)
    ∧ eC ((cntPos x T : ℝ) : EReal) (fun q => ((x (f q) : ℝ) : EReal)) = ((cntPos x (T ∪ Finset.univ.image f) : ℝ) : EReal) := by
  have hM : eMax ((runMax x T : ℝ) : EReal) (fun q => ((x (f q) : ℝ) : EReal))
      = ((runMax x (T ∪ Finset.univ.image f) : ℝ) : EReal) := by
    rw [eMax_coe, runMax_union]
  refine ⟨hM, ?_, ?_, ?_⟩
  · rw [eL_coe _ _ _ _ hM, real_sumExp x T f hf hT]
  · rw [eA_coe _ _ _ _ _ hM, real_sumExpT x T f hf hT]
  · rw [eC_coe, real_cntPos x T f hf hT]

/-- The entropy from two finite sums is the real formula. -/
private theorem eEnt_coe_real (S A : ℝ) :
    eEnt (S : EReal) (A : EReal)
      = (((Real.log (if 0 < S then S else 1) * S - A) / ((if 0 < S then S else 1) * ln2) : ℝ) : EReal) := by
  have hgate : (if (0 : EReal) < (S : EReal) then (S : EReal) else 1) = (((if 0 < S then S else 1 : ℝ)) : EReal) := by
    by_cases h : 0 < S
    · rw [if_pos h, if_pos (EReal.coe_pos.2 h)]
    · rw [if_neg h, if_neg (fun h' => h (EReal.coe_pos.1 h')), EReal.coe_one]
  have hpos : 0 < (if 0 < S then S else 1 : ℝ) := by
    by_cases h : 0 < S
    · rw [if_pos h]; exact h
    · rw [if_neg h]; exact one_pos
  have hd : (if 0 < S then S else 1 : ℝ) * ln2 ≠ 0 := (mul_pos hpos ln2_pos).ne'
  rw [eEnt, hgate, ← coe_ln2, ← EReal.coe_mul, Ideal.div_coe hd, Ideal.log_coe, if_neg (not_le.2 hpos),
    ← EReal.coe_mul, ← EReal.coe_sub, ← EReal.coe_mul, mul_one_div]

theorem eEnt_coe {ι : Type*} [DecidableEq ι] [Fintype ι] (x : ι → ℝ) :
    eEnt ((sumExp x Finset.univ : ℝ) : EReal) ((sumExpT x Finset.univ : ℝ) : EReal) = ((entRow x : ℝ) : EReal) := by
  rw [eEnt_coe_real, entRow]

end Cert.Entropy

end
-- ==== Proof.KernelRowIter.lean ====
/-
  One row through the loop.

  Fix one row of the input, `xrow j` for `j` below 262144, all entries finite. Call the columns below `N` the columns
  seen. A row's STATE is the four numbers the kernel carries for it; it is RIGHT at `N` when they are the running
  maximum (from the sentinel) over the columns seen, the two sums over the positive entries seen, and their count. One
  trip of the loop reads the next 8192 columns; by the one-chunk law the state it leaves is right at `N + 8192`. So after
  `n` trips from a state right at `base` the state is right at `base + 8192 n`: induction on the trips.
-/
import proofs.«121076_j35948876267666_2_alg».proof.Proof.KernelTrips
import proofs.«121076_j35948876267666_2_alg».proof.Proof.KernelRow
import proofs.«121076_j35948876267666_2_alg».proof.Proof.OnlineSoftmax

noncomputable section

namespace Cert.KernelIdeal.RowIter

open Idealize.ShloMosaic Idealize.ShloMosaic.ValueIdx
open Cert.KernelIdeal Cert.KernelIdeal.Gen Cert.KernelIdeal.Trips Cert.KernelIdeal.RowValue Cert.Entropy

variable [Cert.KernelIdeal.Facts]

/-- The columns below `N`. -/
def below (N : ℕ) : Finset (Fin 262144) := Finset.univ.filter fun j => j.val < N

/-- Column `N + q`: entry `q` of the chunk that starts at column `N`. -/
def colAt (N : ℕ) (h : N + 8192 ≤ 262144) (q : Fin 8192) : Fin 262144 := ⟨N + q.val, by omega⟩

theorem colAt_injective (N : ℕ) (h : N + 8192 ≤ 262144) : Function.Injective (colAt N h) := by
  intro a b e
  have := congrArg Fin.val e
  simp only [colAt] at this
  exact Fin.ext (by omega)

theorem colAt_not_mem (N : ℕ) (h : N + 8192 ≤ 262144) (q : Fin 8192) : colAt N h q ∉ below N := by
  simp only [below, colAt, Finset.mem_filter, Finset.mem_univ, true_and]
  omega

/-- The columns below `N + 8192` are those below `N` and the chunk that starts at `N`. -/
theorem below_add (N : ℕ) (h : N + 8192 ≤ 262144) :
    below (N + 8192) = below N ∪ Finset.univ.image (colAt N h) := by
  ext j
  simp only [below, Finset.mem_filter, Finset.mem_univ, true_and, Finset.mem_union, Finset.mem_image]
  constructor
  · intro hj
    by_cases h' : j.val < N
    · exact Or.inl h'
    · exact Or.inr ⟨⟨j.val - N, by omega⟩, Fin.ext (by simp only [colAt]; omega)⟩
  · rintro (h' | ⟨q, rfl⟩)
    · omega
    · simp only [colAt]; omega

theorem below_zero : below 0 = ∅ := by
  ext j; simp [below]

theorem below_all : below 262144 = Finset.univ := by
  ext j; simp [below]

/-- The carried state of row `p` of the block is right at `N` for the row `xrow`. -/
def RowAt (xrow : Fin 262144 → ℝ) (N : ℕ) (acc : Acc Ideal) (p : Fin 40) : Prop :=
  acc.1 (ix2 p (0 : Fin 1)) = ((runMax xrow (below N) : ℝ) : EReal)
  ∧ acc.2.1 (ix2 p (0 : Fin 1)) = ((sumExp xrow (below N) : ℝ) : EReal)
  ∧ acc.2.2.1 (ix2 p (0 : Fin 1)) = ((sumExpT xrow (below N) : ℝ) : EReal)
  ∧ acc.2.2.2 (ix2 p (0 : Fin 1)) = ((cntPos xrow (below N) : ℝ) : EReal)

/-- One chunk: from a state right at `N`, reading columns `N … N + 8191`, to a state right at `N + 8192`. -/
theorem step_row (xrow : Fin 262144 → ℝ) (N : ℕ) (h : N + 8192 ≤ 262144) (v : Vec Ideal S40x8192 .f32) (p : Fin 40)
    (hv : ∀ q : Fin 8192, v (ix2 p q) = ((xrow (colAt N h q) : ℝ) : EReal))
    (acc : Acc Ideal) (hacc : RowAt xrow N acc p) : RowAt xrow (N + 8192) (step v acc) p := by
  obtain ⟨h1, h2, h3, h4⟩ := hacc
  obtain ⟨s1, s2, s3, s4⟩ := chunk_step xrow (below N) (colAt N h) (colAt_injective N h) (colAt_not_mem N h)
  rw [← below_add N h] at s1 s2 s3 s4
  have hv' : (fun q : Fin 8192 => v (ix2 p q)) = fun q => ((xrow (colAt N h q) : ℝ) : EReal) := funext hv
  refine ⟨?_, ?_, ?_, ?_⟩
  · show k0_pay7 (F := Ideal) acc.1 v (ix2 p (0 : Fin 1)) = _
    rw [pay7_row, h1, hv']; exact s1
  · show k0_pay11 (F := Ideal) acc.1 acc.2.1 v (ix2 p (0 : Fin 1)) = _
    rw [pay11_row, h1, h2, hv']; exact s2
  · show k0_pay12 (F := Ideal) acc.1 acc.2.1 acc.2.2.1 v (ix2 p (0 : Fin 1)) = _
    rw [pay12_row, h1, h2, h3, hv']; exact s3
  · show k0_pay13 (F := Ideal) acc.2.2.2 v (ix2 p (0 : Fin 1)) = _
    rw [pay13_row, h4, hv']; exact s4

/-- `n` trips: from a state right at `base` to a state right at `base + 8192 n`. -/
theorem iter_row (xrow : Fin 262144 → ℝ) (base : ℕ) (hb : base + 65536 ≤ 262144)
    (ch : Fin k0_t1_loop.trips → Vec Ideal S40x8192 .f32) (p : Fin 40)
    (hch : ∀ (k : Fin k0_t1_loop.trips) (h : base + 8192 * k.val + 8192 ≤ 262144) (q : Fin 8192),
      ch k (ix2 p q) = ((xrow (colAt (base + 8192 * k.val) h q) : ℝ) : EReal))
    (init : Acc Ideal) (hinit : RowAt xrow base init p) :
    ∀ n : ℕ, n ≤ k0_t1_loop.trips → RowAt xrow (base + 8192 * n) (iter ch init n) p
  | 0, _ => by rw [Nat.mul_zero, Nat.add_zero]; exact hinit
  | n + 1, hn => by
    have hlt : n < k0_t1_loop.trips := hn
    have h8 : n < 8 := by have := hlt; rw [trips_eq] at this; exact this
    have hle : base + 8192 * n + 8192 ≤ 262144 := by omega
    have ih := iter_row xrow base hb ch p hch init hinit n (Nat.le_of_lt hlt)
    have e : base + 8192 * (n + 1) = base + 8192 * n + 8192 := by ring
    rw [e]
    show RowAt xrow (base + 8192 * n + 8192) (if h : n < k0_t1_loop.trips then step (ch ⟨n, h⟩) (iter ch init n) else iter ch init n) p
    rw [dif_pos hlt]
    exact step_row xrow (base + 8192 * n) hle (ch ⟨n, hlt⟩) p (fun q => hch ⟨n, hlt⟩ hle q) (iter ch init n) ih

/-- The whole loop (eight trips): from a state right at `base` to a state right at `base + 65536`. -/
theorem loop_row (xrow : Fin 262144 → ℝ) (base : ℕ) (hb : base + 65536 ≤ 262144)
    (ch : Fin k0_t1_loop.trips → Vec Ideal S40x8192 .f32) (p : Fin 40)
    (hch : ∀ (k : Fin k0_t1_loop.trips) (h : base + 8192 * k.val + 8192 ≤ 262144) (q : Fin 8192),
      ch k (ix2 p q) = ((xrow (colAt (base + 8192 * k.val) h q) : ℝ) : EReal))
    (init : Acc Ideal) (hinit : RowAt xrow base init p) :
    RowAt xrow (base + 65536) (iter ch init k0_t1_loop.trips) p := by
  have h := iter_row xrow base hb ch p hch init hinit k0_t1_loop.trips (Nat.le_refl _)
  have e : base + 8192 * k0_t1_loop.trips = base + 65536 := by rw [trips_eq]
  rw [e] at h
  exact h

end Cert.KernelIdeal.RowIter

end
-- ==== Proof.KernelInvariant.lean ====
/-
  What the carried columns hold after every grid point, for a finite input.

  The grid walks each block of forty rows through its four column blocks in order. Let the array the kernel reads (160
  rows of 262144 columns) have finite entries `xr r j`. Claim: after point `t` (row block `t / 4`, column block
  `t % 4`), row `p` of the carried columns is RIGHT at `65536 (t % 4 + 1)` for array row `40 (t / 4) + p`: the
  running maximum from the sentinel over the columns below that bound, the two sums over the positive entries among
  them, and their count. At a block's first point the loop starts from the sentinel and zeros, which is the state
  right at no column; at every later point it starts from what the point before left, right at the columns below this
  column block; the loop adds this column block's 65536 columns. At a block's last point the bound is the whole row,
  and the three outputs are the three sums.
-/
import proofs.«121076_j35948876267666_2_alg».proof.Proof.KernelPoints
import proofs.«121076_j35948876267666_2_alg».proof.Proof.KernelRowIter
import proofs.«121076_j35948876267666_2_alg».proof.Proof.Literals

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Trips Cert.KernelIdeal.Pieces
open Cert.KernelIdeal.RowIter Cert.KernelIdeal.RowValue Cert.Entropy

variable (m : (ℓ : Loc nD τ sig) → Buf (Elt Ideal) ℓ) (c : Dev nD)
variable (xr : Fin 160 → Fin 262144 → ℝ)

/-- The array the kernel reads has the finite entries `xr`. -/
def FiniteRows : Prop :=
  ∀ (r : Fin 160) (j : Fin 262144), V m c main_v0 (ix2 r j) = ((xr r j : ℝ) : EReal)

/-- The sentinel and three zeros are the state right at no column. -/
theorem init_row (xrow : Fin 262144 → ℝ) (p : Fin 40) :
    RowAt xrow 0 (k0_pay1 (F := Ideal), k0_pay2 (F := Ideal), k0_pay3 (F := Ideal), k0_pay4 (F := Ideal)) p := by
  refine ⟨?_, ?_, ?_, ?_⟩
  · show k0_pay1 (F := Ideal) (ix2 p (0 : Fin 1)) = _
    rw [pay1_row, below_zero, runMax_empty, coe_negBig]
  · show k0_pay2 (F := Ideal) (ix2 p (0 : Fin 1)) = _
    rw [pay2_row, below_zero, sumExp_empty]; rfl
  · show k0_pay3 (F := Ideal) (ix2 p (0 : Fin 1)) = _
    rw [pay3_row, below_zero, sumExpT_empty]; rfl
  · show k0_pay4 (F := Ideal) (ix2 p (0 : Fin 1)) = _
    rw [pay4_row, below_zero, cntPos_empty]; rfl

/-- The chunks point `t`'s loop loads, at row `p`, are the array row's columns `65536 (t % 4) + 8192 k + q`. -/
theorem chunks_row (hX : FiniteRows m c xr) (t : Fin cfg0.N) (p : Fin 40)
    (k : Fin k0_t1_loop.trips) (h : 65536 * (t.val % 4) + 8192 * k.val + 8192 ≤ 262144) (q : Fin 8192) :
    chunk (ms0_0 t) ((hs0_0 t).unread (iblk m c 0 t)) k (ix2 p q)
      = ((xr (rowIdx t p) (colAt (65536 * (t.val % 4) + 8192 * k.val) h q) : ℝ) : EReal) := by
  rw [chunk_apply (ms0_0 t) (hs0_0 t) (iblk m c 0 t) k p q, iblk_apply m c t p _, hX]
  refine congrArg (fun j => ((xr (rowIdx t p) j : ℝ) : EReal)) (Fin.ext ?_)
  show 65536 * (t.val % 4) + (8192 * k.val + q.val) = 65536 * (t.val % 4) + 8192 * k.val + q.val
  omega

/-- After every point the carried columns are right at the end of that point's column block. -/
theorem inv_row (hX : FiniteRows m c xr) : ∀ (n : ℕ) (hn : n < cfg0.N) (p : Fin 40),
    RowAt (xr (rowIdx ⟨n, hn⟩ p)) (65536 * (n % 4) + 65536) (carried (outsAt0 m c n hn)) p
  | 0, hn, p => by
    have e := carried_A m c ⟨0, hn⟩ rfl (by show ¬(0 % 4 = 3); decide)
    rw [show carried (outsAt0 m c 0 hn) = _ from e]
    exact loop_row (xr (rowIdx ⟨0, hn⟩ p)) (65536 * (0 % 4)) (by norm_num) _ p
      (fun k h q => chunks_row m c xr hX ⟨0, hn⟩ p k h q) _ (init_row _ p)
  | n + 1, hn, p => by
    have hN : cfg0.N = 16 := N_0
    have ih := inv_row hX n (Nat.lt_of_succ_lt hn) p
    by_cases h0 : (n + 1) % 4 = 0
    · -- the first point of the next row block
      have h1 : ¬(n + 1) % 4 = 3 := by omega
      have e := carried_A m c ⟨n + 1, hn⟩ h0 h1
      rw [show carried (outsAt0 m c (n + 1) hn) = _ from e]
      have hb : 65536 * ((n + 1) % 4) = 0 := by omega
      have hl := loop_row (xr (rowIdx ⟨n + 1, hn⟩ p)) (65536 * ((n + 1) % 4)) (by omega) _ p
        (fun k h q => chunks_row m c xr hX ⟨n + 1, hn⟩ p k h q) _ (by rw [hb]; exact init_row _ p)
      exact hl
    · have hrow : rowIdx ⟨n + 1, hn⟩ p = rowIdx ⟨n, Nat.lt_of_succ_lt hn⟩ p :=
        Fin.ext (by show 40 * ((n + 1) / 4) + p.val = 40 * (n / 4) + p.val; omega)
      have hbase : 65536 * ((n + 1) % 4) = 65536 * (n % 4) + 65536 := by omega
      have hinit : RowAt (xr (rowIdx ⟨n + 1, hn⟩ p)) (65536 * ((n + 1) % 4))
          (carried (outsAt0 m c ((⟨n + 1, hn⟩ : Fin cfg0.N).val - 1) (Nat.lt_of_le_of_lt (Nat.sub_le _ _) (⟨n + 1, hn⟩ : Fin cfg0.N).isLt))) p := by
        rw [hrow, hbase]; exact ih
      by_cases h1 : (n + 1) % 4 = 3
      · have e := carried_C m c ⟨n + 1, hn⟩ h0 h1
        rw [show carried (outsAt0 m c (n + 1) hn) = _ from e]
        exact loop_row (xr (rowIdx ⟨n + 1, hn⟩ p)) (65536 * ((n + 1) % 4)) (by omega) _ p
          (fun k h q => chunks_row m c xr hX ⟨n + 1, hn⟩ p k h q) _ hinit
      · have e := carried_B m c ⟨n + 1, hn⟩ h0 h1
        rw [show carried (outsAt0 m c (n + 1) hn) = _ from e]
        exact loop_row (xr (rowIdx ⟨n + 1, hn⟩ p)) (65536 * ((n + 1) % 4)) (by omega) _ p
          (fun k h q => chunks_row m c xr hX ⟨n + 1, hn⟩ p k h q) _ hinit

/-- At a row block's last point the three outputs hold, at row `p`, the row's two sums and its count over the whole row. -/
theorem outs_last (hX : FiniteRows m c xr) (t : Fin cfg0.N) (h3 : t.val % 4 = 3) (p : Fin 40) :
    (outsAt0 m c t.val t.isLt).1 (ix2 p (0 : Fin 1)) = ((sumExp (xr (rowIdx t p)) Finset.univ : ℝ) : EReal)
    ∧ (outsAt0 m c t.val t.isLt).2.1 (ix2 p (0 : Fin 1)) = ((sumExpT (xr (rowIdx t p)) Finset.univ : ℝ) : EReal)
    ∧ (outsAt0 m c t.val t.isLt).2.2.1 (ix2 p (0 : Fin 1)) = ((cntPos (xr (rowIdx t p)) Finset.univ : ℝ) : EReal) := by
  have h0 : ¬t.val % 4 = 0 := by omega
  obtain ⟨o1, o2, o3⟩ := outs_C m c t h0 h3
  have hr := inv_row m c xr hX t.val t.isLt p
  have hb : 65536 * (t.val % 4) + 65536 = 262144 := by omega
  rw [hb] at hr
  unfold RowAt at hr
  rw [below_all] at hr
  obtain ⟨_, r2, r3, r4⟩ := hr
  exact ⟨by rw [o1]; exact r2, by rw [o2]; exact r3, by rw [o3]; exact r4⟩

end Cert.KernelIdeal.Accum

end
-- ==== Proof.KernelArrays.lean ====
/-
  The three output arrays after the run.

  Output arrays 1, 2, 3 are columns of 160 entries, written back only at the last point of each block of forty rows:
  that point writes rows `40 (t / 4) … 40 (t / 4) + 39` with what the three outputs hold there — for a finite input,
  row by row, the sum of exponentials, the sum of exponentials times exponents, and the count of positive entries over
  the WHOLE row. The four last points cover the 160 rows, so each array ends as the column of its rows' values.
-/
import proofs.«121076_j35948876267666_2_alg».proof.Proof.KernelInvariant
import Idealize.ShloMosaic.Lib.Pipeline.Value

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Trips Cert.KernelIdeal.Pieces
open Cert.KernelIdeal.RowIter Cert.KernelIdeal.RowValue Cert.Entropy

variable (m : (ℓ : Loc nD τ sig) → Buf (Elt Ideal) ℓ) (c : Dev nD)
variable (xr : Fin 160 → Fin 262144 → ℝ)

/-- The column whose entry in row `r` is `f` of the input's row `r`. -/
def colOf (f : (Fin 262144 → ℝ) → ℝ) : Vec Ideal S160x1 .f32 :=
  fun i => ((f (xr ⟨(i 0).val, (i 0).isLt⟩) : ℝ) : EReal)

/-- Output window 1's blocks: row block `t / 4`, the one column; forty rows each, never clipped. -/
theorem win1_facts : ∀ t : Fin cfg0.N, win0_1.index t (0 : Fin 2) = t.val / 4 ∧ win0_1.index t (1 : Fin 2) = 0
    ∧ win0_1.size (0 : Fin 2) = 40 ∧ win0_1.size (1 : Fin 2) = 1
    ∧ win0_1.xsize (grid0.coords t) (0 : Fin 2) = 40 ∧ win0_1.xsize (grid0.coords t) (1 : Fin 2) = 1 := by
  decide +kernel

/-- What a write-back of output 1 writes: its rows of the column of the rows' values. -/
theorem flushed_1 (hX : FiniteRows m c xr) (t : Fin cfg0.N) (hf : (cfg0.win 1).flush t = true) :
    (dats m 0 c).flushed 1 t
      = ((cfg0.win 1).blk t).view.read (Elt Ideal) (colOf xr (fun x => sumExp x Finset.univ) : Buf (Elt Ideal) ((c : Thread nD τ).loc main_v1_0)) := by
  have h3 : t.val % 4 = 3 := (flush0_1 t).mp hf
  show (cfg0.win 1).cut (grid0.coords t) ((dats m 0 c).after 1 t) = _
  rw [after0_1]
  funext y
  obtain ⟨p, q, rfl⟩ : ∃ (p : Fin 40) (q : Fin 1), y = ix2 p q := ⟨y 0, y 1, eq_ix2 y⟩
  have hq : q = 0 := Subsingleton.elim _ _
  subst hq
  rw [View.read_apply]
  show (outsAt0 m c t.val t.isLt).1 (ix2 p (0 : Fin 1)) = colOf xr (fun x => sumExp x Finset.univ) _
  rw [(outs_last m c xr hX t h3 p).1]
  unfold colOf
  refine congrArg (fun r => (((fun x => sumExp x Finset.univ) (xr r) : ℝ) : EReal)) (Fin.ext ?_)
  show 40 * (t.val / 4) + p.val = win0_1.index t 0 * 40 + 1 * p.val
  rw [(win1_facts t).1]; omega

/-- So output 1's array ends holding that column: the last points of the four row blocks cover its 160 rows. -/
theorem final_1 (hX : FiniteRows m c xr) :
    (dats m 0 c).arrAt 1 cfg0.N = (colOf xr (fun x => sumExp x Finset.univ) : Buf (Elt Ideal) ((c : Thread nD τ).loc main_v1_0)) :=
  (dats m 0 c).arrAt_eq_of_cover 1 _ (flushed_1 m c xr hX) fun i => by
    have hi0 : (i 0 : ℕ) < 160 := (i 0).isLt
    have hi1 : (i 1 : ℕ) < 1 := (i 1).isLt
    have hN : cfg0.N = 16 := N_0
    have ht : 4 * ((i 0 : ℕ) / 40) + 3 < cfg0.N := by omega
    obtain ⟨f1, f2, f3, f4, f5, f6⟩ := win1_facts ⟨4 * ((i 0 : ℕ) / 40) + 3, ht⟩
    refine ⟨⟨4 * ((i 0 : ℕ) / 40) + 3, ht⟩, (flush0_1 _).mpr (by show (4 * ((i 0 : ℕ) / 40) + 3) % 4 = 3; omega), ?_⟩
    show i ∈ ((View.whole main_v1_0).slice (win0_1.rect (⟨4 * ((i 0 : ℕ) / 40) + 3, ht⟩ : Fin cfg0.N))).set
    rw [View.set_slice_whole, Rect.mem_set_unit]
    intro a
    match a with
    | ⟨0, _⟩ =>
      show win0_1.index (⟨4 * ((i 0 : ℕ) / 40) + 3, ht⟩ : Fin cfg0.N) 0 * win0_1.size 0 ≤ (i 0 : ℕ) ∧ (i 0 : ℕ) < win0_1.index (⟨4 * ((i 0 : ℕ) / 40) + 3, ht⟩ : Fin cfg0.N) 0 * win0_1.size 0 + win0_1.xsize (grid0.coords (⟨4 * ((i 0 : ℕ) / 40) + 3, ht⟩ : Fin cfg0.N)) 0
      rw [f1, f3, f5]
      show (4 * ((i 0 : ℕ) / 40) + 3) / 4 * 40 ≤ (i 0 : ℕ) ∧ (i 0 : ℕ) < (4 * ((i 0 : ℕ) / 40) + 3) / 4 * 40 + 40
      omega
    | ⟨1, _⟩ =>
      show win0_1.index (⟨4 * ((i 0 : ℕ) / 40) + 3, ht⟩ : Fin cfg0.N) 1 * win0_1.size 1 ≤ (i 1 : ℕ) ∧ (i 1 : ℕ) < win0_1.index (⟨4 * ((i 0 : ℕ) / 40) + 3, ht⟩ : Fin cfg0.N) 1 * win0_1.size 1 + win0_1.xsize (grid0.coords (⟨4 * ((i 0 : ℕ) / 40) + 3, ht⟩ : Fin cfg0.N)) 1
      rw [f2, f4, f6]
      omega

/-- Output window 2's blocks: row block `t / 4`, the one column; forty rows each, never clipped. -/
theorem win2_facts : ∀ t : Fin cfg0.N, win0_2.index t (0 : Fin 2) = t.val / 4 ∧ win0_2.index t (1 : Fin 2) = 0
    ∧ win0_2.size (0 : Fin 2) = 40 ∧ win0_2.size (1 : Fin 2) = 1
    ∧ win0_2.xsize (grid0.coords t) (0 : Fin 2) = 40 ∧ win0_2.xsize (grid0.coords t) (1 : Fin 2) = 1 := by
  decide +kernel

/-- What a write-back of output 2 writes: its rows of the column of the rows' values. -/
theorem flushed_2 (hX : FiniteRows m c xr) (t : Fin cfg0.N) (hf : (cfg0.win 2).flush t = true) :
    (dats m 0 c).flushed 2 t
      = ((cfg0.win 2).blk t).view.read (Elt Ideal) (colOf xr (fun x => sumExpT x Finset.univ) : Buf (Elt Ideal) ((c : Thread nD τ).loc main_v1_1)) := by
  have h3 : t.val % 4 = 3 := (flush0_2 t).mp hf
  show (cfg0.win 2).cut (grid0.coords t) ((dats m 0 c).after 2 t) = _
  rw [after0_2]
  funext y
  obtain ⟨p, q, rfl⟩ : ∃ (p : Fin 40) (q : Fin 1), y = ix2 p q := ⟨y 0, y 1, eq_ix2 y⟩
  have hq : q = 0 := Subsingleton.elim _ _
  subst hq
  rw [View.read_apply]
  show (outsAt0 m c t.val t.isLt).2.1 (ix2 p (0 : Fin 1)) = colOf xr (fun x => sumExpT x Finset.univ) _
  rw [(outs_last m c xr hX t h3 p).2.1]
  unfold colOf
  refine congrArg (fun r => (((fun x => sumExpT x Finset.univ) (xr r) : ℝ) : EReal)) (Fin.ext ?_)
  show 40 * (t.val / 4) + p.val = win0_2.index t 0 * 40 + 1 * p.val
  rw [(win2_facts t).1]; omega

/-- So output 2's array ends holding that column: the last points of the four row blocks cover its 160 rows. -/
theorem final_2 (hX : FiniteRows m c xr) :
    (dats m 0 c).arrAt 2 cfg0.N = (colOf xr (fun x => sumExpT x Finset.univ) : Buf (Elt Ideal) ((c : Thread nD τ).loc main_v1_1)) :=
  (dats m 0 c).arrAt_eq_of_cover 2 _ (flushed_2 m c xr hX) fun i => by
    have hi0 : (i 0 : ℕ) < 160 := (i 0).isLt
    have hi1 : (i 1 : ℕ) < 1 := (i 1).isLt
    have hN : cfg0.N = 16 := N_0
    have ht : 4 * ((i 0 : ℕ) / 40) + 3 < cfg0.N := by omega
    obtain ⟨f1, f2, f3, f4, f5, f6⟩ := win2_facts ⟨4 * ((i 0 : ℕ) / 40) + 3, ht⟩
    refine ⟨⟨4 * ((i 0 : ℕ) / 40) + 3, ht⟩, (flush0_2 _).mpr (by show (4 * ((i 0 : ℕ) / 40) + 3) % 4 = 3; omega), ?_⟩
    show i ∈ ((View.whole main_v1_1).slice (win0_2.rect (⟨4 * ((i 0 : ℕ) / 40) + 3, ht⟩ : Fin cfg0.N))).set
    rw [View.set_slice_whole, Rect.mem_set_unit]
    intro a
    match a with
    | ⟨0, _⟩ =>
      show win0_2.index (⟨4 * ((i 0 : ℕ) / 40) + 3, ht⟩ : Fin cfg0.N) 0 * win0_2.size 0 ≤ (i 0 : ℕ) ∧ (i 0 : ℕ) < win0_2.index (⟨4 * ((i 0 : ℕ) / 40) + 3, ht⟩ : Fin cfg0.N) 0 * win0_2.size 0 + win0_2.xsize (grid0.coords (⟨4 * ((i 0 : ℕ) / 40) + 3, ht⟩ : Fin cfg0.N)) 0
      rw [f1, f3, f5]
      show (4 * ((i 0 : ℕ) / 40) + 3) / 4 * 40 ≤ (i 0 : ℕ) ∧ (i 0 : ℕ) < (4 * ((i 0 : ℕ) / 40) + 3) / 4 * 40 + 40
      omega
    | ⟨1, _⟩ =>
      show win0_2.index (⟨4 * ((i 0 : ℕ) / 40) + 3, ht⟩ : Fin cfg0.N) 1 * win0_2.size 1 ≤ (i 1 : ℕ) ∧ (i 1 : ℕ) < win0_2.index (⟨4 * ((i 0 : ℕ) / 40) + 3, ht⟩ : Fin cfg0.N) 1 * win0_2.size 1 + win0_2.xsize (grid0.coords (⟨4 * ((i 0 : ℕ) / 40) + 3, ht⟩ : Fin cfg0.N)) 1
      rw [f2, f4, f6]
      omega

/-- Output window 3's blocks: row block `t / 4`, the one column; forty rows each, never clipped. -/
theorem win3_facts : ∀ t : Fin cfg0.N, win0_3.index t (0 : Fin 2) = t.val / 4 ∧ win0_3.index t (1 : Fin 2) = 0
    ∧ win0_3.size (0 : Fin 2) = 40 ∧ win0_3.size (1 : Fin 2) = 1
    ∧ win0_3.xsize (grid0.coords t) (0 : Fin 2) = 40 ∧ win0_3.xsize (grid0.coords t) (1 : Fin 2) = 1 := by
  decide +kernel

/-- What a write-back of output 3 writes: its rows of the column of the rows' values. -/
theorem flushed_3 (hX : FiniteRows m c xr) (t : Fin cfg0.N) (hf : (cfg0.win 3).flush t = true) :
    (dats m 0 c).flushed 3 t
      = ((cfg0.win 3).blk t).view.read (Elt Ideal) (colOf xr (fun x => cntPos x Finset.univ) : Buf (Elt Ideal) ((c : Thread nD τ).loc main_v1_2)) := by
  have h3 : t.val % 4 = 3 := (flush0_3 t).mp hf
  show (cfg0.win 3).cut (grid0.coords t) ((dats m 0 c).after 3 t) = _
  rw [after0_3]
  funext y
  obtain ⟨p, q, rfl⟩ : ∃ (p : Fin 40) (q : Fin 1), y = ix2 p q := ⟨y 0, y 1, eq_ix2 y⟩
  have hq : q = 0 := Subsingleton.elim _ _
  subst hq
  rw [View.read_apply]
  show (outsAt0 m c t.val t.isLt).2.2.1 (ix2 p (0 : Fin 1)) = colOf xr (fun x => cntPos x Finset.univ) _
  rw [(outs_last m c xr hX t h3 p).2.2]
  unfold colOf
  refine congrArg (fun r => (((fun x => cntPos x Finset.univ) (xr r) : ℝ) : EReal)) (Fin.ext ?_)
  show 40 * (t.val / 4) + p.val = win0_3.index t 0 * 40 + 1 * p.val
  rw [(win3_facts t).1]; omega

/-- So output 3's array ends holding that column: the last points of the four row blocks cover its 160 rows. -/
theorem final_3 (hX : FiniteRows m c xr) :
    (dats m 0 c).arrAt 3 cfg0.N = (colOf xr (fun x => cntPos x Finset.univ) : Buf (Elt Ideal) ((c : Thread nD τ).loc main_v1_2)) :=
  (dats m 0 c).arrAt_eq_of_cover 3 _ (flushed_3 m c xr hX) fun i => by
    have hi0 : (i 0 : ℕ) < 160 := (i 0).isLt
    have hi1 : (i 1 : ℕ) < 1 := (i 1).isLt
    have hN : cfg0.N = 16 := N_0
    have ht : 4 * ((i 0 : ℕ) / 40) + 3 < cfg0.N := by omega
    obtain ⟨f1, f2, f3, f4, f5, f6⟩ := win3_facts ⟨4 * ((i 0 : ℕ) / 40) + 3, ht⟩
    refine ⟨⟨4 * ((i 0 : ℕ) / 40) + 3, ht⟩, (flush0_3 _).mpr (by show (4 * ((i 0 : ℕ) / 40) + 3) % 4 = 3; omega), ?_⟩
    show i ∈ ((View.whole main_v1_2).slice (win0_3.rect (⟨4 * ((i 0 : ℕ) / 40) + 3, ht⟩ : Fin cfg0.N))).set
    rw [View.set_slice_whole, Rect.mem_set_unit]
    intro a
    match a with
    | ⟨0, _⟩ =>
      show win0_3.index (⟨4 * ((i 0 : ℕ) / 40) + 3, ht⟩ : Fin cfg0.N) 0 * win0_3.size 0 ≤ (i 0 : ℕ) ∧ (i 0 : ℕ) < win0_3.index (⟨4 * ((i 0 : ℕ) / 40) + 3, ht⟩ : Fin cfg0.N) 0 * win0_3.size 0 + win0_3.xsize (grid0.coords (⟨4 * ((i 0 : ℕ) / 40) + 3, ht⟩ : Fin cfg0.N)) 0
      rw [f1, f3, f5]
      show (4 * ((i 0 : ℕ) / 40) + 3) / 4 * 40 ≤ (i 0 : ℕ) ∧ (i 0 : ℕ) < (4 * ((i 0 : ℕ) / 40) + 3) / 4 * 40 + 40
      omega
    | ⟨1, _⟩ =>
      show win0_3.index (⟨4 * ((i 0 : ℕ) / 40) + 3, ht⟩ : Fin cfg0.N) 1 * win0_3.size 1 ≤ (i 1 : ℕ) ∧ (i 1 : ℕ) < win0_3.index (⟨4 * ((i 0 : ℕ) / 40) + 3, ht⟩ : Fin cfg0.N) 1 * win0_3.size 1 + win0_3.xsize (grid0.coords (⟨4 * ((i 0 : ℕ) / 40) + 3, ht⟩ : Fin cfg0.N)) 1
      rw [f2, f4, f6]
      omega

end Cert.KernelIdeal.Accum

end
-- ==== Proof.Rows.lean ====
/-
  The input read as rows.

  The input is an array of 8 batch entries × 20 channels × 512 × 512 pixels. Both programs flatten each channel's
  pixels into one row of 262144 entries: row `r = 20 n + c` of 160 is channel `c` of batch entry `n`, and column
  `j = 512 h + w` is pixel `(h, w)`. `rowsOf x0 r j` is that entry.
-/
import Idealize.ShloMosaic.Lib.ValueIdx
import proofs.«121076_j35948876267666_2_alg».proof.Proof.EntropySpec

noncomputable section

namespace Cert.Entropy

open Idealize.ShloMosaic Idealize.ShloMosaic.ValueIdx

/-- Entry `(r, j)` of the input as 160 rows of 262144 columns. -/
def rowsOf {α : Type} (x0 : (⟨4, ![8, 20, 512, 512]⟩ : Shape).Idx → α) (r : Fin 160) (j : Fin 262144) : α :=
  x0 (ix4 (⟨r.val / 20, by omega⟩ : Fin 8) (⟨r.val % 20, by omega⟩ : Fin 20)
    (⟨j.val / 512, by omega⟩ : Fin 512) (⟨j.val % 512, by omega⟩ : Fin 512))

/-- The same entry by batch entry and channel. -/
theorem rowsOf_rowOf {α : Type} (x0 : (⟨4, ![8, 20, 512, 512]⟩ : Shape).Idx → α) (n : Fin 8) (c : Fin 20) (j : Fin 262144) :
    rowsOf x0 (rowOf n c) j
      = x0 (ix4 n c (⟨j.val / 512, by omega⟩ : Fin 512) (⟨j.val % 512, by omega⟩ : Fin 512)) := by
  unfold rowsOf rowOf
  congr 1
  have h1 : (20 * n.val + c.val) / 20 = n.val := by omega
  have h2 : (20 * n.val + c.val) % 20 = c.val := by omega
  funext a
  match a with
  | ⟨0, _⟩ => exact Fin.ext h1
  | ⟨1, _⟩ => exact Fin.ext h2
  | ⟨2, _⟩ => rfl
  | ⟨3, _⟩ => rfl

end Cert.Entropy

end
-- ==== Proof.KernelTail.lean ====
/-
  The program's host tail, read at one batch entry.

  After the kernel call the program holds three arrays of 160 rows and one column: for every row the sum s of the
  exponentials, the sum a of the exponentials times their exponents, and the count of positive entries. Twenty-two
  host operations follow. They read each array as 8 batch entries by 20 channels (row 20 n + c is entry (n, c):
  the two have the same position in row-major order), and then, entry by entry,
    s' = s where s > 0, and 1 elsewhere     (a comparison with 0 and a choice; the choice is made by an outlined function),
    e  = (log s' · s − a) / (s' · ln 2)     (the row's entropy from its two sums),
  and, batch entry by batch entry, they sum e over the channels from 0, sum the counts over the channels from 0, and
  divide the first sum by the second.

  The module first states what the last buffer holds after the 22 operations as ONE term of the three arrays
  (tail_term). The outlined function's operations write through typed references at the buffers' own types; such a
  reference carries contents by the identity, so these are the plain operations over the buffers (hostOps1_1_eq).
  Running the operations in order then substitutes each result into its consumers.

  It then reads that term at batch entry n from the outside in. It is a quotient of two sums over the second axis,
  each of them 0 plus the sum over the 20 channels c of the summand at (n, c) (reduce_apply: the source index over n
  with coordinate c on the summed axis is (n, c)). The summand of the first sum is the entropy of the two sums at
  (n, c) (entV_apply: the words 0 and 0x3F800000 are the numbers 0 and 1, and a choice by "x > 0" between x and 1 is
  an if-then-else; the ln 2 word is kept as it is). Entry (n, c) of an array's [8,20] reading is its row 20 n + c
  (view_apply). The result is tail_apply.
-/
import proofs.«121076_j35948876267666_2_alg».proof.Proof.Gen.KernelIdeal.Launch
import proofs.«121076_j35948876267666_2_alg».proof.Proof.EntropySpec
import proofs.«121076_j35948876267666_2_alg».proof.Proof.Rows
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Tail

open Idealize.ShloMosaic Idealize.ShloMosaic.ValueIdx Idealize.ShloMosaic.StableHlo Cert.KernelIdeal Cert.KernelIdeal.Gen
  Cert.Entropy

/-! ## The outlined select, read through plain references -/

/-- The three operations of the outlined function, over the buffers themselves. -/
abbrev whereOps : List (HloOp τ sig (Elt Ideal)) :=
  [ StableHlo.unary main_cst_0 main_call0_v0
      (id : (⟨S_, .f32⟩ : BufTy).Contents (Elt Ideal) → (⟨S_, .f32⟩ : BufTy).Contents (Elt Ideal)),
    StableHlo.unary main_call0_v0 main_call0_v1
      (broadcastInDim S8x20 ![] bcast_S_S8x20
        : (⟨S_, .f32⟩ : BufTy).Contents (Elt Ideal) → (⟨S8x20, .f32⟩ : BufTy).Contents (Elt Ideal)),
    StableHlo.ternary main_v6 main_v2 main_call0_v1 main_v7
      (select : (⟨S8x20, .i1⟩ : BufTy).Contents (Elt Ideal) → (⟨S8x20, .f32⟩ : BufTy).Contents (Elt Ideal)
        → (⟨S8x20, .f32⟩ : BufTy).Contents (Elt Ideal) → (⟨S8x20, .f32⟩ : BufTy).Contents (Elt Ideal)) ]

/-- A typed reference to a buffer at the buffer's own type carries contents by the identity. -/
theorem hostOps1_1_eq : (hostOps1_1 (F := Ideal)) = whereOps := rfl

/-! ## The tail as one term of the three arrays -/

/-- A [160,1] array read as [8,20]. -/
def view (A : S160x1.Idx → EReal) : FVec Ideal S8x20 .f32 := shapeCast S8x20 A shapeCasts_S160x1_S8x20

/-- The first array where it is positive, one elsewhere. -/
def safeV (A1 : S160x1.Idx → EReal) : FVec Ideal S8x20 .f32 :=
  select (cmpf .ogt (view A1) (broadcastInDim S8x20 ![] bcast_S_S8x20 (constant (F := Ideal) S_ .f32 0x00000000#32)))
    (view A1) (broadcastInDim S8x20 ![] bcast_S_S8x20 (constant (F := Ideal) S_ .f32 0x3F800000#32))

/-- The entropy of every row from the first two arrays. -/
def entV (A1 A2 : S160x1.Idx → EReal) : FVec Ideal S8x20 .f32 :=
  Host.divf (subf (mulf (Host.log (safeV A1)) (view A1)) (view A2))
    (mulf (safeV A1) (broadcastInDim S8x20 ![] bcast_S_S8x20 (constant (F := Ideal) S_ .f32 0x3F317218#32)))

/-- The tail's last value. -/
def tailTerm (A1 A2 A3 : S160x1.Idx → EReal) : FVec Ideal S8 .f32 :=
  Host.divf
    (Host.reduceAdd (entV A1 A2) (constant (F := Ideal) S_ .f32 0x00000000#32) reducesTo_S8x20_S8_d1 h_S_)
    (Host.reduceAdd (view A3) (constant (F := Ideal) S_ .f32 0x00000000#32) reducesTo_S8x20_S8_d1 h_S_)

/-- What the last buffer holds after the 22 operations, as a term of the three arrays. -/
theorem tail_term (W : Valuation τ sig (Elt Ideal)) :
    after (List.flatten [hostOps1 (F := Ideal), hostOps1_1, hostOps1_2]) W (Proc.devRef .tc main_v16)
      = tailTerm (W (Proc.devRef .tc main_v1_0)) (W (Proc.devRef .tc main_v1_1)) (W (Proc.devRef .tc main_v1_2)) := by
  rw [hostOps1_1_eq]
  simp only [hostOps1, hostOps1_2, whereOps, List.flatten_cons, List.flatten_nil, List.append_nil, List.cons_append,
    List.nil_append]
  after_results_simp
  rfl

/-! ## The float words -/

/-- The zero word is 0. -/
theorem ofBits_zero : Ideal.ofBits .f32 0x00000000#32 = 0 := by
  simp [Ideal.ofBits, Ideal.ieee, -EReal.coe_mul]

/-- The word 0x3F800000 is 1. -/
theorem ofBits_one : Ideal.ofBits .f32 0x3F800000#32 = 1 := by
  simp [Ideal.ofBits, Ideal.ieee, -EReal.coe_mul]
  norm_num

/-- Choosing by the comparison with 0: the value where it is positive, one elsewhere. -/
theorem select_gt (s : EReal) :
    Scalar.select (Ideal.cmp .ogt s 0) s (1 : EReal) = if 0 < s then s else 1 := by
  unfold Scalar.select Ideal.cmp
  by_cases h : 0 < s <;> simp [h]

/-! ## Reading the term at an index -/

/-- Row `20 n + c` of the [160,1] array is entry `(n, c)` of its [8,20] reading. -/
theorem view_apply (A : S160x1.Idx → EReal) (n : Fin 8) (c : Fin 20) :
    view A (ix2 n c) = A (ix2 (rowOf n c) (0 : Fin 1)) := by
  unfold view
  refine shapeCast_apply A shapeCasts_S160x1_S8x20 (ix2 n c) (ix2 (rowOf n c) (0 : Fin 1)) ?_
  rw [Shape.rowMajor_val_two, Shape.rowMajor_val_two]
  show (20 * n.val + c.val) * 1 + 0 = n.val * 20 + c.val
  omega

/-- The guarded value at an entry. -/
theorem safeV_apply (A1 : S160x1.Idx → EReal) (j : S8x20.Idx) :
    safeV A1 j = if 0 < view A1 j then view A1 j else 1 := by
  show Scalar.select (Ideal.cmp .ogt (view A1 j) (Ideal.ofBits .f32 0x00000000#32)) (view A1 j)
      (Ideal.ofBits .f32 0x3F800000#32) = _
  rw [ofBits_zero, ofBits_one, select_gt]

/-- The entropy at an entry is the entropy of the two sums there. -/
theorem entV_apply (A1 A2 : S160x1.Idx → EReal) (j : S8x20.Idx) :
    entV A1 A2 j = eEnt (view A1 j) (view A2 j) := by
  show Ideal.div (Ideal.log (safeV A1 j) * view A1 j - view A2 j) (safeV A1 j * ln2E) = _
  rw [safeV_apply]
  rfl

/-- Summing an [8,20] array over its second axis leaves [8]. -/
theorem reduces_S8x20_S8 : S8x20.Reduces [(1 : Fin S8x20.rank)] S8 := by decide

/-- The source index over `n` with coordinate `c` on the summed axis is `(n, c)`. -/
theorem lift_ix1 (n : Fin 8) (c : Fin (S8x20.size (1 : Fin S8x20.rank))) :
    reduces_S8x20_S8.lift (ix1 n) c = ix2 n (c : Fin 20) := by
  funext d
  apply Fin.ext
  show reduces_S8x20_S8.liftVal (ix1 n) c.val d = _
  unfold Shape.Reduces.liftVal
  match d with
  | ⟨0, _⟩ => simp
  | ⟨1, _⟩ => simp

/-- A sum over the channels from 0, at batch entry `n`. -/
theorem reduce_apply (x : FVec Ideal S8x20 .f32) (n : Fin 8) :
    Host.reduceAdd x (constant (F := Ideal) S_ .f32 0x00000000#32) reducesTo_S8x20_S8_d1 h_S_ (ix1 n)
      = 0 + ∑ c : Fin 20, x (ix2 n c) := by
  show Ideal.hostReduceAdd reducesTo_S8x20_S8_d1 x (Ideal.ofBits .f32 0x00000000#32) (ix1 n) = _
  rw [Ideal.hostReduceAdd_single reducesTo_S8x20_S8_d1 reduces_S8x20_S8 x _ (ix1 n), ofBits_zero]
  exact congrArg (fun t => (0 : EReal) + t) (Finset.sum_congr rfl fun c _ => congrArg x (lift_ix1 n c))

/-! ## The result -/

/-- The term at batch entry `n`: the channels' entropies summed over the channels' counts summed. -/
theorem tailTerm_apply (A1 A2 A3 : S160x1.Idx → EReal) (n : Fin 8) :
    tailTerm A1 A2 A3 (ix1 n)
      = Ideal.div (0 + ∑ c : Fin 20, eEnt (A1 (ix2 (rowOf n c) (0 : Fin 1))) (A2 (ix2 (rowOf n c) (0 : Fin 1))))
          (0 + ∑ c : Fin 20, A3 (ix2 (rowOf n c) (0 : Fin 1))) := by
  show Ideal.div
      (Host.reduceAdd (entV A1 A2) (constant (F := Ideal) S_ .f32 0x00000000#32) reducesTo_S8x20_S8_d1 h_S_ (ix1 n))
      (Host.reduceAdd (view A3) (constant (F := Ideal) S_ .f32 0x00000000#32) reducesTo_S8x20_S8_d1 h_S_ (ix1 n)) = _
  rw [reduce_apply, reduce_apply]
  simp only [entV_apply, view_apply]

/-- What the kernel program's host tail leaves at batch entry `n` of its last buffer, the three arrays it starts
    from being `A1`, `A2`, `A3`. -/
theorem tail_apply (W : Valuation τ sig (Elt Ideal)) (A1 A2 A3 : S160x1.Idx → EReal)
    (hA1 : W (Proc.devRef .tc main_v1_0) = A1) (hA2 : W (Proc.devRef .tc main_v1_1) = A2)
    (hA3 : W (Proc.devRef .tc main_v1_2) = A3) (n : Fin 8) :
    (after (List.flatten [hostOps1 (F := Ideal), hostOps1_1, hostOps1_2]) W (Proc.devRef .tc main_v16) : S8.Idx → EReal) (ix1 n)
      = Ideal.div (0 + ∑ c : Fin 20, eEnt (A1 (ix2 (rowOf n c) (0 : Fin 1))) (A2 (ix2 (rowOf n c) (0 : Fin 1))))
          (0 + ∑ c : Fin 20, A3 (ix2 (rowOf n c) (0 : Fin 1))) := by
  subst hA1 hA2 hA3
  rw [tail_term]
  exact tailTerm_apply _ _ _ n

end Cert.KernelIdeal.Tail

end
-- ==== Proof.KernelInput.lean ====
/-
  The array the kernel reads.

  Before the kernel call the program reshapes the input to 160 rows of 262144 columns; a reshape keeps the row-major
  position, so entry `(r, j)` of that array is entry `(r, j)` of the input read as rows. If every entry of the input
  is a real number, so is every entry of that array: the rows `xr` of the finite input.
-/
import proofs.«121076_j35948876267666_2_alg».proof.Proof.Gen.KernelIdeal.Frame
import proofs.«121076_j35948876267666_2_alg».proof.Proof.Rows
import Idealize.ShloMosaic.Lib.StableHlo.Run
import Idealize.ShloMosaic.Lib.Pipeline.Value
import Idealize.ShloMosaic.Lib.ValueIdx

set_option maxRecDepth 16384

noncomputable section

namespace Cert.KernelIdeal.Input

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.KernelIdeal Cert.KernelIdeal.Gen Cert.Entropy

variable {F : FTy → Type} [FloatOps F]
variable (m : (ℓ : Loc nD τ sig) → Buf (Elt F) ℓ) (c : Dev nD)

/-- The region finds the reshaped input in its first operand. -/
theorem V_main_v0 :
    V m c main_v0 = shapeCast S160x262144 (m ((c : Thread nD τ).loc main_arg0)) shapeCasts_S8x20x512x512_S160x262144 := by
  show StableHlo.after hostOps0 (fun b => m (c, b)) (Proc.devRef .tc main_v0) = _
  after_results
  rfl

/-- Entry `(r, j)` of that array is entry `(r, j)` of the input read as rows. -/
theorem V_main_v0_apply (r : Fin 160) (j : Fin 262144) :
    V m c main_v0 (ix2 r j) = rowsOf (m ((c : Thread nD τ).loc main_arg0)) r j := by
  rw [V_main_v0]
  unfold rowsOf
  refine shapeCast_apply _ shapeCasts_S8x20x512x512_S160x262144 (ix2 r j) _ ?_
  rewrite [Shape.rowMajor_val_four, Shape.rowMajor_val_two]
  have hr := r.isLt
  have hj := j.isLt
  show ((r.val / 20 * 20 + r.val % 20) * 512 + j.val / 512) * 512 + j.val % 512 = r.val * 262144 + j.val
  omega

end Cert.KernelIdeal.Input

end
-- ==== Proof.KernelResult.lean ====
/-
  The kernel program's result, for a finite input.

  After the kernel call the three output arrays hold, row by row, the sum of exponentials, the sum of exponentials times
  exponents and the count of positive entries over the whole row (for the rows `xr` of a finite input). The program's
  last operations turn each row's two sums into the row's entropy — `(log s · s − A) / (s · ln 2)`, guarded at `s = 0` —,
  add the entropies and the counts of a batch entry's twenty channels, and divide: the stated `result`. So every weakly
  fair execution of the program ends with its result buffer at `result xr` and its argument unchanged.
-/
import proofs.«121076_j35948876267666_2_alg».proof.Proof.KernelArrays
import proofs.«121076_j35948876267666_2_alg».proof.Proof.KernelTail
import proofs.«121076_j35948876267666_2_alg».proof.Proof.KernelInput
import proofs.«121076_j35948876267666_2_alg».proof.Proof.OnlineSoftmax

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Accum Cert.Entropy

variable (m : (ℓ : Loc nD τ sig) → Buf (Elt Ideal) ℓ) (ρ : Dev nD → PrngReg)

/-- The input's rows on core `c`, as real numbers (meaningful when the input is finite). -/
def xrOf (c : Dev nD) : Fin 160 → Fin 262144 → ℝ :=
  fun r j => (rowsOf (m ((c : Thread nD τ).loc main_arg0)) r j).toReal

/-- Every entry of the input is a real number. -/
def FiniteInput : Prop :=
  ∀ (c : Dev nD) (i : S8x20x512x512.Idx), ∃ r : ℝ, m ((c : Thread nD τ).loc main_arg0) i = ((r : ℝ) : EReal)

/-- A finite input's rows are what the kernel reads. -/
theorem finiteRows (hfin : FiniteInput m) (c : Dev nD) : FiniteRows m c (xrOf m c) := by
  intro r j
  rw [Input.V_main_v0_apply]
  obtain ⟨x, hx⟩ : ∃ x : ℝ, rowsOf (m ((c : Thread nD τ).loc main_arg0)) r j = ((x : ℝ) : EReal) := hfin c _
  show rowsOf (m ((c : Thread nD τ).loc main_arg0)) r j = (((rowsOf (m ((c : Thread nD τ).loc main_arg0)) r j).toReal : ℝ) : EReal)
  rw [hx, EReal.toReal_coe]

/-- The result buffer's contents: entry `n` is batch entry `n`'s entropy. -/
def resultArr (xr : Fin 160 → Fin 262144 → ℝ) : Vec Ideal S8 .f32 :=
  fun i => result xr ⟨(i 0).val, (i 0).isLt⟩

/-- The tail of the program, read at batch entry `n`. -/
theorem result_at (hfin : FiniteInput m) (c : Dev nD) (n : Fin 8) :
    Pipeline.afterTail₀ cfgs (dats m) 0 (V0 m) [hostOps1, hostOps1_1, hostOps1_2] c main_v16 (ix1 n)
      = result (xrOf m c) n := by
  have hX := finiteRows m hfin c
  have h1 : Pipeline.withArrays (cfgs 0).spec c (V0 m c) (fun w => (dats m 0 c).arrAt w (cfgs 0).N) (Proc.devRef .tc main_v1_0)
      = colOf (xrOf m c) (fun x => sumExp x Finset.univ) :=
    (Pipeline.withArrays_arr spec0 launch0.win.arr_inj c _ _ 1).trans (final_1 m c _ hX)
  have h2 : Pipeline.withArrays (cfgs 0).spec c (V0 m c) (fun w => (dats m 0 c).arrAt w (cfgs 0).N) (Proc.devRef .tc main_v1_1)
      = colOf (xrOf m c) (fun x => sumExpT x Finset.univ) :=
    (Pipeline.withArrays_arr spec0 launch0.win.arr_inj c _ _ 2).trans (final_2 m c _ hX)
  have h3 : Pipeline.withArrays (cfgs 0).spec c (V0 m c) (fun w => (dats m 0 c).arrAt w (cfgs 0).N) (Proc.devRef .tc main_v1_2)
      = colOf (xrOf m c) (fun x => cntPos x Finset.univ) :=
    (Pipeline.withArrays_arr spec0 launch0.win.arr_inj c _ _ 3).trans (final_3 m c _ hX)
  unfold Pipeline.afterTail₀
  refine (Tail.tail_apply _ _ _ _ h1 h2 h3 n).trans ?_
  unfold result colOf
  refine congrArg₂ Ideal.div (congrArg (fun z => 0 + z) (Finset.sum_congr rfl fun c' _ => ?_))
    (congrArg (fun z => 0 + z) (Finset.sum_congr rfl fun c' _ => ?_))
  · exact eEnt_coe (xrOf m c (rowOf n c'))
  · rfl

/-- The program's run: the result buffer at the batch entries' entropies, the argument unchanged. -/
theorem run (hfin : FiniteInput m) :
    θ_run defs (onTc (τ := τ) (main (F := Ideal))) ⟨m, fun _ => 0, ρ⟩ (fun r => ∀ c : Dev nD,
      r.2.mem ((c.tc : Thread nD τ).loc main_v16) = resultArr (xrOf m c)
      ∧ r.2.mem ((c.tc : Thread nD τ).loc main_arg0) = m ((c.tc : Thread nD τ).loc main_arg0)) :=
  (θ_run defs _ _).mono (fun _ h c =>
    ⟨((h c).2 main_v16 (Pipeline.mem_restRefs_of main_v16 (by decide) (by decide))).trans (by
        funext i
        obtain ⟨n, rfl⟩ : ∃ n : Fin 8, i = ix1 n := ⟨i 0, eq_ix1 i⟩
        exact result_at m hfin c n),
     ((h c).2 main_arg0 (Pipeline.mem_restRefs_of main_arg0 (by decide) (by decide))).trans (W_main_arg0 m (dats m) c)⟩)
    (run_main m ρ)

end Cert.KernelIdeal.Result

end
-- ==== Proof.RefRun.lean ====
/-
  The reference program's run.

  The reference is sixty-one host operations in a row: a reshape of the input to rows, the mask of its positive entries,
  the masked maximum and its guard, the exponentials and their sum, the logarithm of the sum, the entropy terms and
  their sum, the count of positive entries, and two quotients. Five of them are selections (`where`) that the
  program keeps as a separate function; an operation of that function reads and writes its buffers through references
  that carry the tensor type, and moves contents to and from the buffer's own type along the fact that the two types
  agree. At a literal buffer that fact is an equation of a type with itself, so each such operation IS the plain
  operation on the same buffers (`ops_eq`): the list `ops'` spells the same sixty-one operations without the typed
  references. Run from any memory, every weakly fair execution ends with the result buffer at the operations'
  composed term of the argument (`res_main_v36`) and the argument unchanged (`run`): the composed term is read off
  the list without typed references, where it is the stated term symbol for symbol.
-/
import proofs.«121076_j35948876267666_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 61 operations, in order (a called function's operations stand in its call's place, spelt `TRef.…`). -/
abbrev ops : List (HloOp τ sig (Elt F)) :=
  [ reshape main_arg0 main_v0 rfl shapeCasts_S8x20x512x512_S8x20x262144,
    nullary main_cst (constant S_ .f32 0x00000000#32),
    unary main_cst main_v1 (broadcastInDim S8x20x262144 ![] bcast_S_S8x20x262144 : (⟨S_, .f32⟩ : BufTy).Contents (Elt F) → (⟨S8x20x262144, .f32⟩ : BufTy).Contents (Elt F)),
    binary main_v0 main_v1 main_v2 (cmpf .ogt : (⟨S8x20x262144, .f32⟩ : BufTy).Contents (Elt F) → (⟨S8x20x262144, .f32⟩ : BufTy).Contents (Elt F) → (⟨S8x20x262144, .i1⟩ : BufTy).Contents (Elt F)),
    nullary main_cst_0 (constant S_ .f32 0xF149F2CA#32),
    TRef.unary (TRef.of (T := ⟨S_, .f32⟩) main_cst_0) (TRef.of (T := ⟨S8x20x262144, .f32⟩) main_call0_v0) (broadcastInDim S8x20x262144 ![] bcast_S_S8x20x262144),
    TRef.ternary (TRef.of (T := ⟨S8x20x262144, .i1⟩) main_v2) (TRef.of (T := ⟨S8x20x262144, .f32⟩) main_v0) (TRef.of (T := ⟨S8x20x262144, .f32⟩) main_call0_v0) (TRef.of (T := ⟨S8x20x262144, .f32⟩) main_v3) select,
    nullary main_cst_1 (constant S_ .f32 0xFF800000#32),
    binary main_v3 main_cst_1 main_v4 ((fun x v => Host.reduce FloatOps.maximumf x v reducesTo_S8x20x262144_S8x20_d2 h_S_) : (⟨S8x20x262144, .f32⟩ : BufTy).Contents (Elt F) → (⟨S_, .f32⟩ : BufTy).Contents (Elt F) → (⟨S8x20, .f32⟩ : BufTy).Contents (Elt F)),
    unary main_v4 main_v5 (broadcastInDim S8x20x1 ![0, 1] bcast_S8x20_S8x20x1_0_1 : (⟨S8x20, .f32⟩ : BufTy).Contents (Elt F) → (⟨S8x20x1, .f32⟩ : BufTy).Contents (Elt F)),
    nullary main_cst_2 (constant S_ .f32 0xF149F2CA#32),
    nullary main_cst_3 (constant S_ .f32 0x3F000000#32),
    binary main_cst_2 main_cst_3 main_v6 (mulf : (⟨S_, .f32⟩ : BufTy).Contents (Elt F) → (⟨S_, .f32⟩ : BufTy).Contents (Elt F) → (⟨S_, .f32⟩ : BufTy).Contents (Elt F)),
    unary main_v6 main_v7 (broadcastInDim S8x20x1 ![] bcast_S_S8x20x1 : (⟨S_, .f32⟩ : BufTy).Contents (Elt F) → (⟨S8x20x1, .f32⟩ : BufTy).Contents (Elt F)),
    binary main_v5 main_v7 main_v8 (cmpf .ole : (⟨S8x20x1, .f32⟩ : BufTy).Contents (Elt F) → (⟨S8x20x1, .f32⟩ : BufTy).Contents (Elt F) → (⟨S8x20x1, .i1⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8x20x1, .f32⟩) main_call1_v1) (broadcastInDim S8x20x1 ![] bcast_S_S8x20x1),
    TRef.ternary (TRef.of (T := ⟨S8x20x1, .i1⟩) main_v8) (TRef.of (T := ⟨S8x20x1, .f32⟩) main_call1_v1) (TRef.of (T := ⟨S8x20x1, .f32⟩) main_v5) (TRef.of (T := ⟨S8x20x1, .f32⟩) main_v9) select,
    unary main_v9 main_v10 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v0 main_v10 main_v11 (subf : (⟨S8x20x262144, .f32⟩ : BufTy).Contents (Elt F) → (⟨S8x20x262144, .f32⟩ : BufTy).Contents (Elt F) → (⟨S8x20x262144, .f32⟩ : BufTy).Contents (Elt F)),
    unary main_v11 main_v12 (Host.exp : (⟨S8x20x262144, .f32⟩ : BufTy).Contents (Elt F) → (⟨S8x20x262144, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8x20x262144, .f32⟩) main_call2_v1) (broadcastInDim S8x20x262144 ![] bcast_S_S8x20x262144),
    TRef.ternary (TRef.of (T := ⟨S8x20x262144, .i1⟩) main_v2) (TRef.of (T := ⟨S8x20x262144, .f32⟩) main_v12) (TRef.of (T := ⟨S8x20x262144, .f32⟩) main_call2_v1) (TRef.of (T := ⟨S8x20x262144, .f32⟩) main_v13) select,
    nullary main_cst_6 (constant S_ .f32 0x00000000#32),
    binary main_v13 main_cst_6 main_v14 ((fun x v => Host.reduceAdd x v reducesTo_S8x20x262144_S8x20_d2 h_S_) : (⟨S8x20x262144, .f32⟩ : BufTy).Contents (Elt F) → (⟨S_, .f32⟩ : BufTy).Contents (Elt F) → (⟨S8x20, .f32⟩ : BufTy).Contents (Elt F)),
    unary main_v14 main_v15 (broadcastInDim S8x20x1 ![0, 1] bcast_S8x20_S8x20x1_0_1 : (⟨S8x20, .f32⟩ : BufTy).Contents (Elt F) → (⟨S8x20x1, .f32⟩ : BufTy).Contents (Elt F)),
    nullary main_cst_7 (constant S_ .f32 0x00000000#32),
    unary main_cst_7 main_v16 (broadcastInDim S8x20x1 ![] bcast_S_S8x20x1 : (⟨S_, .f32⟩ : BufTy).Contents (Elt F) → (⟨S8x20x1, .f32⟩ : BufTy).Contents (Elt F)),
    binary main_v15 main_v16 main_v17 (cmpf .ogt : (⟨S8x20x1, .f32⟩ : BufTy).Contents (Elt F) → (⟨S8x20x1, .f32⟩ : BufTy).Contents (Elt F) → (⟨S8x20x1, .i1⟩ : BufTy).Contents (Elt F)),
    nullary main_cst_8 (constant S_ .f32 0x3F800000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S8x20x1, .f32⟩) main_call3_v1) (broadcastInDim S8x20x1 ![] bcast_S_S8x20x1),
    TRef.ternary (TRef.of (T := ⟨S8x20x1, .i1⟩) main_v17) (TRef.of (T := ⟨S8x20x1, .f32⟩) main_v15) (TRef.of (T := ⟨S8x20x1, .f32⟩) main_call3_v1) (TRef.of (T := ⟨S8x20x1, .f32⟩) main_v18) select,
    unary main_v9 main_v19 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v0 main_v19 main_v20 (subf : (⟨S8x20x262144, .f32⟩ : BufTy).Contents (Elt F) → (⟨S8x20x262144, .f32⟩ : BufTy).Contents (Elt F) → (⟨S8x20x262144, .f32⟩ : BufTy).Contents (Elt F)),
    unary main_v18 main_v21 (Host.log : (⟨S8x20x1, .f32⟩ : BufTy).Contents (Elt F) → (⟨S8x20x1, .f32⟩ : BufTy).Contents (Elt F)),
    unary main_v21 main_v22 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v20 main_v22 main_v23 (subf : (⟨S8x20x262144, .f32⟩ : BufTy).Contents (Elt F) → (⟨S8x20x262144, .f32⟩ : BufTy).Contents (Elt F) → (⟨S8x20x262144, .f32⟩ : BufTy).Contents (Elt F)),
    unary main_v18 main_v24 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v13 main_v24 main_v25 (Host.divf : (⟨S8x20x262144, .f32⟩ : BufTy).Contents (Elt F) → (⟨S8x20x262144, .f32⟩ : BufTy).Contents (Elt F) → (⟨S8x20x262144, .f32⟩ : BufTy).Contents (Elt F)),
    binary main_v25 main_v23 main_v26 (mulf : (⟨S8x20x262144, .f32⟩ : BufTy).Contents (Elt F) → (⟨S8x20x262144, .f32⟩ : BufTy).Contents (Elt F) → (⟨S8x20x262144, .f32⟩ : BufTy).Contents (Elt F)),
    nullary main_cst_9 (constant S_ .f32 0x00000000#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S8x20x262144, .f32⟩) main_call4_v1) (broadcastInDim S8x20x262144 ![] bcast_S_S8x20x262144),
    TRef.ternary (TRef.of (T := ⟨S8x20x262144, .i1⟩) main_v2) (TRef.of (T := ⟨S8x20x262144, .f32⟩) main_v26) (TRef.of (T := ⟨S8x20x262144, .f32⟩) main_call4_v1) (TRef.of (T := ⟨S8x20x262144, .f32⟩) main_v27) select,
    nullary main_cst_10 (constant S_ .f32 0x00000000#32),
    binary main_v27 main_cst_10 main_v28 ((fun x v => Host.reduceAdd x v reducesTo_S8x20x262144_S8x20_d2 h_S_) : (⟨S8x20x262144, .f32⟩ : BufTy).Contents (Elt F) → (⟨S_, .f32⟩ : BufTy).Contents (Elt F) → (⟨S8x20, .f32⟩ : BufTy).Contents (Elt F)),
    unary main_v28 main_v29 (Host.negf : (⟨S8x20, .f32⟩ : BufTy).Contents (Elt F) → (⟨S8x20, .f32⟩ : BufTy).Contents (Elt F)),
    nullary main_cst_11 (constant S_ .f32 0x3F317218#32),
    unary main_cst_11 main_v30 (broadcastInDim S8x20 ![] bcast_S_S8x20 : (⟨S_, .f32⟩ : BufTy).Contents (Elt F) → (⟨S8x20, .f32⟩ : BufTy).Contents (Elt F)),
    binary main_v29 main_v30 main_v31 (Host.divf : (⟨S8x20, .f32⟩ : BufTy).Contents (Elt F) → (⟨S8x20, .f32⟩ : BufTy).Contents (Elt F) → (⟨S8x20, .f32⟩ : BufTy).Contents (Elt F)),
    unary main_v2 main_v32 ((extui 32 · natLt_1_32) : (⟨S8x20x262144, .i1⟩ : BufTy).Contents (Elt F) → (⟨S8x20x262144, .i32⟩ : BufTy).Contents (Elt F)),
    nullary main_c (constantI S_ 32 0#32),
    binary main_v32 main_c main_v33 ((fun x v => Host.reduce IntOp.addi x v reducesTo_S8x20x262144_S8_d1_2 h_S_) : (⟨S8x20x262144, .i32⟩ : BufTy).Contents (Elt F) → (⟨S_, .i32⟩ : BufTy).Contents (Elt F) → (⟨S8, .i32⟩ : BufTy).Contents (Elt F)),
    unary main_v33 main_v34 (sitofp .f32 : (⟨S8, .i32⟩ : BufTy).Contents (Elt F) → (⟨S8, .f32⟩ : BufTy).Contents (Elt F)),
    nullary main_cst_12 (constant S_ .f32 0x00000000#32),
    binary main_v31 main_cst_12 main_v35 ((fun x v => Host.reduceAdd x v reducesTo_S8x20_S8_d1 h_S_) : (⟨S8x20, .f32⟩ : BufTy).Contents (Elt F) → (⟨S_, .f32⟩ : BufTy).Contents (Elt F) → (⟨S8, .f32⟩ : BufTy).Contents (Elt F)),
    binary main_v35 main_v34 main_v36 (Host.divf : (⟨S8, .f32⟩ : BufTy).Contents (Elt F) → (⟨S8, .f32⟩ : BufTy).Contents (Elt F) → (⟨S8, .f32⟩ : BufTy).Contents (Elt F)) ]

/-- The same operations with every typed reference replaced by its buffer. -/
abbrev ops' : List (HloOp τ sig (Elt F)) :=
  [ reshape main_arg0 main_v0 rfl shapeCasts_S8x20x512x512_S8x20x262144,
    nullary main_cst (constant S_ .f32 0x00000000#32),
    unary main_cst main_v1 (broadcastInDim S8x20x262144 ![] bcast_S_S8x20x262144 : (⟨S_, .f32⟩ : BufTy).Contents (Elt F) → (⟨S8x20x262144, .f32⟩ : BufTy).Contents (Elt F)),
    binary main_v0 main_v1 main_v2 (cmpf .ogt : (⟨S8x20x262144, .f32⟩ : BufTy).Contents (Elt F) → (⟨S8x20x262144, .f32⟩ : BufTy).Contents (Elt F) → (⟨S8x20x262144, .i1⟩ : BufTy).Contents (Elt F)),
    nullary main_cst_0 (constant S_ .f32 0xF149F2CA#32),
    unary main_cst_0 main_call0_v0 ((broadcastInDim S8x20x262144 ![] bcast_S_S8x20x262144) : (⟨S_, .f32⟩ : BufTy).Contents (Elt F) → (⟨S8x20x262144, .f32⟩ : BufTy).Contents (Elt F)),
    ternary main_v2 main_v0 main_call0_v0 main_v3 (select : (⟨S8x20x262144, .i1⟩ : BufTy).Contents (Elt F) → (⟨S8x20x262144, .f32⟩ : BufTy).Contents (Elt F) → (⟨S8x20x262144, .f32⟩ : BufTy).Contents (Elt F) → (⟨S8x20x262144, .f32⟩ : BufTy).Contents (Elt F)),
    nullary main_cst_1 (constant S_ .f32 0xFF800000#32),
    binary main_v3 main_cst_1 main_v4 ((fun x v => Host.reduce FloatOps.maximumf x v reducesTo_S8x20x262144_S8x20_d2 h_S_) : (⟨S8x20x262144, .f32⟩ : BufTy).Contents (Elt F) → (⟨S_, .f32⟩ : BufTy).Contents (Elt F) → (⟨S8x20, .f32⟩ : BufTy).Contents (Elt F)),
    unary main_v4 main_v5 (broadcastInDim S8x20x1 ![0, 1] bcast_S8x20_S8x20x1_0_1 : (⟨S8x20, .f32⟩ : BufTy).Contents (Elt F) → (⟨S8x20x1, .f32⟩ : BufTy).Contents (Elt F)),
    nullary main_cst_2 (constant S_ .f32 0xF149F2CA#32),
    nullary main_cst_3 (constant S_ .f32 0x3F000000#32),
    binary main_cst_2 main_cst_3 main_v6 (mulf : (⟨S_, .f32⟩ : BufTy).Contents (Elt F) → (⟨S_, .f32⟩ : BufTy).Contents (Elt F) → (⟨S_, .f32⟩ : BufTy).Contents (Elt F)),
    unary main_v6 main_v7 (broadcastInDim S8x20x1 ![] bcast_S_S8x20x1 : (⟨S_, .f32⟩ : BufTy).Contents (Elt F) → (⟨S8x20x1, .f32⟩ : BufTy).Contents (Elt F)),
    binary main_v5 main_v7 main_v8 (cmpf .ole : (⟨S8x20x1, .f32⟩ : BufTy).Contents (Elt F) → (⟨S8x20x1, .f32⟩ : BufTy).Contents (Elt F) → (⟨S8x20x1, .i1⟩ : BufTy).Contents (Elt F)),
    nullary main_cst_4 (constant S_ .f32 0x00000000#32),
    unary main_cst_4 main_call1_v0 (id : (⟨S_, .f32⟩ : BufTy).Contents (Elt F) → (⟨S_, .f32⟩ : BufTy).Contents (Elt F)),
    unary main_call1_v0 main_call1_v1 ((broadcastInDim S8x20x1 ![] bcast_S_S8x20x1) : (⟨S_, .f32⟩ : BufTy).Contents (Elt F) → (⟨S8x20x1, .f32⟩ : BufTy).Contents (Elt F)),
    ternary main_v8 main_call1_v1 main_v5 main_v9 (select : (⟨S8x20x1, .i1⟩ : BufTy).Contents (Elt F) → (⟨S8x20x1, .f32⟩ : BufTy).Contents (Elt F) → (⟨S8x20x1, .f32⟩ : BufTy).Contents (Elt F) → (⟨S8x20x1, .f32⟩ : BufTy).Contents (Elt F)),
    unary main_v9 main_v10 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v0 main_v10 main_v11 (subf : (⟨S8x20x262144, .f32⟩ : BufTy).Contents (Elt F) → (⟨S8x20x262144, .f32⟩ : BufTy).Contents (Elt F) → (⟨S8x20x262144, .f32⟩ : BufTy).Contents (Elt F)),
    unary main_v11 main_v12 (Host.exp : (⟨S8x20x262144, .f32⟩ : BufTy).Contents (Elt F) → (⟨S8x20x262144, .f32⟩ : BufTy).Contents (Elt F)),
    nullary main_cst_5 (constant S_ .f32 0x00000000#32),
    unary main_cst_5 main_call2_v0 (id : (⟨S_, .f32⟩ : BufTy).Contents (Elt F) → (⟨S_, .f32⟩ : BufTy).Contents (Elt F)),
    unary main_call2_v0 main_call2_v1 ((broadcastInDim S8x20x262144 ![] bcast_S_S8x20x262144) : (⟨S_, .f32⟩ : BufTy).Contents (Elt F) → (⟨S8x20x262144, .f32⟩ : BufTy).Contents (Elt F)),
    ternary main_v2 main_v12 main_call2_v1 main_v13 (select : (⟨S8x20x262144, .i1⟩ : BufTy).Contents (Elt F) → (⟨S8x20x262144, .f32⟩ : BufTy).Contents (Elt F) → (⟨S8x20x262144, .f32⟩ : BufTy).Contents (Elt F) → (⟨S8x20x262144, .f32⟩ : BufTy).Contents (Elt F)),
    nullary main_cst_6 (constant S_ .f32 0x00000000#32),
    binary main_v13 main_cst_6 main_v14 ((fun x v => Host.reduceAdd x v reducesTo_S8x20x262144_S8x20_d2 h_S_) : (⟨S8x20x262144, .f32⟩ : BufTy).Contents (Elt F) → (⟨S_, .f32⟩ : BufTy).Contents (Elt F) → (⟨S8x20, .f32⟩ : BufTy).Contents (Elt F)),
    unary main_v14 main_v15 (broadcastInDim S8x20x1 ![0, 1] bcast_S8x20_S8x20x1_0_1 : (⟨S8x20, .f32⟩ : BufTy).Contents (Elt F) → (⟨S8x20x1, .f32⟩ : BufTy).Contents (Elt F)),
    nullary main_cst_7 (constant S_ .f32 0x00000000#32),
    unary main_cst_7 main_v16 (broadcastInDim S8x20x1 ![] bcast_S_S8x20x1 : (⟨S_, .f32⟩ : BufTy).Contents (Elt F) → (⟨S8x20x1, .f32⟩ : BufTy).Contents (Elt F)),
    binary main_v15 main_v16 main_v17 (cmpf .ogt : (⟨S8x20x1, .f32⟩ : BufTy).Contents (Elt F) → (⟨S8x20x1, .f32⟩ : BufTy).Contents (Elt F) → (⟨S8x20x1, .i1⟩ : BufTy).Contents (Elt F)),
    nullary main_cst_8 (constant S_ .f32 0x3F800000#32),
    unary main_cst_8 main_call3_v0 (id : (⟨S_, .f32⟩ : BufTy).Contents (Elt F) → (⟨S_, .f32⟩ : BufTy).Contents (Elt F)),
    unary main_call3_v0 main_call3_v1 ((broadcastInDim S8x20x1 ![] bcast_S_S8x20x1) : (⟨S_, .f32⟩ : BufTy).Contents (Elt F) → (⟨S8x20x1, .f32⟩ : BufTy).Contents (Elt F)),
    ternary main_v17 main_v15 main_call3_v1 main_v18 (select : (⟨S8x20x1, .i1⟩ : BufTy).Contents (Elt F) → (⟨S8x20x1, .f32⟩ : BufTy).Contents (Elt F) → (⟨S8x20x1, .f32⟩ : BufTy).Contents (Elt F) → (⟨S8x20x1, .f32⟩ : BufTy).Contents (Elt F)),
    unary main_v9 main_v19 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v0 main_v19 main_v20 (subf : (⟨S8x20x262144, .f32⟩ : BufTy).Contents (Elt F) → (⟨S8x20x262144, .f32⟩ : BufTy).Contents (Elt F) → (⟨S8x20x262144, .f32⟩ : BufTy).Contents (Elt F)),
    unary main_v18 main_v21 (Host.log : (⟨S8x20x1, .f32⟩ : BufTy).Contents (Elt F) → (⟨S8x20x1, .f32⟩ : BufTy).Contents (Elt F)),
    unary main_v21 main_v22 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v20 main_v22 main_v23 (subf : (⟨S8x20x262144, .f32⟩ : BufTy).Contents (Elt F) → (⟨S8x20x262144, .f32⟩ : BufTy).Contents (Elt F) → (⟨S8x20x262144, .f32⟩ : BufTy).Contents (Elt F)),
    unary main_v18 main_v24 (broadcastInDim S8x20x262144 ![0, 1, 2] bcast_S8x20x1_S8x20x262144_0_1_2 : (⟨S8x20x1, .f32⟩ : BufTy).Contents (Elt F) → (⟨S8x20x262144, .f32⟩ : BufTy).Contents (Elt F)),
    binary main_v13 main_v24 main_v25 (Host.divf : (⟨S8x20x262144, .f32⟩ : BufTy).Contents (Elt F) → (⟨S8x20x262144, .f32⟩ : BufTy).Contents (Elt F) → (⟨S8x20x262144, .f32⟩ : BufTy).Contents (Elt F)),
    binary main_v25 main_v23 main_v26 (mulf : (⟨S8x20x262144, .f32⟩ : BufTy).Contents (Elt F) → (⟨S8x20x262144, .f32⟩ : BufTy).Contents (Elt F) → (⟨S8x20x262144, .f32⟩ : BufTy).Contents (Elt F)),
    nullary main_cst_9 (constant S_ .f32 0x00000000#32),
    unary main_cst_9 main_call4_v0 (id : (⟨S_, .f32⟩ : BufTy).Contents (Elt F) → (⟨S_, .f32⟩ : BufTy).Contents (Elt F)),
    unary main_call4_v0 main_call4_v1 ((broadcastInDim S8x20x262144 ![] bcast_S_S8x20x262144) : (⟨S_, .f32⟩ : BufTy).Contents (Elt F) → (⟨S8x20x262144, .f32⟩ : BufTy).Contents (Elt F)),
    ternary main_v2 main_v26 main_call4_v1 main_v27 (select : (⟨S8x20x262144, .i1⟩ : BufTy).Contents (Elt F) → (⟨S8x20x262144, .f32⟩ : BufTy).Contents (Elt F) → (⟨S8x20x262144, .f32⟩ : BufTy).Contents (Elt F) → (⟨S8x20x262144, .f32⟩ : BufTy).Contents (Elt F)),
    nullary main_cst_10 (constant S_ .f32 0x00000000#32),
    binary main_v27 main_cst_10 main_v28 ((fun x v => Host.reduceAdd x v reducesTo_S8x20x262144_S8x20_d2 h_S_) : (⟨S8x20x262144, .f32⟩ : BufTy).Contents (Elt F) → (⟨S_, .f32⟩ : BufTy).Contents (Elt F) → (⟨S8x20, .f32⟩ : BufTy).Contents (Elt F)),
    unary main_v28 main_v29 (Host.negf : (⟨S8x20, .f32⟩ : BufTy).Contents (Elt F) → (⟨S8x20, .f32⟩ : BufTy).Contents (Elt F)),
    nullary main_cst_11 (constant S_ .f32 0x3F317218#32),
    unary main_cst_11 main_v30 (broadcastInDim S8x20 ![] bcast_S_S8x20 : (⟨S_, .f32⟩ : BufTy).Contents (Elt F) → (⟨S8x20, .f32⟩ : BufTy).Contents (Elt F)),
    binary main_v29 main_v30 main_v31 (Host.divf : (⟨S8x20, .f32⟩ : BufTy).Contents (Elt F) → (⟨S8x20, .f32⟩ : BufTy).Contents (Elt F) → (⟨S8x20, .f32⟩ : BufTy).Contents (Elt F)),
    unary main_v2 main_v32 ((extui 32 · natLt_1_32) : (⟨S8x20x262144, .i1⟩ : BufTy).Contents (Elt F) → (⟨S8x20x262144, .i32⟩ : BufTy).Contents (Elt F)),
    nullary main_c (constantI S_ 32 0#32),
    binary main_v32 main_c main_v33 ((fun x v => Host.reduce IntOp.addi x v reducesTo_S8x20x262144_S8_d1_2 h_S_) : (⟨S8x20x262144, .i32⟩ : BufTy).Contents (Elt F) → (⟨S_, .i32⟩ : BufTy).Contents (Elt F) → (⟨S8, .i32⟩ : BufTy).Contents (Elt F)),
    unary main_v33 main_v34 (sitofp .f32 : (⟨S8, .i32⟩ : BufTy).Contents (Elt F) → (⟨S8, .f32⟩ : BufTy).Contents (Elt F)),
    nullary main_cst_12 (constant S_ .f32 0x00000000#32),
    binary main_v31 main_cst_12 main_v35 ((fun x v => Host.reduceAdd x v reducesTo_S8x20_S8_d1 h_S_) : (⟨S8x20, .f32⟩ : BufTy).Contents (Elt F) → (⟨S_, .f32⟩ : BufTy).Contents (Elt F) → (⟨S8, .f32⟩ : BufTy).Contents (Elt F)),
    binary main_v35 main_v34 main_v36 (Host.divf : (⟨S8, .f32⟩ : BufTy).Contents (Elt F) → (⟨S8, .f32⟩ : BufTy).Contents (Elt F) → (⟨S8, .f32⟩ : BufTy).Contents (Elt F)) ]

set_option maxRecDepth 16384 in
set_option maxHeartbeats 4000000 in
/-- An operation through typed references at literal buffers is the plain operation: the contents move along an
    equation of a type with itself. -/
theorem ops_eq : (ops : List (HloOp τ sig (Elt F))) = ops' := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., ternary_bufs_sub .., nullary_bufs_sub .., binary_bufs_sub .., unary_bufs_sub .., nullary_bufs_sub .., nullary_bufs_sub .., binary_bufs_sub .., unary_bufs_sub .., binary_bufs_sub .., nullary_bufs_sub .., unary_bufs_sub .., unary_bufs_sub .., ternary_bufs_sub .., unary_bufs_sub .., binary_bufs_sub .., unary_bufs_sub .., nullary_bufs_sub .., unary_bufs_sub .., unary_bufs_sub .., ternary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., unary_bufs_sub .., nullary_bufs_sub .., binary_bufs_sub .., unary_bufs_sub .., nullary_bufs_sub .., binary_bufs_sub .., binary_bufs_sub ..⟩

set_option maxRecDepth 8192 in
/-- `main_v36`'s composed term of the arguments (named: it is long). -/
def res_main_v36 (m : (ℓ : Loc nD τ sig) → Buf (Elt F) ℓ) (c : Dev nD) : Buf (Elt F) ((c.tc : Thread nD τ).loc main_v36) :=
  Host.divf (Host.reduceAdd (Host.divf (Host.negf (Host.reduceAdd (select (cmpf .ogt (shapeCast _ (m ((c.tc : Thread nD τ).loc main_arg0)) shapeCasts_S8x20x512x512_S8x20x262144) (broadcastInDim S8x20x262144 ![] bcast_S_S8x20x262144 (constant S_ .f32 0x00000000#32))) (mulf (Host.divf (select (cmpf .ogt (shapeCast _ (m ((c.tc : Thread nD τ).loc main_arg0)) shapeCasts_S8x20x512x512_S8x20x262144) (broadcastInDim S8x20x262144 ![] bcast_S_S8x20x262144 (constant S_ .f32 0x00000000#32))) (Host.exp (subf (shapeCast _ (m ((c.tc : Thread nD τ).loc main_arg0)) shapeCasts_S8x20x512x512_S8x20x262144) (broadcastInDim S8x20x262144 ![0, 1, 2] bcast_S8x20x1_S8x20x262144_0_1_2 (select (cmpf .ole (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)) (broadcastInDim S8x20x1 ![] bcast_S_S8x20x1 (mulf (constant S_ .f32 0xF149F2CA#32) (constant S_ .f32 0x3F000000#32)))) (broadcastInDim S8x20x1 ![] bcast_S_S8x20x1 (id (constant S_ .f32 0x00000000#32))) (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)))))) (broadcastInDim S8x20x262144 ![] bcast_S_S8x20x262144 (id (constant S_ .f32 0x00000000#32)))) (broadcastInDim S8x20x262144 ![0, 1, 2] bcast_S8x20x1_S8x20x262144_0_1_2 (select (cmpf .ogt (broadcastInDim S8x20x1 ![0, 1] bcast_S8x20_S8x20x1_0_1 (Host.reduceAdd (select (cmpf .ogt (shapeCast _ (m ((c.tc : Thread nD τ).loc main_arg0)) shapeCasts_S8x20x512x512_S8x20x262144) (broadcastInDim S8x20x262144 ![] bcast_S_S8x20x262144 (constant S_ .f32 0x00000000#32))) (Host.exp (subf (shapeCast _ (m ((c.tc : Thread nD τ).loc main_arg0)) shapeCasts_S8x20x512x512_S8x20x262144) (broadcastInDim S8x20x262144 ![0, 1, 2] bcast_S8x20x1_S8x20x262144_0_1_2 (select (cmpf .ole (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)) (broadcastInDim S8x20x1 ![] bcast_S_S8x20x1 (mulf (constant S_ .f32 0xF149F2CA#32) (constant S_ .f32 0x3F000000#32)))) (broadcastInDim S8x20x1 ![] bcast_S_S8x20x1 (id (constant S_ .f32 0x00000000#32))) (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)))))) (broadcastInDim S8x20x262144 ![] bcast_S_S8x20x262144 (id (constant S_ .f32 0x00000000#32)))) (constant S_ .f32 0x00000000#32) reducesTo_S8x20x262144_S8x20_d2 h_S_)) (broadcastInDim S8x20x1 ![] bcast_S_S8x20x1 (constant S_ .f32 0x00000000#32))) (broadcastInDim S8x20x1 ![0, 1] bcast_S8x20_S8x20x1_0_1 (Host.reduceAdd (select (cmpf .ogt (shapeCast _ (m ((c.tc : Thread nD τ).loc main_arg0)) shapeCasts_S8x20x512x512_S8x20x262144) (broadcastInDim S8x20x262144 ![] bcast_S_S8x20x262144 (constant S_ .f32 0x00000000#32))) (Host.exp (subf (shapeCast _ (m ((c.tc : Thread nD τ).loc main_arg0)) shapeCasts_S8x20x512x512_S8x20x262144) (broadcastInDim S8x20x262144 ![0, 1, 2] bcast_S8x20x1_S8x20x262144_0_1_2 (select (cmpf .ole (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)) (broadcastInDim S8x20x1 ![] bcast_S_S8x20x1 (mulf (constant S_ .f32 0xF149F2CA#32) (constant S_ .f32 0x3F000000#32)))) (broadcastInDim S8x20x1 ![] bcast_S_S8x20x1 (id (constant S_ .f32 0x00000000#32))) (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)))))) (broadcastInDim S8x20x262144 ![] bcast_S_S8x20x262144 (id (constant S_ .f32 0x00000000#32)))) (constant S_ .f32 0x00000000#32) reducesTo_S8x20x262144_S8x20_d2 h_S_)) (broadcastInDim S8x20x1 ![] bcast_S_S8x20x1 (id (constant S_ .f32 0x3F800000#32)))))) (subf (subf (shapeCast _ (m ((c.tc : Thread nD τ).loc main_arg0)) shapeCasts_S8x20x512x512_S8x20x262144) (broadcastInDim S8x20x262144 ![0, 1, 2] bcast_S8x20x1_S8x20x262144_0_1_2 (select (cmpf .ole (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)) (broadcastInDim S8x20x1 ![] bcast_S_S8x20x1 (mulf (constant S_ .f32 0xF149F2CA#32) (constant S_ .f32 0x3F000000#32)))) (broadcastInDim S8x20x1 ![] bcast_S_S8x20x1 (id (constant S_ .f32 0x00000000#32))) (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_))))) (broadcastInDim S8x20x262144 ![0, 1, 2] bcast_S8x20x1_S8x20x262144_0_1_2 (Host.log (select (cmpf .ogt (broadcastInDim S8x20x1 ![0, 1] bcast_S8x20_S8x20x1_0_1 (Host.reduceAdd (select (cmpf .ogt (shapeCast _ (m ((c.tc : Thread nD τ).loc main_arg0)) shapeCasts_S8x20x512x512_S8x20x262144) (broadcastInDim S8x20x262144 ![] bcast_S_S8x20x262144 (constant S_ .f32 0x00000000#32))) (Host.exp (subf (shapeCast _ (m ((c.tc : Thread nD τ).loc main_arg0)) shapeCasts_S8x20x512x512_S8x20x262144) (broadcastInDim S8x20x262144 ![0, 1, 2] bcast_S8x20x1_S8x20x262144_0_1_2 (select (cmpf .ole (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)) (broadcastInDim S8x20x1 ![] bcast_S_S8x20x1 (mulf (constant S_ .f32 0xF149F2CA#32) (constant S_ .f32 0x3F000000#32)))) (broadcastInDim S8x20x1 ![] bcast_S_S8x20x1 (id (constant S_ .f32 0x00000000#32))) (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)))))) (broadcastInDim S8x20x262144 ![] bcast_S_S8x20x262144 (id (constant S_ .f32 0x00000000#32)))) (constant S_ .f32 0x00000000#32) reducesTo_S8x20x262144_S8x20_d2 h_S_)) (broadcastInDim S8x20x1 ![] bcast_S_S8x20x1 (constant S_ .f32 0x00000000#32))) (broadcastInDim S8x20x1 ![0, 1] bcast_S8x20_S8x20x1_0_1 (Host.reduceAdd (select (cmpf .ogt (shapeCast _ (m ((c.tc : Thread nD τ).loc main_arg0)) shapeCasts_S8x20x512x512_S8x20x262144) (broadcastInDim S8x20x262144 ![] bcast_S_S8x20x262144 (constant S_ .f32 0x00000000#32))) (Host.exp (subf (shapeCast _ (m ((c.tc : Thread nD τ).loc main_arg0)) shapeCasts_S8x20x512x512_S8x20x262144) (broadcastInDim S8x20x262144 ![0, 1, 2] bcast_S8x20x1_S8x20x262144_0_1_2 (select (cmpf .ole (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)) (broadcastInDim S8x20x1 ![] bcast_S_S8x20x1 (mulf (constant S_ .f32 0xF149F2CA#32) (constant S_ .f32 0x3F000000#32)))) (broadcastInDim S8x20x1 ![] bcast_S_S8x20x1 (id (constant S_ .f32 0x00000000#32))) (broadcastInDim S8x20x1 ![0, 1] bcast_S8x20_S8x20x1_0_1 (Host.reduce FloatOps.maximumf (select (cmpf .ogt (shapeCast _ (m ((c.tc : Thread nD τ).loc main_arg0)) shapeCasts_S8x20x512x512_S8x20x262144) (broadcastInDim S8x20x262144 ![] bcast_S_S8x20x262144 (constant S_ .f32 0x00000000#32))) (shapeCast _ (m ((c.tc : Thread nD τ).loc main_arg0)) shapeCasts_S8x20x512x512_S8x20x262144) (broadcastInDim S8x20x262144 ![] bcast_S_S8x20x262144 (constant S_ .f32 0xF149F2CA#32))) (constant S_ .f32 0xFF800000#32) reducesTo_S8x20x262144_S8x20_d2 h_S_)))))) (broadcastInDim S8x20x262144 ![] bcast_S_S8x20x262144 (id (constant S_ .f32 0x00000000#32)))) (constant S_ .f32 0x00000000#32) reducesTo_S8x20x262144_S8x20_d2 h_S_)) (broadcastInDim S8x20x1 ![] bcast_S_S8x20x1 (id (constant S_ .f32 0x3F800000#32)))))))) (broadcastInDim S8x20x262144 ![] bcast_S_S8x20x262144 (id (constant S_ .f32 0x00000000#32)))) (constant S_ .f32 0x00000000#32) reducesTo_S8x20x262144_S8x20_d2 h_S_)) (broadcastInDim S8x20 ![] bcast_S_S8x20 (constant S_ .f32 0x3F317218#32))) (constant S_ .f32 0x00000000#32) reducesTo_S8x20_S8_d1 h_S_) (sitofp .f32 (Host.reduce IntOp.addi (extui 32 (cmpf .ogt (shapeCast _ (m ((c.tc : Thread nD τ).loc main_arg0)) shapeCasts_S8x20x512x512_S8x20x262144) (broadcastInDim S8x20x262144 ![] bcast_S_S8x20x262144 (constant S_ .f32 0x00000000#32))) natLt_1_32) (constantI S_ 32 0#32) reducesTo_S8x20x262144_S8_d1_2 h_S_))

/-- `res_main_v36` by its position among the values @main returns, 0 counting from 0: the name for hand proofs to cite, since
    a re-print renumbers `main_v36`. An abbreviation: it unfolds to the `res_main_v36` that `run` states. -/
abbrev res_out0 (m : (ℓ : Loc nD τ sig) → Buf (Elt F) ℓ) (c : Dev nD) : Buf (Elt F) ((c.tc : Thread nD τ).loc main_v36) := res_main_v36 m c

set_option maxRecDepth 16384 in
set_option maxHeartbeats 8000000 in
/-- The result buffer after the sixty-one operations is the composed term. -/
theorem after_ops_v36 (m : (ℓ : Loc nD τ sig) → Buf (Elt F) ℓ) (c : Dev nD) :
    after (ops (F := F)) (launchContents m c) (Proc.tc.devRef main_v36) = res_main_v36 m c := by
  rw [ops_eq]
  after_results_simp <;> rfl <;> (unfold res_main_v36; rfl)

set_option maxRecDepth 16384 in
set_option maxHeartbeats 8000000 in
/-- The argument buffer is written by no operation. -/
theorem after_ops_arg0 (m : (ℓ : Loc nD τ sig) → Buf (Elt F) ℓ) (c : Dev nD) :
    after (ops (F := F)) (launchContents m c) (Proc.tc.devRef main_arg0) = m ((c.tc : Thread nD τ).loc main_arg0) := by
  after_results_simp <;> rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = res_main_v36 m c
      ∧ r.2.mem ((c.tc : Thread nD τ).loc main_arg0) = m ((c.tc : Thread nD τ).loc main_arg0) :=
  (θ_run defs _ _).mono (fun _ h c => ⟨(h c main_v36).trans (after_ops_v36 m c), (h c main_arg0).trans (after_ops_arg0 m c)⟩)
    (run_seq scopedRefs_eq scopedSems_eq defs main (fun _ => ops) main_eq (fun _ => ops_sub) m ρ)

end Cert.ReferenceIdeal.Value

end
-- ==== Proof.RefEntropy.lean ====
/-
  The reference program's per-channel entropy, read at one batch entry n and one channel c as the masked row
  formula of the specification.

  The reference flattens channel c of batch entry n into one row X of 262144 entries and then works on the row:
    * the mask: entry j counts when 0 < X j;
    * the masked row: X j where the mask holds, the large negative sentinel elsewhere;
    * the masked maximum: the maximum of the masked row (a fold of max from −∞ over the row's columns), and its
      guard: when that maximum is at most half the sentinel (no entry counted) it is replaced by 0 — this is rMax X;
    * the exponentials exp (X j − rMax X) at the counted entries, 0 elsewhere — rExp X j;
    * their sum from 0 — rSum X — and the safe sum, the sum when it is positive and 1 otherwise — rSafe X;
    * the terms (rExp X j / rSafe X) · ((X j − rMax X) − log (rSafe X)) at the counted entries, 0 elsewhere —
      rTerm X j, which is p_j · log p_j for the row's probabilities p_j;
    * the entropy in bits: minus the sum of the terms (from 0), over the single-precision ln 2 — rEnt X.
  Each stage below reads one or a few operations of the program at the coordinates (n, c, j), (n, c) or (n, c, 0)
  in terms of the row X; the stages take the row as any function that the flattened input agrees with at (n, c, ·),
  and the last theorem puts the input's own row in.
-/
import proofs.«121076_j35948876267666_2_alg».proof.Proof.RefReadP
import proofs.«121076_j35948876267666_2_alg».proof.Proof.EntropySpec
import proofs.«121076_j35948876267666_2_alg».proof.Proof.Rows
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Entropy

variable [Cert.ReferenceIdeal.Facts]

namespace Ent

/-! ## Words and selects -/

/-- A select on a decided proposition's bit is the if-then-else on the proposition. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The word 0xFF800000 is −∞. -/
theorem ofBits_negInf : Ideal.ofBits .f32 0xFF800000#32 = ⊥ := by simp [Ideal.ofBits, Ideal.ieee]
/-- The word 0x3F800000 is 1. -/
theorem ofBits_one : Ideal.ofBits .f32 0x3F800000#32 = 1 := by
  simp [Ideal.ofBits, Ideal.ieee, -EReal.coe_mul]; norm_num

/-! ## Index equations: the layout operations' source indices at coordinates -/

theorem idx_v0 (n : Fin 8) (c : Fin 20) (j : Fin 262144) :
    idx_main_v0 (ix3 n c j) = ix4 n c (⟨j.val / 512, by omega⟩ : Fin 512) (⟨j.val % 512, by omega⟩ : Fin 512) := by
  have hn := n.isLt; have hc := c.isLt; have hj := j.isLt
  funext a
  match a with
  | ⟨0, _⟩ => exact Fin.ext (by show ((n.val * 20 + c.val) * 262144 + j.val) / 5242880 = n.val; omega)
  | ⟨1, _⟩ => exact Fin.ext (by show ((n.val * 20 + c.val) * 262144 + j.val) / 262144 % 20 = c.val; omega)
  | ⟨2, _⟩ => exact Fin.ext (by show ((n.val * 20 + c.val) * 262144 + j.val) / 512 % 512 = j.val / 512; omega)
  | ⟨3, _⟩ => exact Fin.ext (by show ((n.val * 20 + c.val) * 262144 + j.val) % 512 = j.val % 512; omega)

theorem idx_v5 (n : Fin 8) (c : Fin 20) : idx_main_v5 (ix3 n c (0 : Fin 1)) = ix2 n c := by
  funext a
  match a with
  | ⟨0, _⟩ => rfl
  | ⟨1, _⟩ => rfl

theorem idx_v10 (n : Fin 8) (c : Fin 20) (j : Fin 262144) : idx_main_v10 (ix3 n c j) = ix3 n c (0 : Fin 1) := by
  funext a
  match a with
  | ⟨0, _⟩ => rfl
  | ⟨1, _⟩ => rfl
  | ⟨2, _⟩ => rfl

theorem idx_v14 (n : Fin 8) (c : Fin 20) (k : Fin 262144) : idx_main_v14 (ix2 n c) k = ix3 n c k := by
  funext a
  match a with
  | ⟨0, _⟩ => rfl
  | ⟨1, _⟩ => rfl
  | ⟨2, _⟩ => rfl

/-- Column k put back on the reduced axis of (n, c) is (n, c, k). -/
theorem lift_ix2 (h : S8x20x262144.Reduces [2] S8x20) (n : Fin 8) (c : Fin 20) (k : Fin (S8x20x262144.size 2)) :
    h.lift (ix2 n c) k = ix3 n c (⟨k.val, k.isLt⟩ : Fin 262144) := by
  funext a; apply Fin.ext
  match a with
  | ⟨0, _⟩ => rfl
  | ⟨1, _⟩ => rfl
  | ⟨2, _⟩ => rfl

/-! ## The flattened input at (n, c, j) is entry j of row 20 n + c -/

theorem v0_at (x0 : (⟨S8x20x512x512, .f32⟩ : BufTy).Contents (Elt Ideal)) (n : Fin 8) (c : Fin 20) (j : Fin 262144) :
    val_main_v0 (F := Ideal) x0 (ix3 n c j) = rowsOf x0 (rowOf n c) j := by
  rw [val_main_v0_apply, rowsOf_rowOf, idx_v0]

/-! ## The stages at a row X that the flattened input agrees with at (n, c, ·) -/

section Row

variable (x0 : (⟨S8x20x512x512, .f32⟩ : BufTy).Contents (Elt Ideal)) (n : Fin 8) (c : Fin 20)
  (X : Fin 262144 → EReal) (hX : ∀ j, val_main_v0 (F := Ideal) x0 (ix3 n c j) = X j)

include hX

/-- The mask at column j: whether 0 < X j. -/
theorem mask_at (j : Fin 262144) :
    val_main_v2 (F := Ideal) x0 (ix3 n c j) = BitVec.ofBool (decide (0 < X j)) := by
  rw [val_main_v2_apply, hX, val_main_v1_apply, val_main_cst_apply, Ideal.cmpf_def, Ideal.ofBits_def,
    Ideal.ofBits_zero_f32]
  rfl

/-- The masked row at column j: X j where counted, the sentinel elsewhere. -/
theorem masked_at (j : Fin 262144) :
    val_main_v3 (F := Ideal) x0 (ix3 n c j) = if 0 < X j then X j else negBigE := by
  rw [val_main_v3_apply, mask_at x0 n c X hX, hX, val_main_call0_v0_apply, val_main_cst_0_apply, select_ofBool]
  rfl

/-- The masked maximum: the fold of max from −∞ over the masked row. -/
theorem rowmax_at :
    val_main_v4 (F := Ideal) x0 (ix2 n c)
      = Finset.univ.fold max ⊥ (fun j : Fin 262144 => if 0 < X j then X j else negBigE) := by
  have hy : ∀ j, val_main_v3 (F := Ideal) x0 (ix3 n c j) = if 0 < X j then X j else negBigE :=
    masked_at x0 n c X hX
  have h : S8x20x262144.Reduces [2] S8x20 := by decide
  unfold val_main_v4
  generalize val_main_v3 (F := Ideal) x0 = y at hy ⊢
  refine (Host.reduce_eq_fold_single (s := S8x20x262144) (t := S8x20) (a := 2) (u := S_)
    (FloatOps.maximumf (F := Ideal) (φ := .f32)) y (val_main_cst_1 (F := Ideal))
    reducesTo_S8x20x262144_S8x20_d2 h h_S_ (ix2 n c)).trans ?_
  have hf : (y ∘ h.lift (ix2 n c)) = fun j : Fin 262144 => if 0 < X j then X j else negBigE :=
    funext fun k => (congrArg y (lift_ix2 h n c k)).trans (hy ⟨k.val, k.isLt⟩)
  rw [hf, val_main_cst_1_apply, Ideal.ofBits_def, ofBits_negInf]
  rfl

/-- The guarded maximum at (n, c, 0): 0 when the masked maximum is at most half the sentinel, else the masked maximum. -/
theorem gmax_at : val_main_v9 (F := Ideal) x0 (ix3 n c (0 : Fin 1)) = rMax X := by
  have h5 : val_main_v5 (F := Ideal) x0 (ix3 n c (0 : Fin 1))
      = Finset.univ.fold max ⊥ (fun j : Fin 262144 => if 0 < X j then X j else negBigE) := by
    rw [val_main_v5_apply, idx_v5, rowmax_at x0 n c X hX]
  have h7 : val_main_v7 (F := Ideal) (ix3 n c (0 : Fin 1)) = negBigE * halfE := by
    rw [val_main_v7_apply, val_main_v6_apply, val_main_cst_2_apply, val_main_cst_3_apply]
    rfl
  have h1 : val_main_call1_v1 (F := Ideal) (ix3 n c (0 : Fin 1)) = 0 := by
    rw [val_main_call1_v1_apply, val_main_call1_v0_apply, val_main_cst_4_apply, Ideal.ofBits_def, Ideal.ofBits_zero_f32]
  rw [val_main_v9_apply, val_main_v8_apply, h5, h7, h1, Ideal.cmpf_def]
  unfold rMax
  exact select_ofBool _ _ _

/-- The guarded maximum broadcast along the row. -/
theorem gmax10_at (j : Fin 262144) : val_main_v10 (F := Ideal) x0 (ix3 n c j) = rMax X := by
  rw [val_main_v10_apply, idx_v10, gmax_at x0 n c X hX]

/-- The exponentials at column j. -/
theorem exp_at (j : Fin 262144) : val_main_v13 (F := Ideal) x0 (ix3 n c j) = rExp X j := by
  have h1 : val_main_call2_v1 (F := Ideal) (ix3 n c j) = 0 := by
    rw [val_main_call2_v1_apply, val_main_call2_v0_apply, val_main_cst_5_apply, Ideal.ofBits_def, Ideal.ofBits_zero_f32]
  rw [val_main_v13_apply, mask_at x0 n c X hX, val_main_v12_apply, val_main_v11_apply, hX, gmax10_at x0 n c X hX, h1,
    Ideal.hostUnary_exp_def, Ideal.subf_def, select_ofBool]
  rfl

/-- Their sum from 0. -/
theorem sum_at : val_main_v14 (F := Ideal) x0 (ix2 n c) = rSum X := by
  rw [val_main_v14_apply, val_main_cst_6_apply, Ideal.ofBits_def, Ideal.ofBits_zero_f32]
  unfold rSum
  exact congrArg (0 + ·) (Finset.sum_congr rfl fun k _ => by rw [idx_v14, exp_at x0 n c X hX])

/-- The safe sum at (n, c, 0): the sum when positive, else 1. -/
theorem safe_at : val_main_v18 (F := Ideal) x0 (ix3 n c (0 : Fin 1)) = rSafe X := by
  have h15 : val_main_v15 (F := Ideal) x0 (ix3 n c (0 : Fin 1)) = rSum X := by
    rw [val_main_v15_apply]
    exact (congrArg (val_main_v14 (F := Ideal) x0) (idx_v5 n c)).trans (sum_at x0 n c X hX)
  have h16 : val_main_v16 (F := Ideal) (ix3 n c (0 : Fin 1)) = 0 := by
    rw [val_main_v16_apply, val_main_cst_7_apply, Ideal.ofBits_def, Ideal.ofBits_zero_f32]
  have h1 : val_main_call3_v1 (F := Ideal) (ix3 n c (0 : Fin 1)) = 1 := by
    rw [val_main_call3_v1_apply, val_main_call3_v0_apply, val_main_cst_8_apply, Ideal.ofBits_def, ofBits_one]
  rw [val_main_v18_apply, val_main_v17_apply, h15, h16, h1, Ideal.cmpf_def]
  unfold rSafe
  exact select_ofBool _ _ _

/-- The terms at column j. -/
theorem term_at (j : Fin 262144) : val_main_v27 (F := Ideal) x0 (ix3 n c j) = rTerm X j := by
  have h19 : val_main_v19 (F := Ideal) x0 (ix3 n c j) = rMax X := by
    rw [val_main_v19_apply]
    exact (congrArg (val_main_v9 (F := Ideal) x0) (idx_v10 n c j)).trans (gmax_at x0 n c X hX)
  have h22 : val_main_v22 (F := Ideal) x0 (ix3 n c j) = Ideal.log (rSafe X) := by
    rw [val_main_v22_apply]
    refine (congrArg (val_main_v21 (F := Ideal) x0) (idx_v10 n c j)).trans ?_
    rw [val_main_v21_apply, safe_at x0 n c X hX, Ideal.hostUnary_log_def]
  have h24 : val_main_v24 (F := Ideal) x0 (ix3 n c j) = rSafe X := by
    rw [val_main_v24_apply]
    exact (congrArg (val_main_v18 (F := Ideal) x0) (idx_v10 n c j)).trans (safe_at x0 n c X hX)
  have h1 : val_main_call4_v1 (F := Ideal) (ix3 n c j) = 0 := by
    rw [val_main_call4_v1_apply, val_main_call4_v0_apply, val_main_cst_9_apply, Ideal.ofBits_def, Ideal.ofBits_zero_f32]
  rw [val_main_v27_apply, mask_at x0 n c X hX, val_main_v26_apply, val_main_v25_apply, val_main_v23_apply,
    val_main_v20_apply, hX, h19, h22, h24, exp_at x0 n c X hX, h1, Ideal.hostDivf_def, Ideal.mulf_def, Ideal.subf_def,
    Ideal.subf_def, select_ofBool]
  rfl

/-- The entropy at (n, c). -/
theorem ent_at : val_main_v31 (F := Ideal) x0 (ix2 n c) = rEnt X := by
  have h28 : val_main_v28 (F := Ideal) x0 (ix2 n c) = 0 + ∑ j, rTerm X j := by
    rw [val_main_v28_apply, val_main_cst_10_apply, Ideal.ofBits_def, Ideal.ofBits_zero_f32]
    exact congrArg (0 + ·) (Finset.sum_congr rfl fun k _ =>
      (congrArg (val_main_v27 (F := Ideal) x0) (idx_v14 n c k)).trans (term_at x0 n c X hX k))
  rw [val_main_v31_apply, val_main_v29_apply, h28, val_main_v30_apply, val_main_cst_11_apply, Ideal.hostDivf_def,
    Ideal.hostNegf_def, Ideal.negf_def]
  rfl

end Row

end Ent

/-! ## The result: the reference's entropy at (n, c) is the row formula of the input's row 20 n + c -/

theorem ref_ent (x0 : (⟨S8x20x512x512, .f32⟩ : BufTy).Contents (Elt Ideal)) (n : Fin 8) (c : Fin 20) :
    val_main_v31 (F := Ideal) x0 (ix2 n c) = rEnt (fun j : Fin 262144 => rowsOf x0 (rowOf n c) j) :=
  Ent.ent_at x0 n c (fun j : Fin 262144 => rowsOf x0 (rowOf n c) j) (fun j => Ent.v0_at x0 n c j)

end Cert.ReferenceIdeal.RefValue

end
-- ==== Proof.RefCount.lean ====
/-
  The reference program's count of positive entries and its final quotient, at the exact-real instance.

  For each batch index `n` the program forms, over the 20 channels and the 262144 pixels of a channel, the one-bit
  mask "the entry is greater than zero", widens each bit to a 32-bit word (1 or 0), and adds the words as 32-bit
  integers starting from the zero word. There are 20 · 262144 = 5242880 < 2 ^ 31 summands, each 0 or 1, so no partial
  sum wraps: the final word, read as a signed integer, is the number of ones, i.e. the number of positive entries,
  which is the sum over the channels of the number of positive pixels of that channel. The conversion to a float is
  exact at the exact-real instance. The program's result is the quotient of the sum over the channels of the
  per-channel entropies by this count.
-/
import proofs.«121076_j35948876267666_2_alg».proof.Proof.RefReadP
import proofs.«121076_j35948876267666_2_alg».proof.Proof.EntropySpec
import proofs.«121076_j35948876267666_2_alg».proof.Proof.Rows
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.Entropy

variable [Cert.ReferenceIdeal.Facts]

/-- The zero word of the 32-bit float format is the real number zero. -/
theorem zero_word : Ideal.ofBits .f32 0x00000000#32 = (0 : EReal) := by
  simp [Ideal.ofBits, Ideal.ieee]

/-- The final quotient: the sum over the channels of the per-channel entropies, divided by the count. -/
theorem ref_result (x0 : (⟨S8x20x512x512, .f32⟩ : BufTy).Contents (Elt Ideal)) (n : Fin 8) :
    val_main_v36 (F := Ideal) x0 (ix1 n)
      = Ideal.div (0 + ∑ c : Fin 20, val_main_v31 (F := Ideal) x0 (ix2 n c)) (val_main_v34 (F := Ideal) x0 (ix1 n)) := by
  rewrite [val_main_v36_apply]
  rewrite [val_main_v35_apply]
  rewrite [Ideal.hostDivf_def]
  rewrite [val_main_cst_12_apply]
  rewrite [Ideal.ofBits_def]
  rewrite [zero_word]
  have hidx : ∀ k : Fin 20, idx_main_v35 (ix1 n) k = ix2 n k := by
    intro k
    funext a
    match a with
    | ⟨0, _⟩ => rfl
    | ⟨1, _⟩ => rfl
  simp only [hidx]

/-- A 32-bit sum of fewer than 2 ^ 32 words, each 1 or 0, does not wrap: read unsigned it is the number of ones. -/
theorem toNat_fold_addi_indicator {ι : Type} (s : Finset ι) (p : ι → Prop) [DecidablePred p] (hs : s.card < 2 ^ 32) :
    (s.fold IntOp.addi 0#32 fun i => if p i then 1#32 else 0#32).toNat = (s.filter p).card := by
  induction s using Finset.cons_induction with
  | empty => simp
  | cons a S ha ih =>
    rw [Finset.card_cons] at hs
    have ih' := ih (by omega)
    have hle : (S.filter p).card ≤ S.card := Finset.card_filter_le _ _
    rw [Finset.fold_cons, Finset.filter_cons]
    show ((if p a then 1#32 else 0#32) + _).toNat = _
    rw [BitVec.toNat_add, ih']
    by_cases hp : p a
    · simp only [hp, if_true, Finset.card_cons]
      simp only [BitVec.toNat_ofNat]
      omega
    · simp only [hp, if_false]
      simp only [BitVec.toNat_ofNat]
      omega

/-- With fewer than 2 ^ 31 summands the signed reading is the number of ones too. -/
theorem toInt_fold_addi_indicator {ι : Type} (s : Finset ι) (p : ι → Prop) [DecidablePred p] (hs : s.card < 2 ^ 31) :
    (s.fold IntOp.addi 0#32 fun i => if p i then 1#32 else 0#32).toInt = ((s.filter p).card : ℤ) := by
  have h := toNat_fold_addi_indicator s p (by omega)
  have hle : (s.filter p).card ≤ s.card := Finset.card_filter_le _ _
  rw [BitVec.toInt_eq_toNat_cond, h]
  split
  · rfl
  · omega

/-- The flattened pixel `j = 512 h + w` of channel `c` of batch entry `n` is the entry `(n, c, h, w)`. -/
theorem idx_v0_ix3 (n : Fin 8) (c : Fin 20) (j : Fin 262144) :
    idx_main_v0 (ix3 n c j) = ix4 n c (⟨j.val / 512, by omega⟩ : Fin 512) (⟨j.val % 512, by omega⟩ : Fin 512) := by
  have hn := n.isLt
  have hc := c.isLt
  have hj := j.isLt
  funext a
  match a with
  | ⟨0, _⟩ => exact Fin.ext (by show ((n.val * 20 + c.val) * 262144 + j.val) / 5242880 = n.val; omega)
  | ⟨1, _⟩ => exact Fin.ext (by show ((n.val * 20 + c.val) * 262144 + j.val) / 262144 % 20 = c.val; omega)
  | ⟨2, _⟩ => exact Fin.ext (by show ((n.val * 20 + c.val) * 262144 + j.val) / 512 % 512 = j.val / 512; omega)
  | ⟨3, _⟩ => exact Fin.ext (by show ((n.val * 20 + c.val) * 262144 + j.val) % 512 = j.val % 512; omega)

/-- The mask bit at `(n, c, j)` says whether that entry of the row is positive. -/
theorem v2_read (x0 : (⟨S8x20x512x512, .f32⟩ : BufTy).Contents (Elt Ideal)) (n : Fin 8) (c : Fin 20) (j : Fin 262144) :
    val_main_v2 (F := Ideal) x0 (ix3 n c j) = BitVec.ofBool (decide ((0 : EReal) < rowsOf x0 (rowOf n c) j)) := by
  rewrite [val_main_v2_apply, val_main_v0_apply, val_main_v1_apply, val_main_cst_apply, Ideal.cmpf_def,
    Ideal.ofBits_def, zero_word, rowsOf_rowOf, idx_v0_ix3]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The whole array has 8 · 20 · 262144 entries, fewer than 2 ^ 31. -/
theorem card_idx_lt : Fintype.card S8x20x262144.Idx < 2 ^ 31 := by
  rw [Fintype.card_congr (idxEquiv3 (n0 := 8) (n1 := 20) (n2 := 262144)), Fintype.card_prod, Fintype.card_prod,
    Fintype.card_fin, Fintype.card_fin, Fintype.card_fin]
  norm_num

/-- An entry of the array is summed into the count of batch entry `n` exactly when its first coordinate is `n`. -/
theorem drop_ix3_iff (n a : Fin 8) (b : Fin 20) (c : Fin 262144) :
    (Facts₀.reducesTo_S8x20x262144_S8_d1_2).drop (ix3 a b c) = ix1 n ↔ a = n := by
  simp [funext_iff, Fin.ext_iff, Fin.forall_fin_one, (Facts₀.reducesTo_S8x20x262144_S8_d1_2).drop_apply_val_of_eq (ix3 a b c) 0 0]

/-- The count: the number of positive entries of batch entry `n`, channel by channel. -/
theorem ref_cnt (x0 : (⟨S8x20x512x512, .f32⟩ : BufTy).Contents (Elt Ideal)) (n : Fin 8) :
    val_main_v34 (F := Ideal) x0 (ix1 n)
      = (((∑ c : Fin 20, (Finset.univ.filter fun j : Fin 262144 => (0 : EReal) < rowsOf x0 (rowOf n c) j).card : ℕ) : ℝ) : EReal) := by
  rewrite [val_main_v34_apply]
  unfold val_main_v33
  rewrite [Host.reduce_eq_fold]
  have hf : val_main_v32 (F := Ideal) x0
      = fun i => if (0 : EReal) < rowsOf x0 (rowOf (i 0) (i 1)) (i 2) then 1#32 else 0#32 := by
    funext i
    obtain ⟨a, b, c, rfl⟩ : ∃ a b c, i = ix3 a b c := ⟨_, _, _, eq_ix3 i⟩
    show val_main_v32 (F := Ideal) x0 (ix3 a b c) = if (0 : EReal) < rowsOf x0 (rowOf a b) c then 1#32 else 0#32
    rewrite [val_main_v32_apply, v2_read]
    by_cases h : (0 : EReal) < rowsOf x0 (rowOf a b) c <;> simp [h]
  rewrite [hf, val_main_c_apply]
  show ((((Finset.fold IntOp.addi 0#32 _ _).toInt : ℤ) : ℝ) : EReal) = _
  rewrite [toInt_fold_addi_indicator _ _ (lt_of_le_of_lt (Finset.card_le_univ _) card_idx_lt)]
  rewrite [Int.cast_natCast]
  refine congrArg (fun k : ℕ => ((k : ℝ) : EReal)) ?_
  rewrite [Finset.filter_filter, Finset.card_filter, sum_idx3]
  simp only [drop_ix3_iff, Finset.card_filter]
  rewrite [Finset.sum_eq_single n]
  · refine Finset.sum_congr rfl fun b _ => Finset.sum_congr rfl fun c _ => ?_
    show (if n = n ∧ (0 : EReal) < rowsOf x0 (rowOf n b) c then 1 else 0)
      = if (0 : EReal) < rowsOf x0 (rowOf n b) c then 1 else 0
    simp only [true_and]
  · intro a _ hne
    refine Finset.sum_eq_zero fun b _ => Finset.sum_eq_zero fun c _ => ?_
    exact if_neg fun h => hne h.1
  · intro h
    exact absurd (Finset.mem_univ n) h

end Cert.ReferenceIdeal.RefValue

end
-- ==== Proof.MaskedRow.lean ====
/-
  The masked row formula, at a row of finite real numbers, is the row's entropy.

  Let x be a row of real numbers over a nonempty finite index type, P the set of its positive entries,
  M the running maximum over the whole row (the sentinel against every entry), and
    s = ∑_{j ∈ P} exp (x j − M),   A = ∑_{j ∈ P} exp (x j − M) · (x j − M),   s' = s if 0 < s, else 1.

  The masked row replaces every non-positive entry by the sentinel, which is negative, and takes the maximum.
  * If P is nonempty, a positive entry dominates the sentinel and every non-positive entry, so the masked
    maximum and M are the same number: the largest positive entry. It is positive, hence above half the
    sentinel, and the masked formula keeps it.
  * If P is empty, the masked maximum is the sentinel itself, which is at most half the sentinel (the sentinel
    is negative), and the masked formula uses 0 instead. No entry is positive, so that value is never used.
  Either way, at every positive entry the masked formula subtracts M. Hence its exponentials are exp (x j − M)
  on P and 0 off P, their sum is s, the guarded sum is s' > 0, and its terms are
    (exp (x j − M) / s') · ((x j − M) − log s')   on P,   0 off P,
  which add up to (A − s · log s') / s'. Negated and divided by ln 2 this is (log s' · s − A) / (s' · ln 2),
  the row's entropy. Every quantity on the way is a finite real, so the extended-real operations are the
  real ones: the logarithm is taken of s' > 0 and both divisions are by nonzero reals.

  The count of positive entries is the same number on both sides because an extended real that is a real
  is positive exactly when that real is.

  The facts about the float literals that are used: the sentinel is a negative real, ln 2 is a positive real,
  and the half is 1/2.
-/
import proofs.«121076_j35948876267666_2_alg».proof.Proof.EntropySpec
import proofs.«121076_j35948876267666_2_alg».proof.Proof.Literals

noncomputable section

namespace Cert.Entropy

open Idealize.ShloMosaic

/-- The inclusion of the reals in the extended reals commutes with finite sums. -/
private theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The real identity behind the entropy: with T = (A − s L) / s', −T · (1 / c) = (L s − A) / (s' c). -/
private theorem ent_alg (s A L s' c : ℝ) (hs : s' ≠ 0) (hc : c ≠ 0) :
    -((A - s * L) / s') * (1 / c) = (L * s - A) / (s' * c) := by
  field_simp
  ring

section Row

variable {ι : Type*} [DecidableEq ι] [Fintype ι] (x : ι → ℝ)

/-- Every entry is at most the running maximum over the whole row. -/
private theorem le_runMax (j : ι) : x j ≤ runMax x Finset.univ :=
  (Finset.le_fold_max _).2 (Or.inr ⟨j, Finset.mem_univ j, le_rfl⟩)

/-- The sentinel is at most the running maximum. -/
private theorem negBig_le_runMax : negBig ≤ runMax x Finset.univ :=
  (Finset.le_fold_max _).2 (Or.inl le_rfl)

/-- With a positive entry in the row, the masked maximum is the running maximum. -/
private theorem maskedFold_of_pos {j0 : ι} (h0 : 0 < x j0) :
    (Finset.univ.fold max ⊥ fun j => if 0 < ((x j : ℝ) : EReal) then ((x j : ℝ) : EReal) else negBigE)
      = ((runMax x Finset.univ : ℝ) : EReal) := by
  apply le_antisymm
  · rw [Finset.fold_max_le]
    refine ⟨bot_le, fun j _ => ?_⟩
    split_ifs with h
    · exact EReal.coe_le_coe_iff.2 (le_runMax x j)
    · rw [← coe_negBig]; exact EReal.coe_le_coe_iff.2 (negBig_le_runMax x)
  · rw [Finset.le_fold_max]
    right
    have hM : x j0 ≤ runMax x Finset.univ := le_runMax x j0
    have hN : negBig < 0 := negBig_neg
    have hfold : runMax x Finset.univ ≤ Finset.univ.fold max negBig x := le_rfl
    rcases (Finset.le_fold_max _).1 hfold with h | ⟨j, _, hj⟩
    · exfalso; linarith
    · refine ⟨j, Finset.mem_univ j, ?_⟩
      have hj0 : 0 < x j := by linarith
      rw [if_pos (EReal.coe_pos.2 hj0)]
      exact EReal.coe_le_coe_iff.2 hj

/-- With no positive entry in a nonempty row, the masked maximum is the sentinel. -/
private theorem maskedFold_of_none [Nonempty ι] (h0 : ∀ j, ¬ 0 < x j) :
    (Finset.univ.fold max ⊥ fun j => if 0 < ((x j : ℝ) : EReal) then ((x j : ℝ) : EReal) else negBigE)
      = negBigE := by
  have hneg : ∀ j, ¬ (0 : EReal) < ((x j : ℝ) : EReal) := fun j h => h0 j (EReal.coe_pos.1 h)
  apply le_antisymm
  · rw [Finset.fold_max_le]
    refine ⟨bot_le, fun j _ => ?_⟩
    rw [if_neg (hneg j)]
  · rw [Finset.le_fold_max]
    right
    obtain ⟨j⟩ := ‹Nonempty ι›
    exact ⟨j, Finset.mem_univ j, by rw [if_neg (hneg j)]⟩

/-- The masked formula's maximum is a real number, and it is the running maximum whenever some entry is
    positive. -/
private theorem rMax_coe [Nonempty ι] :
    ∃ r : ℝ, rMax (fun j => ((x j : ℝ) : EReal)) = (r : EReal) ∧ ∀ j, 0 < x j → r = runMax x Finset.univ := by
  have hN : negBig < 0 := negBig_neg
  by_cases hP : ∃ j, 0 < x j
  · obtain ⟨j0, h0⟩ := hP
    refine ⟨runMax x Finset.univ, ?_, fun _ _ => rfl⟩
    unfold rMax
    rw [maskedFold_of_pos x h0, if_neg]
    rw [← coe_negBig, halfE_eq, ← EReal.coe_mul, EReal.coe_le_coe_iff]
    have := le_runMax x j0
    intro hle
    linarith
  · have hP' : ∀ j, ¬ 0 < x j := fun j hj => hP ⟨j, hj⟩
    refine ⟨0, ?_, fun j hj => absurd hj (hP' j)⟩
    unfold rMax
    rw [maskedFold_of_none x hP', if_pos, EReal.coe_zero]
    rw [← coe_negBig, halfE_eq, ← EReal.coe_mul, EReal.coe_le_coe_iff]
    linarith

end Row

section Push

variable {ι : Type*} [DecidableEq ι] [Fintype ι] (x : ι → ℝ)

/-- The masked formula's exponentials: exp (x j − M) at the positive entries, 0 elsewhere. -/
private theorem rExp_coe {r : ℝ} (hr : rMax (fun j => ((x j : ℝ) : EReal)) = (r : EReal))
    (hrM : ∀ j, 0 < x j → r = runMax x Finset.univ) (j : ι) :
    rExp (fun j => ((x j : ℝ) : EReal)) j
      = ((if 0 < x j then Real.exp (x j - runMax x Finset.univ) else 0 : ℝ) : EReal) := by
  unfold rExp
  by_cases h : 0 < x j
  · rw [if_pos (EReal.coe_pos.2 h), if_pos h, hr, hrM j h, ← EReal.coe_sub, Ideal.exp_coe]
  · rw [if_neg (fun h' => h (EReal.coe_pos.1 h')), if_neg h, EReal.coe_zero]

/-- Their sum is the sum of exp (x j − M) over the positive entries. -/
private theorem rSum_coe {r : ℝ} (hr : rMax (fun j => ((x j : ℝ) : EReal)) = (r : EReal))
    (hrM : ∀ j, 0 < x j → r = runMax x Finset.univ) :
    rSum (fun j => ((x j : ℝ) : EReal)) = ((sumExp x Finset.univ : ℝ) : EReal) := by
  unfold rSum
  rw [zero_add, Finset.sum_congr rfl (fun j _ => rExp_coe x hr hrM j), ← coe_sum, ← Finset.sum_filter]
  rfl

/-- The guarded sum is the real guarded sum. -/
private theorem rSafe_coe {r : ℝ} (hr : rMax (fun j => ((x j : ℝ) : EReal)) = (r : EReal))
    (hrM : ∀ j, 0 < x j → r = runMax x Finset.univ) :
    rSafe (fun j => ((x j : ℝ) : EReal))
      = ((if 0 < sumExp x Finset.univ then sumExp x Finset.univ else 1 : ℝ) : EReal) := by
  unfold rSafe
  rw [rSum_coe x hr hrM]
  by_cases h : 0 < sumExp x Finset.univ
  · rw [if_pos (EReal.coe_pos.2 h), if_pos h]
  · rw [if_neg (fun h' => h (EReal.coe_pos.1 h')), if_neg h, EReal.coe_one]

/-- The guarded sum is positive. -/
private theorem safe_pos :
    0 < (if 0 < sumExp x Finset.univ then sumExp x Finset.univ else 1 : ℝ) := by
  split_ifs with h
  · exact h
  · exact one_pos

/-- The masked formula's terms: (exp (x j − M) / s') · ((x j − M) − log s') at the positive entries,
    0 elsewhere. -/
private theorem rTerm_coe {r : ℝ} (hr : rMax (fun j => ((x j : ℝ) : EReal)) = (r : EReal))
    (hrM : ∀ j, 0 < x j → r = runMax x Finset.univ) (j : ι) :
    rTerm (fun j => ((x j : ℝ) : EReal)) j
      = ((if 0 < x j then
            Real.exp (x j - runMax x Finset.univ)
                / (if 0 < sumExp x Finset.univ then sumExp x Finset.univ else 1)
              * ((x j - runMax x Finset.univ)
                - Real.log (if 0 < sumExp x Finset.univ then sumExp x Finset.univ else 1))
          else 0 : ℝ) : EReal) := by
  unfold rTerm
  by_cases h : 0 < x j
  · have hs := safe_pos x
    rw [if_pos (EReal.coe_pos.2 h), rExp_coe x hr hrM j, rSafe_coe x hr hrM, hr, hrM j h]
    simp only [if_pos h]
    rw [Ideal.div_coe hs.ne', Ideal.log_coe, if_neg (not_le.2 hs), ← EReal.coe_sub, ← EReal.coe_sub,
      ← EReal.coe_mul, ← EReal.coe_mul]
    congr 1
    ring
  · rw [if_neg (fun h' => h (EReal.coe_pos.1 h')), if_neg h, EReal.coe_zero]

/-- The real terms add up to (A − s · log s') / s'. -/
private theorem sum_terms :
    (∑ j, (if 0 < x j then
            Real.exp (x j - runMax x Finset.univ)
                / (if 0 < sumExp x Finset.univ then sumExp x Finset.univ else 1)
              * ((x j - runMax x Finset.univ)
                - Real.log (if 0 < sumExp x Finset.univ then sumExp x Finset.univ else 1))
          else 0 : ℝ))
      = (sumExpT x Finset.univ
          - sumExp x Finset.univ * Real.log (if 0 < sumExp x Finset.univ then sumExp x Finset.univ else 1))
        / (if 0 < sumExp x Finset.univ then sumExp x Finset.univ else 1) := by
  rw [← Finset.sum_filter]
  unfold sumExpT sumExp
  rw [Finset.sum_mul, ← Finset.sum_sub_distrib, Finset.sum_div]
  refine Finset.sum_congr rfl fun j _ => ?_
  ring

end Push

/-- The masked row formula at a row of real numbers is the row's entropy. -/
theorem rEnt_coe {ι : Type*} [DecidableEq ι] [Fintype ι] [Nonempty ι] (x : ι → ℝ) :
    rEnt (fun j => ((x j : ℝ) : EReal)) = ((entRow x : ℝ) : EReal) := by
  obtain ⟨r, hr, hrM⟩ := rMax_coe x
  unfold rEnt
  rw [zero_add, Finset.sum_congr rfl (fun j _ => rTerm_coe x hr hrM j), ← coe_sum, sum_terms x,
    ← EReal.coe_neg, ← coe_ln2, Ideal.div_coe ln2_pos.ne', ← EReal.coe_mul,
    ent_alg _ _ _ _ _ (safe_pos x).ne' ln2_pos.ne']
  rfl

/-- The number of positive entries is the same on both sides. -/
theorem rCnt_coe {ι : Type*} [DecidableEq ι] [Fintype ι] (x : ι → ℝ) :
    rCnt (fun j => ((x j : ℝ) : EReal)) = ((cntPos x Finset.univ : ℝ) : EReal) := by
  simp only [rCnt, cntPos, pos, EReal.coe_pos]

end Cert.Entropy

end
-- ==== Proof.RefResult.lean ====
/-
  The reference's result, for a finite input.

  Let the input's rows be finite: entry `(r, j)` is a real number `xr r j`. Then per batch entry and channel the
  reference's masked row formula is the row's entropy (the masked-row law), the reference's integer count of positive
  entries is the sum over the channels of the rows' counts (a finite sum of natural numbers read as reals), and the
  reference's last operation divides the channels' entropies summed by that count: the stated `result`.
-/
import proofs.«121076_j35948876267666_2_alg».proof.Proof.RefEntropy
import proofs.«121076_j35948876267666_2_alg».proof.Proof.RefCount
import proofs.«121076_j35948876267666_2_alg».proof.Proof.MaskedRow

noncomputable section

namespace Cert.ReferenceIdeal.RefValue

open Idealize.ShloMosaic Idealize.ShloMosaic.ValueIdx Cert.ReferenceIdeal Cert.ReferenceIdeal.Read Cert.Entropy

variable [Cert.ReferenceIdeal.Facts]

/-- A finite sum of natural numbers, read as extended reals term by term. -/
theorem coe_nat_sum {ι : Type*} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih =>
    rw [Finset.sum_insert ha, Finset.sum_insert ha, Nat.cast_add, EReal.coe_add, ih]

/-- A finite row's positive entries, counted among extended reals or among reals. -/
theorem card_pos_coe (x : Fin 262144 → ℝ) :
    (Finset.univ.filter fun j : Fin 262144 => (0 : EReal) < ((x j : ℝ) : EReal)).card = (pos x Finset.univ).card := by
  unfold pos
  refine congrArg Finset.card (Finset.filter_congr fun j _ => ?_)
  exact EReal.coe_pos

/-- The reference's result at batch entry `n`, for an input whose rows are the finite `xr`. -/
theorem ref_value (x0 : (⟨S8x20x512x512, .f32⟩ : BufTy).Contents (Elt Ideal)) (xr : Fin 160 → Fin 262144 → ℝ)
    (hx : ∀ r j, rowsOf x0 r j = ((xr r j : ℝ) : EReal)) (n : Fin 8) :
    val_main_v36 (F := Ideal) x0 (ix1 n) = result xr n := by
  rw [ref_result x0 n, ref_cnt x0 n]
  unfold result
  have hent : ∀ c : Fin 20, val_main_v31 (F := Ideal) x0 (ix2 n c) = ((entRow (xr (rowOf n c)) : ℝ) : EReal) := by
    intro c
    rw [ref_ent x0 n c]
    have e : (fun j : Fin 262144 => rowsOf x0 (rowOf n c) j) = fun j => ((xr (rowOf n c) j : ℝ) : EReal) :=
      funext fun j => hx (rowOf n c) j
    rw [e]
    exact rEnt_coe (xr (rowOf n c))
  have hcnt : (((∑ c : Fin 20, (Finset.univ.filter fun j : Fin 262144 => (0 : EReal) < rowsOf x0 (rowOf n c) j).card : ℕ) : ℝ) : EReal)
      = 0 + ∑ c : Fin 20, ((cntPos (xr (rowOf n c)) Finset.univ : ℝ) : EReal) := by
    rw [coe_nat_sum, zero_add]
    refine Finset.sum_congr rfl fun c _ => ?_
    have e : (Finset.univ.filter fun j : Fin 262144 => (0 : EReal) < rowsOf x0 (rowOf n c) j)
        = Finset.univ.filter fun j : Fin 262144 => (0 : EReal) < ((xr (rowOf n c) j : ℝ) : EReal) :=
      Finset.filter_congr fun j _ => by rw [hx (rowOf n c) j]
    rw [e, card_pos_coe]
    rfl
  rw [hcnt]
  refine congrArg (fun z => Ideal.div (0 + z) _) ?_
  exact Finset.sum_congr rfl fun c _ => hent c

end Cert.ReferenceIdeal.RefValue

end
-- ==== Proof.FiniteInput.lean ====
/-
  A finite input is a real input.

  The precondition says that every entry's absolute value is below `+∞`, as one conjunction over the whole array. An
  extended real whose absolute value `max x (−x)` is below `+∞` is neither `+∞` nor `−∞`: it is a real number.
-/
import proofs.«121076_j35948876267666_2_alg».proof.Defs
import proofs.«121076_j35948876267666_2_alg».proof.Proof.Gen.Pre_finite_inputs
import Idealize.ShloMosaic.Lib.ReduceAll
import Idealize.ShloMosaic.PureOps.Ideal.Laws

noncomputable section

namespace Cert.Pre_finite_inputs.Finite

open Idealize.ShloMosaic Cert.Pre_finite_inputs

variable [Cert.Pre_finite_inputs.Facts]

instance : Subsingleton S_.Idx := ⟨fun a b => funext fun d => d.elim0⟩

/-- The bit pattern of `+∞`. -/
theorem ofBits_inf : Ideal.ofBits .f32 0x7F800000#32 = (⊤ : EReal) := by
  simp [Ideal.ofBits, Ideal.ieee]

/-- An extended real with absolute value below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the input is a real number. -/
theorem real_of_pre (x0 : FVec Ideal S8x20x512x512 .f32) (h : fn (F := Ideal) x0 = fun _ => 1#1) (i : S8x20x512x512.Idx) :
    ∃ r : ℝ, x0 i = (r : EReal) := by
  have h0 := congrFun h (fun d => d.elim0)
  dsimp only [fn] at h0
  have hi := Host.reduce_andi_all _ _ _ _ _ h0 i
  have e : cmpf CmpFPredicate.olt (Host.absf x0)
        (broadcastInDim S8x20x512x512 ![] Facts.bcast_S_S8x20x512x512 (constant S_ FTy.f32 0x7F800000#32)) i
      = BitVec.ofBool (decide (max (x0 i) (-(x0 i)) < Ideal.ofBits .f32 0x7F800000#32)) := rfl
  rw [e, ofBits_inf] at hi
  refine real_of_abs_lt_top (x0 i) ?_
  by_contra hn
  simp [hn] at hi

end Cert.Pre_finite_inputs.Finite

end
-- ==== Proof.lean ====
/-
  Two programs for one entropy: the proof of `Cert.Claim`.

  The input is 8 batch entries × 20 channels × 512 × 512 pixels. Per channel, only the POSITIVE pixels count: with
  `M` their maximum, `s = ∑ exp (x − M)` and `A = ∑ exp (x − M)(x − M)` over them, the channel's entropy in bits is
  `(log s · s − A) / (s · ln 2)`, that is `−∑ p log₂ p` for `p = exp (x − M) / s`; a batch entry's result is its channels'
  entropies summed, divided by its count of positive pixels.

  The reference masks each row (non-positive entries replaced by a large negative sentinel), takes the maximum, guards the
  empty row, exponentiates, sums, and forms `−∑ p log p / ln 2` term by term. The kernel reads each row ONCE, in 32
  chunks of 8192 columns (four grid points of eight loop trips), carrying a running maximum — started at the sentinel
  and taken over ALL entries — with the two sums rescaled by `exp (M_old − M_new)` at every chunk, and the count; the
  host then forms `(log s · s − A) / (s · ln 2)` from the accumulated sums. Over the reals these agree: rescaling turns
  `∑ exp (x − M_old)` into `∑ exp (x − M_new)` and `∑ exp (x − M_old)(x − M_old)` plus `(M_old − M_new) ∑ exp (x − M_old)`
  into `∑ exp (x − M_new)(x − M_new)` (the one-chunk law); a positive entry dominates the sentinel and every non-positive
  entry, so once a row has a positive entry the running maximum is the masked maximum, and a row without one has both
  sums empty on either side; and `−(1/s) ∑ e (t − log s) / ln 2 = (log s · s − A) / (s · ln 2)`. These laws divide and
  cancel, so they need FINITE entries — on the extended reals they fail at the infinities — and that is what the
  precondition gives: every entry's absolute value is below `+∞`, hence a real number.

  The pieces, each in its own module: the quantities and the extended-real shapes of the programs' operations
  (EntropySpec, Rows); the float words' values (Literals); the one-chunk law and the entropy from the sums
  (OnlineSoftmax); the masked row law (MaskedRow); the kernel body's loop as an iteration (KernelTrips), each payload
  at a row (KernelRow), a row through the loop (KernelRowIter), what each grid point leaves (KernelPieces,
  KernelPoints), the carried state after every point (KernelInvariant), the output arrays (KernelArrays), the host
  operations before and after the call (KernelInput, KernelTail), the kernel program's run (KernelResult); the
  reference's run (RefRun), its stages read at an index, its row entropy, count and quotient (RefEntropy, RefCount,
  RefResult); finiteness from the precondition (FiniteInput). Here the five conjuncts are assembled: the two kernel
  frames are the generated frame certificates, the reference's frame is its run with the result dropped, the
  idealization rewrote nothing, and both idealized programs end at `result` of the input's rows.
-/
import proofs.«121076_j35948876267666_2_alg».proof.Defs
import proofs.«121076_j35948876267666_2_alg».proof.Proof.Gen.Kernel
import proofs.«121076_j35948876267666_2_alg».proof.Proof.Gen.Kernel.Frame
import proofs.«121076_j35948876267666_2_alg».proof.Proof.Gen.KernelIdeal
import proofs.«121076_j35948876267666_2_alg».proof.Proof.Gen.KernelIdeal.Frame
import proofs.«121076_j35948876267666_2_alg».proof.Proof.Gen.ReferenceIdeal
import proofs.«121076_j35948876267666_2_alg».proof.Proof.Gen.Pre_finite_inputs
import proofs.«121076_j35948876267666_2_alg».proof.Proof.KernelResult
import proofs.«121076_j35948876267666_2_alg».proof.Proof.RefResult
import proofs.«121076_j35948876267666_2_alg».proof.Proof.FiniteInput
import Idealize.ShloMosaic.Adequacy
import Idealize.ShloMosaic.Init

noncomputable section

namespace Cert.Proof

open Idealize.ShloMosaic Idealize.ShloMosaic.ValueIdx Idealize.SL.Sem

/-- The kernel as printed runs, faults nowhere and leaves its argument alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On a finite input both idealized programs end with, per batch entry, the channels' entropies summed over the count
    of positive pixels: the kernel by its accumulation, the reference by its masked rows. -/
theorem algebraic : Cert.algebraic_KernelIdeal_ReferenceIdeal := by
  intro m ρ m' ρ' hpre hagree
  have hfin : Cert.KernelIdeal.Result.FiniteInput m := fun c i =>
    Cert.Pre_finite_inputs.Finite.real_of_pre _ (hpre c) i
  refine ⟨fun c => Cert.KernelIdeal.Result.resultArr (Cert.KernelIdeal.Result.xrOf m c),
    Cert.KernelIdeal.Result.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, hagree c]
  funext i
  obtain ⟨n, rfl⟩ : ∃ n : Fin 8, i = ix1 n := ⟨i 0, eq_ix1 i⟩
  exact Cert.ReferenceIdeal.RefValue.ref_value _ (Cert.KernelIdeal.Result.xrOf m c)
    (fun r j => (Cert.KernelIdeal.Input.V_main_v0_apply m c r j).symm.trans
      (Cert.KernelIdeal.Result.finiteRows m hfin c r j)) n

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
